-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S1024x512 : Shape := ⟨2, ![1024, 512]⟩
abbrev S1024 : Shape := ⟨1, ![1024]⟩
abbrev S1024x1 : Shape := ⟨2, ![1024, 1]⟩
abbrev S8192x512 : Shape := ⟨2, ![8192, 512]⟩
abbrev S8192 : Shape := ⟨1, ![8192]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S8192x512, .bf16⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S256x512, .bf16⟩
  | .local _ .vmem, ⟨9, _⟩ => ⟨S256x512, .bf16⟩
  | .local _ .vmem, ⟨10, _⟩ => ⟨S8192x512, .bf16⟩
  | .local _ .vmem, ⟨11, _⟩ => ⟨S256, .f32⟩
  | .local _ .vmem, ⟨12, _⟩ => ⟨S256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  concatenates_S4096x512_S4096x512_S8192x512_d0 : Shape.Concatenates [S4096x512, S4096x512] S8192x512 0
  inb_S256x512_S256x512_0_0 : ∀ a, (![0, 0] : Fin 2 → Nat) a + S256x512.size a ≤ S256x512.size a
  h_S256x512 : 0 < S256x512.numel
  shapeCasts_S256x512_S256x512 : S256x512.ShapeCasts S256x512
  iota_S256x1_d0_w32 : S256x1.Iotas .tc 32 [0]
  inb_S8192x512_S1024x512_0_0 : ∀ a, (![0, 0] : Fin 2 → Nat) a + S1024x512.size a ≤ S8192x512.size a
  shapeCasts_S1024x512_S1024x512 : S1024x512.ShapeCasts S1024x512
  iota_S256x1024_d1_w32 : S256x1024.Iotas .tc 32 [1]
  broadcasts_S256x1_S256x1024 : S256x1.Broadcasts S256x1024
  reduces_S256x1024_S256 : S256x1024.Reduces [1] S256
  shapeCasts_S256_S256x1 : S256.ShapeCasts S256x1
  inb_S8192x512_S1024x512_1024_0 : ∀ a, (![1024, 0] : Fin 2 → Nat) a + S1024x512.size a ≤ S8192x512.size a
  inb_S8192x512_S1024x512_2048_0 : ∀ a, (![2048, 0] : Fin 2 → Nat) a + S1024x512.size a ≤ S8192x512.size a
  inb_S8192x512_S1024x512_3072_0 : ∀ a, (![3072, 0] : Fin 2 → Nat) a + S1024x512.size a ≤ S8192x512.size a
  inb_S8192x512_S1024x512_4096_0 : ∀ a, (![4096, 0] : Fin 2 → Nat) a + S1024x512.size a ≤ S8192x512.size a
  inb_S8192x512_S1024x512_5120_0 : ∀ a, (![5120, 0] : Fin 2 → Nat) a + S1024x512.size a ≤ S8192x512.size a
  inb_S8192x512_S1024x512_6144_0 : ∀ a, (![6144, 0] : Fin 2 → Nat) a + S1024x512.size a ≤ S8192x512.size a
  inb_S8192x512_S1024x512_7168_0 : ∀ a, (![7168, 0] : Fin 2 → Nat) a + S1024x512.size a ≤ S8192x512.size a
  shapeCasts_S256x1_S256 : S256x1.ShapeCasts S256
  inb_S256_S256_0 : ∀ a, (![0] : Fin 1 → Nat) a + S256.size a ≤ S256.size a
  h_S256 : 0 < S256.numel
  reducesTo_S8192_S_d0 : S8192.ReducesTo [0] S_
  h_S_ : 0 < S_.numel
  dot_S256x512_S1024x512_S256x1024_1_1_0_0_n_n_wf : DotDims.WF S256x512 S1024x512 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .bf16 = 32 ∨ (Rect.block (s := S4096x512) S1024x512.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S8192x512.size a
  hwx2_0 : ∀ i : grid2.Coords, EltTy.bits .bf16 = 32 ∨ (Rect.block (s := S8192x512) S256x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .bf16 = 32 ∨ (Rect.block (s := S8192x512) S8192x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S8192.size a
  hwx2_2 : ∀ i : grid2.Coords, EltTy.bits .f32 = 32 ∨ (Rect.block (s := S8192) S256.size (cc2_transform_2 i) (hinb2_2 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S512x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S8192, .i32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S8192x1, .i32⟩
  | .hbm, ⟨59, _⟩ => ⟨S_, .i32⟩
  | .hbm, ⟨60, _⟩ => ⟨S8192x1, .i32⟩
  | .hbm, ⟨61, _⟩ => ⟨S8192x1, .i1⟩
  | .hbm, ⟨62, _⟩ => ⟨S_, .i32⟩
  | .hbm, ⟨63, _⟩ => ⟨S8192x1, .i32⟩
  | .hbm, ⟨64, _⟩ => ⟨S8192x1, .i32⟩
  | .hbm, ⟨65, _⟩ => ⟨S8192x1, .i32⟩
  | .hbm, ⟨66, _⟩ => ⟨S8192x1x1, .i32⟩
  | .hbm, ⟨67, _⟩ => ⟨S1, .i32⟩
  | .hbm, ⟨68, _⟩ => ⟨S_, .i32⟩
  | .hbm, ⟨69, _⟩ => ⟨S8192x1x1, .i32⟩
  | .hbm, ⟨70, _⟩ => ⟨S8192x1x1, .i1⟩
  | .hbm, ⟨71, _⟩ => ⟨S1x1x1, .i32⟩
  | .hbm, ⟨72, _⟩ => ⟨S8192x1x1, .i32⟩
  | .hbm, ⟨73, _⟩ => ⟨S8192x1x1, .i1⟩
  | .hbm, ⟨74, _⟩ => ⟨S8192x1x1, .i1⟩
  | .hbm, ⟨75, _⟩ => ⟨S_, .i1⟩
  | .hbm, ⟨76, _⟩ => ⟨S8192x1, .i1⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_call2_v0 : Ref sig .tc := ⟨.hbm, 35, rfl⟩
abbrev main_call2_v1 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call3_cst : Ref sig .tc := ⟨.hbm, 43, rfl⟩
abbrev main_call3_v0 : Ref sig .tc := ⟨.hbm, 44, rfl⟩
abbrev main_call3_cst_0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_v6 : Ref sig .tc := ⟨.hbm, 51, rfl⟩
abbrev main_call3_cst_1 : Ref sig .tc := ⟨.hbm, 52, rfl⟩
abbrev main_call3_v7 : Ref sig .tc := ⟨.hbm, 53, rfl⟩
abbrev main_call3_v8 : Ref sig .tc := ⟨.hbm, 54, rfl⟩
abbrev main_call3_v9 : Ref sig .tc := ⟨.hbm, 55, rfl⟩
abbrev main_call3_v10 : Ref sig .tc := ⟨.hbm, 56, rfl⟩
abbrev main_v25 : Ref sig .tc := ⟨.hbm, 57, rfl⟩
abbrev main_v26 : Ref sig .tc := ⟨.hbm, 58, rfl⟩
abbrev main_call4_c : Ref sig .tc := ⟨.hbm, 59, rfl⟩
abbrev main_call4_v0 : Ref sig .tc := ⟨.hbm, 60, rfl⟩
abbrev main_call4_v1 : Ref sig .tc := ⟨.hbm, 61, rfl⟩
abbrev main_call4_c_0 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_c_1 : Ref sig .tc := ⟨.hbm, 67, rfl⟩
abbrev main_call4_c_2 : Ref sig .tc := ⟨.hbm, 68, rfl⟩
abbrev main_call4_v6 : Ref sig .tc := ⟨.hbm, 69, rfl⟩
abbrev main_call4_v7 : Ref sig .tc := ⟨.hbm, 70, rfl⟩
abbrev main_call4_v8 : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_c_3 : Ref sig .tc := ⟨.hbm, 75, rfl⟩
abbrev main_call4_v12 : Ref sig .tc := ⟨.hbm, 76, rfl⟩
abbrev main_call4_v13 : Ref sig .tc := ⟨.hbm, 77, rfl⟩
abbrev main_call4_cst : Ref sig .tc := ⟨.hbm, 78, rfl⟩
abbrev main_call4_v14 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_cst_4 : Ref sig .tc := ⟨.hbm, 83, rfl⟩
abbrev main_v30 : Ref sig .tc := ⟨.hbm, 84, rfl⟩
abbrev main_cst_5 : Ref sig .tc := ⟨.hbm, 85, rfl⟩
abbrev main_v31 : Ref sig .tc := ⟨.hbm, 86, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x512_S512x8192_S8192x8192_1_0_0_1_n_n_wf : DotDims.WF S8192x512 S512x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.KReg0.lean ====
/-
  Region 0 of @main (the row normalisation of the first argument), at the buffer contents `V` the region is entered with:
  what the body leaves in its output block as a function of its input block, the body's triple, the proof data of the
  pipeline and the body obligation at every grid point. The body reads one 1024 × 512 block, computes, and stores one
  1024 × 512 block that covers the output's staging buffer; it also loads that buffer once before the store, a value it
  never uses.
-/
import proofs.«127245_j12824772346324_2_alg».proof.Proof.Gen.Kernel.Launch
import proofs.«127245_j12824772346324_2_alg».proof.Proof.Gen.Kernel.Skeleton
import proofs.«127245_j12824772346324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V`'s arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 1024 × 512 block. -/
abbrev r0_0 : Rect S1024x512 := Rect.unit (s := S1024x512) ![0, 0] S1024x512.size inb_S1024x512_S1024x512_0_0

/-- The output's staging buffer after the body: its one store, of the normalised block. -/
def out0_1 (x0 : Vec F S1024x512 .f32) : Vec F S1024x512 .bf16 :=
  View.canon [⟨r0_0, k0_pay1 (View.ld x0 r0_0)⟩]

/-- The store covers the buffer. -/
theorem cover0_1 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

set_option maxHeartbeats 1000000 in
/-- The body on whole staging memrefs — the input's at contents `x0`, the output's at anything — runs to the continuation
    with the input's as it was and the output's at `out0_1 x0`. -/
theorem sound_kernel0 (c : Dev nD) (E : Set ℕ) (i : grid0.Coords) (arg0 : Memref sig .tc .vmem S1024x512 .f32) (harg0 : arg0.IsWhole) (arg1 : Memref sig .tc .vmem S1024x512 .bf16) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    input's buffer at its block and the output's at `out0_1` of it; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KReg1.lean ====
/-
  Region 1 of @main (the row normalisation of the second argument), at the buffer contents `V` the region is entered with:
  what the body leaves in its output block as a function of its input block, the body's triple, the proof data of the
  pipeline and the body obligation at every grid point. The body reads one 1024 × 512 block, computes, and stores one
  1024 × 512 block that covers the output's staging buffer; it also loads that buffer once before the store, a value it
  never uses.
-/
import proofs.«127245_j12824772346324_2_alg».proof.Proof.Gen.Kernel.Launch
import proofs.«127245_j12824772346324_2_alg».proof.Proof.Gen.Kernel.Skeleton
import proofs.«127245_j12824772346324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data over `V`'s arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches: the whole 1024 × 512 block. -/
abbrev r1_0 : Rect S1024x512 := Rect.unit (s := S1024x512) ![0, 0] S1024x512.size inb_S1024x512_S1024x512_0_0

/-- The output's staging buffer after the body: its one store, of the normalised block. -/
def out1_1 (x0 : Vec F S1024x512 .f32) : Vec F S1024x512 .bf16 :=
  View.canon [⟨r1_0, k1_pay1 (View.ld x0 r1_0)⟩]

/-- The store covers the buffer. -/
theorem cover1_1 (p0 : Vec F S1024x512 .bf16) (y : S1024x512.Idx) :
    ∃ pc ∈ ([⟨r1_0, p0⟩] : List (View.Piece (Elt F) S1024x512 .bf16)), y ∈ pc.1.set :=
  View.cover_of_tiled [⟨r1_0, p0⟩] S1024x512.size (by rfl) y

set_option maxHeartbeats 1000000 in
/-- The body on whole staging memrefs — the input's at contents `x0`, the output's at anything — runs to the continuation
    with the input's as it was and the output's at `out1_1 x0`. -/
theorem sound_kernel1 (c : Dev nD) (E : Set ℕ) (i : grid1.Coords) (arg0 : Memref sig .tc .vmem S1024x512 .f32) (harg0 : arg0.IsWhole) (arg1 : Memref sig .tc .vmem S1024x512 .bf16) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__normalize_kernel i arg0 harg0 arg1 harg1) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 1 on core `c`: the arrays as the region finds them; after the body at point `t` the
    input's buffer at its block and the output's at `out1_1` of it; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KReg2.lean ====
/-
  Region 2 of @main (the scores and the row losses), at the buffer contents `V` the region is entered with. At grid
  point `i` the body reads a block of 256 query rows and, in eight slabs of 1024 rows, the whole 8192 × 512 key array
  (both windows are views of ONE array, the stacked normalised rows); it keeps a running maximum, a running normaliser
  and the partner's score per row, and stores the 256 row losses of the block, covering the output's staging buffer.
  It also loads that buffer once before the store, a value it never uses.
-/
import proofs.«127245_j12824772346324_2_alg».proof.Proof.Gen.Kernel.Launch
import proofs.«127245_j12824772346324_2_alg».proof.Proof.Gen.Kernel.Skeleton
import proofs.«127245_j12824772346324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point — fetched there or not: the key window is
    fetched at the first point only and its block index never moves — for any proof data over `V`'s arrays whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body touches: the query block whole, the eight 1024-row slabs of the key array, the output block whole. -/
abbrev rq2 : Rect S256x512 := Rect.unit (s := S256x512) ![0, 0] S256x512.size inb_S256x512_S256x512_0_0
abbrev rk2_0 : Rect S8192x512 := Rect.unit (s := S8192x512) ![0, 0] S1024x512.size inb_S8192x512_S1024x512_0_0
abbrev rk2_1 : Rect S8192x512 := Rect.unit (s := S8192x512) ![1024, 0] S1024x512.size inb_S8192x512_S1024x512_1024_0
abbrev rk2_2 : Rect S8192x512 := Rect.unit (s := S8192x512) ![2048, 0] S1024x512.size inb_S8192x512_S1024x512_2048_0
abbrev rk2_3 : Rect S8192x512 := Rect.unit (s := S8192x512) ![3072, 0] S1024x512.size inb_S8192x512_S1024x512_3072_0
abbrev rk2_4 : Rect S8192x512 := Rect.unit (s := S8192x512) ![4096, 0] S1024x512.size inb_S8192x512_S1024x512_4096_0
abbrev rk2_5 : Rect S8192x512 := Rect.unit (s := S8192x512) ![5120, 0] S1024x512.size inb_S8192x512_S1024x512_5120_0
abbrev rk2_6 : Rect S8192x512 := Rect.unit (s := S8192x512) ![6144, 0] S1024x512.size inb_S8192x512_S1024x512_6144_0
abbrev rk2_7 : Rect S8192x512 := Rect.unit (s := S8192x512) ![7168, 0] S1024x512.size inb_S8192x512_S1024x512_7168_0
abbrev ro2 : Rect S256 := Rect.unit (s := S256) ![0] S256.size inb_S256_S256_0

/-- The 256 row losses the body computes at grid point `i` from the query block `x0` and the key array `x1`: the eight
    slabs taken in turn, each updating the running maximum, the running normaliser and the partner's score. -/
def loss2 (i : grid2.Coords) (x0 : Vec F S256x512 .bf16) (x1 : Vec F S8192x512 .bf16) : FVec F S256 .f32 :=
  have v0 : Vec F S256x512 .bf16 := View.ld x0 rq2
  have v16 : Vec F S1024x512 .bf16 := View.ld x1 rk2_0
  have v1 : FVec F S256x512 .bf16 := k2_pay1 v0
  have v5 : IVec S256x1 32 := k2_pay2 i
  have v12 : IVec S256x1 32 := k2_pay3 i
  have v27 : FVec F S256x1024 .f32 := k2_pay6 i v0 v16
  have v34 : FVec F S256x1 .f32 := k2_pay7 i v0 v16
  have v37 : FVec F S256x1 .f32 := k2_pay8 i v0 v16
  have v40 : FVec F S256x1 .f32 := k2_pay9 i v0 v16
  have v47 : Vec F S1024x512 .bf16 := View.ld x1 rk2_1
  have v78 : Vec F S1024x512 .bf16 := View.ld x1 rk2_2
  have v83 : IVec S256x1024 32 := iota .tc S256x1024 32 [1] iota_S256x1024_d1_w32
  have v65 : FVec F S256x1 .f32 := k2_pay12 v1 v5 v12 v34 v47
  have v68 : FVec F S256x1 .f32 := k2_pay13 v1 v5 v37 v47
  have v77 : FVec F S256x1 .f32 := k2_pay14 v1 v5 v27 v37 v40 v47
  have v82 : FVec F S256x1024 .f32 := k2_pay15 v1 v78
  have v84 : IVec S256x1024 32 := k2_pay16
  have v109 : Vec F S1024x512 .bf16 := View.ld x1 rk2_3
  have v99 : FVec F S256x1 .f32 := k2_pay19 v5 v68 v82 v83 v84
  have v108 : FVec F S256x1 .f32 := k2_pay20 v5 v68 v77 v82 v83 v84
  have v120 : FVec F S256x1024 .f32 := k2_pay22 v1 v5 v109
  have v127 : FVec F S256x1 .f32 := k2_pay23 v1 v5 v12 v65 v82 v83 v84 v109
  have v130 : FVec F S256x1 .f32 := k2_pay24 v1 v5 v68 v82 v83 v84 v109
  have v140 : Vec F S1024x512 .bf16 := View.ld x1 rk2_4
  have v171 : Vec F S1024x512 .bf16 := View.ld x1 rk2_5
  have v158 : FVec F S256x1 .f32 := k2_pay27 v1 v5 v12 v127 v140
  have v161 : FVec F S256x1 .f32 := k2_pay28 v1 v5 v130 v140
  have v170 : FVec F S256x1 .f32 := k2_pay29 v1 v5 v99 v108 v120 v130 v140
  have v175 : FVec F S256x1024 .f32 := k2_pay30 v1 v171
  have v202 : Vec F S1024x512 .bf16 := View.ld x1 rk2_6
  have v192 : FVec F S256x1 .f32 := k2_pay33 v5 v161 v175
  have v201 : FVec F S256x1 .f32 := k2_pay34 v5 v161 v170 v175
  have v213 : FVec F S256x1024 .f32 := k2_pay36 v1 v5 v202
  have v220 : FVec F S256x1 .f32 := k2_pay37 v1 v5 v12 v158 v175 v202
  have v233 : Vec F S1024x512 .bf16 := View.ld x1 rk2_7
  k2_pay38 v1 v5 v12 v192 v201 v213 v220 v233

/-- The output's staging buffer after the body: its one store, of the block's row losses. -/
def out2_2 (i : grid2.Coords) (x0 : Vec F S256x512 .bf16) (x1 : Vec F S8192x512 .bf16) : Vec F S256 .f32 :=
  View.canon [⟨ro2, loss2 i x0 x1⟩]

/-- The store covers the buffer. -/
theorem cover2_2 (p0 : Vec F S256 .f32) (y : S256.Idx) :
    ∃ pc ∈ ([⟨ro2, p0⟩] : List (View.Piece (Elt F) S256 .f32)), y ∈ pc.1.set :=
  View.cover_of_tiled [⟨ro2, p0⟩] S256.size (by rfl) y

set_option maxHeartbeats 4000000 in
/-- The body on whole staging memrefs — the two inputs' at contents `x0`, `x1`, the output's at anything — runs to the
    continuation with the inputs' as they were and the output's at `out2_2 i x0 x1`. -/
theorem sound_kernel2 (c : Dev nD) (E : Set ℕ) (i : grid2.Coords) (arg0 : Memref sig .tc .vmem S256x512 .bf16) (harg0 : arg0.IsWhole)
    (arg1 : Memref sig .tc .vmem S8192x512 .bf16) (harg1 : arg1.IsWhole) (arg2 : Memref sig .tc .vmem S256 .f32) (harg2 : arg2.IsWhole)
    (x0 : Vec F S256x512 .bf16) (x1 : Vec F S8192x512 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 i x0 x1)) -∗ K ⟨⟩))
      ⊢ wp frame (wpE (defs₀ (F := F)) Variants.none c none) E (cc2__sim_softmax_kernel i arg0 harg0 arg1 harg1 arg2 harg2) K := by
  simp only [cc2__sim_softmax_kernel_eq_skeleton]; unfold cc2__sim_softmax_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer at its block and the output's at `out2_2` of the two input blocks; the invariant the scoped rest and the
    generator register, untouched; nothing owed; the one array behind the two input windows held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (grid2.coords t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KReg2Arr.lean ====
/-
  Region 2's arrays against the core's buffers. Its two input windows are views of ONE array, the stacked normalised rows,
  and its output window of another: the two distinct buffers, each whole at the full share, are the three windows'
  arrays — the shared one held half by each of the two windows that read it, by splitting its share in two —, and back.
-/
import proofs.«127245_j12824772346324_2_alg».proof.Proof.KReg2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 2's windows are the stacked rows and the row losses. -/
theorem arrRefs2 : Finset.univ.image (Pipeline.arrRef spec2) = insert main_v2 {main_v3} := by decide

/-- The two buffers behind the windows at contents `Vv`, against the three windows' arrays at contents `Fw` read off `Vv`. -/
theorem arrays2_iff (c : Dev nD) (Vv : (b : Ref sig .tc) → Buf (Elt F) ((c : Thread nD τ).loc b))
    (Fw : (w : Fin cfg2.W) → Buf (Elt F) ((cfg2.win w).arr.view.loc (c : Thread nD τ)))
    (hF : ∀ w, Fw w = Vv (Pipeline.arrRef spec2 w)) :
    (Pipeline.arrBufs (Ix := Unit) (Name := ℕ) (U := UR sig nD τ) (Lvl := ℕ) spec2 c Vv : sProp 𝕄) ⊣⊢ (dat2 V c).arrays Fw := by
  unfold Pipeline.arrBufs Pipeline.Dat.arrays
  rw [arrRefs2, bigSep_insert (by decide), bigSep_singleton, bigSep_W2]
  rw [(arr_whole2 0).set_eq_univ, (arr_whole2 2).set_eq_univ]
  rw [hF 0, hF 1, hF 2]
  show iprop((((c : Thread nD τ).loc main_v2) ↦{fullShare} Vv main_v2) ∗ (((c : Thread nD τ).loc main_v3) ↦{fullShare} Vv main_v3))
    ⊣⊢ iprop((((c : Thread nD τ).loc main_v2) ↦{fullShare.left} Vv main_v2) ∗ (((c : Thread nD τ).loc main_v2) ↦{fullShare.right} Vv main_v2)
        ∗ (((c : Thread nD τ).loc main_v3) ↦{fullShare} Vv main_v3))
  have hs1 : (iprop(((c : Thread nD τ).loc main_v2) ↦{fullShare} Vv main_v2) : sProp 𝕄)
      ⊢ iprop((((c : Thread nD τ).loc main_v2) ↦{fullShare.left} Vv main_v2) ∗ (((c : Thread nD τ).loc main_v2) ↦{fullShare.right} Vv main_v2)) :=
    (pointsTo_share (PosShare.mem_left_op_right fullShare)).1
  have hs2 : (iprop((((c : Thread nD τ).loc main_v2) ↦{fullShare.left} Vv main_v2) ∗ (((c : Thread nD τ).loc main_v2) ↦{fullShare.right} Vv main_v2)) : sProp 𝕄)
      ⊢ iprop(((c : Thread nD τ).loc main_v2) ↦{fullShare} Vv main_v2) :=
    (pointsTo_share (PosShare.mem_left_op_right fullShare)).2
  constructor
  · iintro ⟨HA, HB⟩
    ihave HA' := hs1 $$ HA
    icases HA' with ⟨H1, H2⟩
    isplitl [H1]; · iexact H1
    isplitl [H2]; · iexact H2
    iexact HB
  · iintro ⟨H1, H2, HB⟩
    isplitl [H1 H2]
    · iapply hs2; isplitl [H1] <;> iassumption
    iexact HB

end Cert.Kernel.Gen

end
-- ==== Proof.KRun.lean ====
/-
  The run of @main: two row normalisations, the stacking of their results, the scores-and-losses region, and the mean.
  The buffer contents at every boundary between two items are a fold from the launch memory: a host stretch's operations
  applied, a region's output array at what its write-backs leave. Every weakly fair execution terminates, nothing faulting,
  with every unscoped buffer at the last boundary's contents.
-/
import proofs.«127245_j12824772346324_2_alg».proof.Proof.KReg0
import proofs.«127245_j12824772346324_2_alg».proof.Proof.KReg1
import proofs.«127245_j12824772346324_2_alg».proof.Proof.KReg2Arr
import proofs.«127245_j12824772346324_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev Bd0 : Dev nD → Valuation τ sig (Elt F) := fun c b => (s₀ m ρ).mem ((c : Dev nD), b)
abbrev Bv0 : (c : Dev nD) → (b : Ref sig .tc) → Buf (Elt F) ((c : Thread nD τ).loc b) := fun c b => Bd0 m ρ c b
/-- At region 0's exit (region 1's entry): its output array at what the pipeline leaves. -/
def Bd1 (c : Dev nD) : Valuation τ sig (Elt F) :=
  Pipeline.withArrays spec0 c (Bd0 m ρ c) fun w => (dat0 (Bv0 m ρ) c).arrAt w cfg0.N
theorem Bd1_arr (c : Dev nD) (w : Fin cfg0.W) :
    Bd1 m ρ c (Proc.devRef .tc (Pipeline.arrRef spec0 w)) = (dat0 (Bv0 m ρ) c).arrAt w cfg0.N := by
  unfold Bd1; exact Pipeline.withArrays_arr spec0 launch0.win.arr_inj c _ _ w
theorem Bd1_of_ne (c : Dev nD) (b : Ref sig .tc) (hb : ∀ w, Pipeline.arrRef spec0 w ≠ b) :
    Bd1 m ρ c (Proc.devRef .tc b) = Bd0 m ρ c (Proc.devRef .tc b) := by
  unfold Bd1; exact Pipeline.withArrays_of_ne spec0 c _ _ b hb
abbrev Bv1 : (c : Dev nD) → (b : Ref sig .tc) → Buf (Elt F) ((c : Thread nD τ).loc b) := fun c b => Bd1 m ρ c b
theorem hF0 (c : Dev nD) (w : Fin cfg0.W) : (dat0 (Bv0 m ρ) c).arrAt w cfg0.N = Bv1 m ρ c (Pipeline.arrRef spec0 w) :=
  (Bd1_arr m ρ c w).symm
theorem hrest0 (c : Dev nD) : ∀ b, b ∉ Finset.univ.image (Pipeline.arrRef spec0) → Bv1 m ρ c b = Bv0 m ρ c b :=
  fun b hb => Bd1_of_ne m ρ c b fun w e => hb (Finset.mem_image.mpr ⟨w, Finset.mem_univ _, e⟩)

/-- At region 1's exit. -/
def Bd2 (c : Dev nD) : Valuation τ sig (Elt F) :=
  Pipeline.withArrays spec1 c (Bd1 m ρ c) fun w => (dat1 (Bv1 m ρ) c).arrAt w cfg1.N
theorem Bd2_arr (c : Dev nD) (w : Fin cfg1.W) :
    Bd2 m ρ c (Proc.devRef .tc (Pipeline.arrRef spec1 w)) = (dat1 (Bv1 m ρ) c).arrAt w cfg1.N := by
  unfold Bd2; exact Pipeline.withArrays_arr spec1 launch1.win.arr_inj c _ _ w
theorem Bd2_of_ne (c : Dev nD) (b : Ref sig .tc) (hb : ∀ w, Pipeline.arrRef spec1 w ≠ b) :
    Bd2 m ρ c (Proc.devRef .tc b) = Bd1 m ρ c (Proc.devRef .tc b) := by
  unfold Bd2; exact Pipeline.withArrays_of_ne spec1 c _ _ b hb
abbrev Bv2 : (c : Dev nD) → (b : Ref sig .tc) → Buf (Elt F) ((c : Thread nD τ).loc b) := fun c b => Bd2 m ρ c b
theorem hF1 (c : Dev nD) (w : Fin cfg1.W) : (dat1 (Bv1 m ρ) c).arrAt w cfg1.N = Bv2 m ρ c (Pipeline.arrRef spec1 w) :=
  (Bd2_arr m ρ c w).symm
theorem hrest1 (c : Dev nD) : ∀ b, b ∉ Finset.univ.image (Pipeline.arrRef spec1) → Bv2 m ρ c b = Bv1 m ρ c b :=
  fun b hb => Bd2_of_ne m ρ c b fun w e => hb (Finset.mem_image.mpr ⟨w, Finset.mem_univ _, e⟩)

/-- After the stacking (region 2's entry). -/
abbrev Bd3 : Dev nD → Valuation τ sig (Elt F) := fun c => StableHlo.after hostOps2 (Bd2 m ρ c)
abbrev Bv3 : (c : Dev nD) → (b : Ref sig .tc) → Buf (Elt F) ((c : Thread nD τ).loc b) := fun c b => Bd3 m ρ c b
/-- At region 2's exit: the row losses at what the pipeline leaves, every other buffer as entered. -/
def Bd4 (c : Dev nD) : Valuation τ sig (Elt F) :=
  Function.update (Bd3 m ρ c) main_v3 ((dat2 (Bv3 m ρ) c).arrAt 2 cfg2.N : Buf (Elt F) ((c : Thread nD τ).loc main_v3))
abbrev Bv4 : (c : Dev nD) → (b : Ref sig .tc) → Buf (Elt F) ((c : Thread nD τ).loc b) := fun c b => Bd4 m ρ c b
/-- After the mean (the end). -/
abbrev Bd5 : Dev nD → Valuation τ sig (Elt F) := fun c => StableHlo.after hostOps3 (Bd4 m ρ c)

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (Bv0 m ρ) c
  | ⟨1, _⟩ => fun c => dat1 (Bv1 m ρ) c
  | ⟨2, _⟩ => fun c => dat2 (Bv3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv0 m ρ) c).loose
  hwaits := Pipeline.hwaits_of_owed_zero _ _ _ _ L lv 0 fun _ _ => rfl
  pre c := iprop(StableHlo.held (c : Thread nD τ) (Pipeline.ucRefs τ sig) (Bd0 m ρ c) ∗ R c)
  post c := iprop(StableHlo.held (c : Thread nD τ) (Pipeline.ucRefs τ sig) (Bd1 m ρ c) ∗ R c)
  X c := iprop(∃ r, prngReg c r)
  Y c := iprop(∃ r, prngReg c r)
  Z c := Pipeline.unscopedRest (Ix := Unit) (Name := ℕ) (U := UR sig nD τ) (Lvl := ℕ) spec0 c (Bv0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Bv0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Bv0 m ρ c) (Bv1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv1 m ρ) c).loose
  hwaits := Pipeline.hwaits_of_owed_zero _ _ _ _ L lv 1 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec1 c (Bv1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Bv1 m ρ c) (Bv2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's entry, the arrays' part: the core's unscoped buffers at the entry contents are its three windows' arrays
    (the stacked rows held half and half by the two windows that read them) and the rest. -/
theorem entry2 (c : Dev nD) :
    (unscopedBufs c (Bv3 m ρ c) : sProp 𝕄)
      ⊢ iprop((dat2 (Bv3 m ρ) c).arrays ((dat2 (Bv3 m ρ) c).arrAt · 0) ∗ Pipeline.unscopedRest (Ix := Unit) (Name := ℕ) (U := UR sig nD τ) (Lvl := ℕ) spec2 c (Bv3 m ρ c)) := by
  rw [Pipeline.unscopedBufs_split₀ (Pipeline.pin (pcfgs (F := F)) adm) 2 winFacts₀2.arr_unscoped c (Bv3 m ρ c)]
  exact sep_mono (arrays2_iff (Bv3 m ρ) c (Bv3 m ρ c) _ (fun w => rfl)).1 .rfl

theorem Bd4_v3 (c : Dev nD) : Bd4 m ρ c (Proc.devRef .tc main_v3) = (dat2 (Bv3 m ρ) c).arrAt 2 cfg2.N := by
  unfold Bd4; exact Function.update_self _ _ _
theorem Bd4_of_ne (c : Dev nD) (b : Ref sig .tc) (hb : b ≠ main_v3) : Bd4 m ρ c (Proc.devRef .tc b) = Bd3 m ρ c (Proc.devRef .tc b) := by
  unfold Bd4
  exact Function.update_of_ne (StableHlo.devRef_ne_of_ne hb : (Proc.devRef .tc b : DevRef τ sig) ≠ Proc.devRef .tc main_v3) _ _
/-- At region 2's exit each window's array holds what the pipeline leaves: the two input windows' (one array) as entered, the output's its write-backs. -/
theorem hF2 (c : Dev nD) (w : Fin cfg2.W) : (dat2 (Bv3 m ρ) c).arrAt w cfg2.N = Bv4 m ρ c (Pipeline.arrRef spec2 w) := by
  match w with
  | ⟨0, _⟩ => exact ((dat2 (Bv3 m ρ) c).arrAt_in 0 rfl _).trans ((A_eq2 (Bv3 m ρ) c 0).trans (Bd4_of_ne m ρ c main_v2 (by decide)).symm)
  | ⟨1, _⟩ => exact ((dat2 (Bv3 m ρ) c).arrAt_in 1 rfl _).trans ((A_eq2 (Bv3 m ρ) c 1).trans (Bd4_of_ne m ρ c main_v2 (by decide)).symm)
  | ⟨2, _⟩ => exact (Bd4_v3 m ρ c).symm
theorem hrest2 (c : Dev nD) : ∀ b, b ∉ Finset.univ.image (Pipeline.arrRef spec2) → Bv4 m ρ c b = Bv3 m ρ c b :=
  fun b hb => Bd4_of_ne m ρ c b fun e => hb (Finset.mem_image.mpr ⟨2, Finset.mem_univ _, e.symm⟩)

/-- Region 2's exit, the arrays' part: the three windows' arrays at what the pipeline leaves and the rest are the core's
    unscoped buffers at the exit contents — the stacked rows as entered (no window writes them), the row losses at
    what the write-backs leave. -/
theorem exit2 (c : Dev nD) :
    iprop((dat2 (Bv3 m ρ) c).arrays ((dat2 (Bv3 m ρ) c).arrAt · cfg2.N) ∗ Pipeline.unscopedRest (Ix := Unit) (Name := ℕ) (U := UR sig nD τ) (Lvl := ℕ) spec2 c (Bv3 m ρ c))
      ⊢ (unscopedBufs c (Bv4 m ρ c) : sProp 𝕄) := by
  rw [Pipeline.unscopedBufs_split₀ (Pipeline.pin (pcfgs (F := F)) adm) 2 winFacts₀2.arr_unscoped c (Bv4 m ρ c)]
  refine sep_mono (arrays2_iff (Bv3 m ρ) c (Bv4 m ρ c) _ (hF2 m ρ c)).2 (Entails.of_eq ?_)
  unfold Pipeline.unscopedRest
  exact bigSep_congr fun b hb => by rw [hrest2 m ρ c b (Finset.mem_sdiff.mp hb).2]

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (Bv3 m ρ) c).loose
  hwaits := Pipeline.hwaits_of_owed_zero _ _ _ _ L lv 2 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec2 c (Bv3 m ρ c)
  hentry c := by
    rw [Pipeline.ownSems0_none]
    have hsplit := entry2 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m ρ 2 c).arrays ((pdats m ρ 2 c).arrAt · cfg2.N) ∗ Pipeline.unscopedRest (Ix := Unit) (Name := ℕ) (U := UR sig nD τ) (Lvl := ℕ) spec2 c (Bv3 m ρ c)) : sProp 𝕄)
        ⊢ (unscopedBufs c (Bv4 m ρ c) : sProp 𝕄) := exit2 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) adm (pdats m ρ) () defs₀ 𝒱₀ L lv) :=
  [ .region (reg0 m ρ),
    .region (reg1 m ρ),
    .host (hseg hostOps2 hostOps2_sub hostOps2_fresh (Bd2 m ρ)),
    .region (reg2 m ρ),
    .host (hseg hostOps3 hostOps3_sub hostOps3_fresh (Bd4 m ρ)) ]
theorem main_run (c : Dev nD) : main (F := F) c = Pipeline.Seg.run (rsegs m ρ) := (main_chain c).trans (by chain_rfl)

set_option backward.isDefEq.respectTransparency.types false in
/-- THE RUN: from any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd5 m ρ c b) :=
  Pipeline.θ_run_regions_kit (pcfgs (F := F)) adm (pdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (Bd5 m ρ c) ∗ R c) : sProp 𝕄)
        ⊢ iprop(Tₙ m ρ c ∗ ∃ W, owes (c : Thread nD τ) (0 : CellTallies nD τ sig Unit) W)
      iintro ⟨H, Hp, HO⟩
      isplitl [H Hp]
      · isplitl [H]; · iexact H
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd5 m ρ c) s')
      isplitl [Hh] <;> iassumption)
    (hQ := fun s h c => h c)

/-! ## The arguments end as launched -/

/-- No host operation and no region writes the first argument: region 0 reads it through its input window. -/
theorem Bd5_main_arg0 (c : Dev nD) : Bd5 m ρ c (Proc.devRef .tc main_arg0) = m ((c : Thread nD τ).loc main_arg0) :=
  calc Bd5 m ρ c (Proc.devRef .tc main_arg0)
    _ = Bd4 m ρ c (Proc.devRef .tc main_arg0) := StableHlo.after_of_writes_sub hostOps3 _ hostOps3_writes (by decide)
    _ = Bd3 m ρ c (Proc.devRef .tc main_arg0) := Bd4_of_ne m ρ c main_arg0 (by decide)
    _ = Bd2 m ρ c (Proc.devRef .tc main_arg0) := StableHlo.after_of_writes_sub hostOps2 _ hostOps2_writes (by decide)
    _ = Bd1 m ρ c (Proc.devRef .tc main_arg0) := Bd2_of_ne m ρ c main_arg0 (by decide)
    _ = Bd0 m ρ c (Proc.devRef .tc main_arg0) := (Bd1_arr m ρ c 0).trans (((dat0 (Bv0 m ρ) c).arrAt_in 0 rfl _).trans (A_eq0 (Bv0 m ρ) c 0))
    _ = m ((c : Thread nD τ).loc main_arg0) := rfl
/-- Nor the second: region 1 reads it through its input window. -/
theorem Bd5_main_arg1 (c : Dev nD) : Bd5 m ρ c (Proc.devRef .tc main_arg1) = m ((c : Thread nD τ).loc main_arg1) :=
  calc Bd5 m ρ c (Proc.devRef .tc main_arg1)
    _ = Bd4 m ρ c (Proc.devRef .tc main_arg1) := StableHlo.after_of_writes_sub hostOps3 _ hostOps3_writes (by decide)
    _ = Bd3 m ρ c (Proc.devRef .tc main_arg1) := Bd4_of_ne m ρ c main_arg1 (by decide)
    _ = Bd2 m ρ c (Proc.devRef .tc main_arg1) := StableHlo.after_of_writes_sub hostOps2 _ hostOps2_writes (by decide)
    _ = Bd1 m ρ c (Proc.devRef .tc main_arg1) := (Bd2_arr m ρ c 0).trans (((dat1 (Bv1 m ρ) c).arrAt_in 0 rfl _).trans (A_eq1 (Bv1 m ρ) c 0))
    _ = Bd0 m ρ c (Proc.devRef .tc main_arg1) := Bd1_of_ne m ρ c main_arg1 (by decide)
    _ = m ((c : Thread nD τ).loc main_arg1) := rfl

/-- THE FRAME: every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Bd5_main_arg0 m ρ c),
     (h c _ (mem_uc main_arg1 (by decide))).trans (Bd5_main_arg1 m ρ c)⟩) (run_all m ρ)

end Cert.Kernel.Gen

end
-- ==== Proof.KIReg0.lean ====
/-
  Region 0 of @main (the row normalisation of the first argument), at the buffer contents `V` the region is entered with:
  what the body leaves in its output block as a function of its input block, the body's triple, the proof data of the
  pipeline and the body obligation at every grid point. The body reads one 1024 × 512 block, computes, and stores one
  1024 × 512 block that covers the output's staging buffer; it also loads that buffer once before the store, a value it
  never uses.
-/
import proofs.«127245_j12824772346324_2_alg».proof.Proof.Gen.KernelIdeal.Launch
import proofs.«127245_j12824772346324_2_alg».proof.Proof.Gen.KernelIdeal.Skeleton
import proofs.«127245_j12824772346324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V`'s arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 1024 × 512 block. -/
abbrev r0_0 : Rect S1024x512 := Rect.unit (s := S1024x512) ![0, 0] S1024x512.size inb_S1024x512_S1024x512_0_0

/-- The output's staging buffer after the body: its one store, of the normalised block. -/
def out0_1 (x0 : Vec F S1024x512 .f32) : Vec F S1024x512 .bf16 :=
  View.canon [⟨r0_0, k0_pay1 (View.ld x0 r0_0)⟩]

/-- The store covers the buffer. -/
theorem cover0_1 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

set_option maxHeartbeats 1000000 in
/-- The body on whole staging memrefs — the input's at contents `x0`, the output's at anything — runs to the continuation
    with the input's as it was and the output's at `out0_1 x0`. -/
theorem sound_kernel0 (c : Dev nD) (E : Set ℕ) (i : grid0.Coords) (arg0 : Memref sig .tc .vmem S1024x512 .f32) (harg0 : arg0.IsWhole) (arg1 : Memref sig .tc .vmem S1024x512 .bf16) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    input's buffer at its block and the output's at `out0_1` of it; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KIReg1.lean ====
/-
  Region 1 of @main (the row normalisation of the second argument), at the buffer contents `V` the region is entered with:
  what the body leaves in its output block as a function of its input block, the body's triple, the proof data of the
  pipeline and the body obligation at every grid point. The body reads one 1024 × 512 block, computes, and stores one
  1024 × 512 block that covers the output's staging buffer; it also loads that buffer once before the store, a value it
  never uses.
-/
import proofs.«127245_j12824772346324_2_alg».proof.Proof.Gen.KernelIdeal.Launch
import proofs.«127245_j12824772346324_2_alg».proof.Proof.Gen.KernelIdeal.Skeleton
import proofs.«127245_j12824772346324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data over `V`'s arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches: the whole 1024 × 512 block. -/
abbrev r1_0 : Rect S1024x512 := Rect.unit (s := S1024x512) ![0, 0] S1024x512.size inb_S1024x512_S1024x512_0_0

/-- The output's staging buffer after the body: its one store, of the normalised block. -/
def out1_1 (x0 : Vec F S1024x512 .f32) : Vec F S1024x512 .bf16 :=
  View.canon [⟨r1_0, k1_pay1 (View.ld x0 r1_0)⟩]

/-- The store covers the buffer. -/
theorem cover1_1 (p0 : Vec F S1024x512 .bf16) (y : S1024x512.Idx) :
    ∃ pc ∈ ([⟨r1_0, p0⟩] : List (View.Piece (Elt F) S1024x512 .bf16)), y ∈ pc.1.set :=
  View.cover_of_tiled [⟨r1_0, p0⟩] S1024x512.size (by rfl) y

set_option maxHeartbeats 1000000 in
/-- The body on whole staging memrefs — the input's at contents `x0`, the output's at anything — runs to the continuation
    with the input's as it was and the output's at `out1_1 x0`. -/
theorem sound_kernel1 (c : Dev nD) (E : Set ℕ) (i : grid1.Coords) (arg0 : Memref sig .tc .vmem S1024x512 .f32) (harg0 : arg0.IsWhole) (arg1 : Memref sig .tc .vmem S1024x512 .bf16) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__normalize_kernel i arg0 harg0 arg1 harg1) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 1 on core `c`: the arrays as the region finds them; after the body at point `t` the
    input's buffer at its block and the output's at `out1_1` of it; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KIReg2.lean ====
/-
  Region 2 of @main (the scores and the row losses), at the buffer contents `V` the region is entered with. At grid
  point `i` the body reads a block of 256 query rows and, in eight slabs of 1024 rows, the whole 8192 × 512 key array
  (both windows are views of ONE array, the stacked normalised rows); it keeps a running maximum, a running normaliser
  and the partner's score per row, and stores the 256 row losses of the block, covering the output's staging buffer.
  It also loads that buffer once before the store, a value it never uses.
-/
import proofs.«127245_j12824772346324_2_alg».proof.Proof.Gen.KernelIdeal.Launch
import proofs.«127245_j12824772346324_2_alg».proof.Proof.Gen.KernelIdeal.Skeleton
import proofs.«127245_j12824772346324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point — fetched there or not: the key window is
    fetched at the first point only and its block index never moves — for any proof data over `V`'s arrays whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body touches: the query block whole, the eight 1024-row slabs of the key array, the output block whole. -/
abbrev rq2 : Rect S256x512 := Rect.unit (s := S256x512) ![0, 0] S256x512.size inb_S256x512_S256x512_0_0
abbrev rk2_0 : Rect S8192x512 := Rect.unit (s := S8192x512) ![0, 0] S1024x512.size inb_S8192x512_S1024x512_0_0
abbrev rk2_1 : Rect S8192x512 := Rect.unit (s := S8192x512) ![1024, 0] S1024x512.size inb_S8192x512_S1024x512_1024_0
abbrev rk2_2 : Rect S8192x512 := Rect.unit (s := S8192x512) ![2048, 0] S1024x512.size inb_S8192x512_S1024x512_2048_0
abbrev rk2_3 : Rect S8192x512 := Rect.unit (s := S8192x512) ![3072, 0] S1024x512.size inb_S8192x512_S1024x512_3072_0
abbrev rk2_4 : Rect S8192x512 := Rect.unit (s := S8192x512) ![4096, 0] S1024x512.size inb_S8192x512_S1024x512_4096_0
abbrev rk2_5 : Rect S8192x512 := Rect.unit (s := S8192x512) ![5120, 0] S1024x512.size inb_S8192x512_S1024x512_5120_0
abbrev rk2_6 : Rect S8192x512 := Rect.unit (s := S8192x512) ![6144, 0] S1024x512.size inb_S8192x512_S1024x512_6144_0
abbrev rk2_7 : Rect S8192x512 := Rect.unit (s := S8192x512) ![7168, 0] S1024x512.size inb_S8192x512_S1024x512_7168_0
abbrev ro2 : Rect S256 := Rect.unit (s := S256) ![0] S256.size inb_S256_S256_0

/-- The 256 row losses the body computes at grid point `i` from the query block `x0` and the key array `x1`: the eight
    slabs taken in turn, each updating the running maximum, the running normaliser and the partner's score. -/
def loss2 (i : grid2.Coords) (x0 : Vec F S256x512 .bf16) (x1 : Vec F S8192x512 .bf16) : FVec F S256 .f32 :=
  have v0 : Vec F S256x512 .bf16 := View.ld x0 rq2
  have v16 : Vec F S1024x512 .bf16 := View.ld x1 rk2_0
  have v1 : FVec F S256x512 .bf16 := k2_pay1 v0
  have v5 : IVec S256x1 32 := k2_pay2 i
  have v12 : IVec S256x1 32 := k2_pay3 i
  have v27 : FVec F S256x1024 .f32 := k2_pay6 i v0 v16
  have v34 : FVec F S256x1 .f32 := k2_pay7 i v0 v16
  have v37 : FVec F S256x1 .f32 := k2_pay8 i v0 v16
  have v40 : FVec F S256x1 .f32 := k2_pay9 i v0 v16
  have v47 : Vec F S1024x512 .bf16 := View.ld x1 rk2_1
  have v78 : Vec F S1024x512 .bf16 := View.ld x1 rk2_2
  have v83 : IVec S256x1024 32 := iota .tc S256x1024 32 [1] iota_S256x1024_d1_w32
  have v65 : FVec F S256x1 .f32 := k2_pay12 v1 v5 v12 v34 v47
  have v68 : FVec F S256x1 .f32 := k2_pay13 v1 v5 v37 v47
  have v77 : FVec F S256x1 .f32 := k2_pay14 v1 v5 v27 v37 v40 v47
  have v82 : FVec F S256x1024 .f32 := k2_pay15 v1 v78
  have v84 : IVec S256x1024 32 := k2_pay16
  have v109 : Vec F S1024x512 .bf16 := View.ld x1 rk2_3
  have v99 : FVec F S256x1 .f32 := k2_pay19 v5 v68 v82 v83 v84
  have v108 : FVec F S256x1 .f32 := k2_pay20 v5 v68 v77 v82 v83 v84
  have v120 : FVec F S256x1024 .f32 := k2_pay22 v1 v5 v109
  have v127 : FVec F S256x1 .f32 := k2_pay23 v1 v5 v12 v65 v82 v83 v84 v109
  have v130 : FVec F S256x1 .f32 := k2_pay24 v1 v5 v68 v82 v83 v84 v109
  have v140 : Vec F S1024x512 .bf16 := View.ld x1 rk2_4
  have v171 : Vec F S1024x512 .bf16 := View.ld x1 rk2_5
  have v158 : FVec F S256x1 .f32 := k2_pay27 v1 v5 v12 v127 v140
  have v161 : FVec F S256x1 .f32 := k2_pay28 v1 v5 v130 v140
  have v170 : FVec F S256x1 .f32 := k2_pay29 v1 v5 v99 v108 v120 v130 v140
  have v175 : FVec F S256x1024 .f32 := k2_pay30 v1 v171
  have v202 : Vec F S1024x512 .bf16 := View.ld x1 rk2_6
  have v192 : FVec F S256x1 .f32 := k2_pay33 v5 v161 v175
  have v201 : FVec F S256x1 .f32 := k2_pay34 v5 v161 v170 v175
  have v213 : FVec F S256x1024 .f32 := k2_pay36 v1 v5 v202
  have v220 : FVec F S256x1 .f32 := k2_pay37 v1 v5 v12 v158 v175 v202
  have v233 : Vec F S1024x512 .bf16 := View.ld x1 rk2_7
  k2_pay38 v1 v5 v12 v192 v201 v213 v220 v233

/-- The output's staging buffer after the body: its one store, of the block's row losses. -/
def out2_2 (i : grid2.Coords) (x0 : Vec F S256x512 .bf16) (x1 : Vec F S8192x512 .bf16) : Vec F S256 .f32 :=
  View.canon [⟨ro2, loss2 i x0 x1⟩]

/-- The store covers the buffer. -/
theorem cover2_2 (p0 : Vec F S256 .f32) (y : S256.Idx) :
    ∃ pc ∈ ([⟨ro2, p0⟩] : List (View.Piece (Elt F) S256 .f32)), y ∈ pc.1.set :=
  View.cover_of_tiled [⟨ro2, p0⟩] S256.size (by rfl) y

set_option maxHeartbeats 4000000 in
/-- The body on whole staging memrefs — the two inputs' at contents `x0`, `x1`, the output's at anything — runs to the
    continuation with the inputs' as they were and the output's at `out2_2 i x0 x1`. -/
theorem sound_kernel2 (c : Dev nD) (E : Set ℕ) (i : grid2.Coords) (arg0 : Memref sig .tc .vmem S256x512 .bf16) (harg0 : arg0.IsWhole)
    (arg1 : Memref sig .tc .vmem S8192x512 .bf16) (harg1 : arg1.IsWhole) (arg2 : Memref sig .tc .vmem S256 .f32) (harg2 : arg2.IsWhole)
    (x0 : Vec F S256x512 .bf16) (x1 : Vec F S8192x512 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 i x0 x1)) -∗ K ⟨⟩))
      ⊢ wp frame (wpE (defs₀ (F := F)) Variants.none c none) E (cc2__sim_softmax_kernel i arg0 harg0 arg1 harg1 arg2 harg2) K := by
  simp only [cc2__sim_softmax_kernel_eq_skeleton]; unfold cc2__sim_softmax_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer at its block and the output's at `out2_2` of the two input blocks; the invariant the scoped rest and the
    generator register, untouched; nothing owed; the one array behind the two input windows held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (grid2.coords t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KIReg2Arr.lean ====
/-
  Region 2's arrays against the core's buffers. Its two input windows are views of ONE array, the stacked normalised rows,
  and its output window of another: the two distinct buffers, each whole at the full share, are the three windows'
  arrays — the shared one held half by each of the two windows that read it, by splitting its share in two —, and back.
-/
import proofs.«127245_j12824772346324_2_alg».proof.Proof.KIReg2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The buffers behind region 2's windows are the stacked rows and the row losses. -/
theorem arrRefs2 : Finset.univ.image (Pipeline.arrRef spec2) = insert main_v2 {main_v3} := by decide

/-- The two buffers behind the windows at contents `Vv`, against the three windows' arrays at contents `Fw` read off `Vv`. -/
theorem arrays2_iff (c : Dev nD) (Vv : (b : Ref sig .tc) → Buf (Elt F) ((c : Thread nD τ).loc b))
    (Fw : (w : Fin cfg2.W) → Buf (Elt F) ((cfg2.win w).arr.view.loc (c : Thread nD τ)))
    (hF : ∀ w, Fw w = Vv (Pipeline.arrRef spec2 w)) :
    (Pipeline.arrBufs (Ix := Unit) (Name := ℕ) (U := UR sig nD τ) (Lvl := ℕ) spec2 c Vv : sProp 𝕄) ⊣⊢ (dat2 V c).arrays Fw := by
  unfold Pipeline.arrBufs Pipeline.Dat.arrays
  rw [arrRefs2, bigSep_insert (by decide), bigSep_singleton, bigSep_W2]
  rw [(arr_whole2 0).set_eq_univ, (arr_whole2 2).set_eq_univ]
  rw [hF 0, hF 1, hF 2]
  show iprop((((c : Thread nD τ).loc main_v2) ↦{fullShare} Vv main_v2) ∗ (((c : Thread nD τ).loc main_v3) ↦{fullShare} Vv main_v3))
    ⊣⊢ iprop((((c : Thread nD τ).loc main_v2) ↦{fullShare.left} Vv main_v2) ∗ (((c : Thread nD τ).loc main_v2) ↦{fullShare.right} Vv main_v2)
        ∗ (((c : Thread nD τ).loc main_v3) ↦{fullShare} Vv main_v3))
  have hs1 : (iprop(((c : Thread nD τ).loc main_v2) ↦{fullShare} Vv main_v2) : sProp 𝕄)
      ⊢ iprop((((c : Thread nD τ).loc main_v2) ↦{fullShare.left} Vv main_v2) ∗ (((c : Thread nD τ).loc main_v2) ↦{fullShare.right} Vv main_v2)) :=
    (pointsTo_share (PosShare.mem_left_op_right fullShare)).1
  have hs2 : (iprop((((c : Thread nD τ).loc main_v2) ↦{fullShare.left} Vv main_v2) ∗ (((c : Thread nD τ).loc main_v2) ↦{fullShare.right} Vv main_v2)) : sProp 𝕄)
      ⊢ iprop(((c : Thread nD τ).loc main_v2) ↦{fullShare} Vv main_v2) :=
    (pointsTo_share (PosShare.mem_left_op_right fullShare)).2
  constructor
  · iintro ⟨HA, HB⟩
    ihave HA' := hs1 $$ HA
    icases HA' with ⟨H1, H2⟩
    isplitl [H1]; · iexact H1
    isplitl [H2]; · iexact H2
    iexact HB
  · iintro ⟨H1, H2, HB⟩
    isplitl [H1 H2]
    · iapply hs2; isplitl [H1] <;> iassumption
    iexact HB

end Cert.KernelIdeal.Gen

end
-- ==== Proof.KIRun.lean ====
/-
  The run of @main: two row normalisations, the stacking of their results, the scores-and-losses region, and the mean.
  The buffer contents at every boundary between two items are a fold from the launch memory: a host stretch's operations
  applied, a region's output array at what its write-backs leave. Every weakly fair execution terminates, nothing faulting,
  with every unscoped buffer at the last boundary's contents.
-/
import proofs.«127245_j12824772346324_2_alg».proof.Proof.KIReg0
import proofs.«127245_j12824772346324_2_alg».proof.Proof.KIReg1
import proofs.«127245_j12824772346324_2_alg».proof.Proof.KIReg2Arr
import proofs.«127245_j12824772346324_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev Bd0 : Dev nD → Valuation τ sig (Elt F) := fun c b => (s₀ m ρ).mem ((c : Dev nD), b)
abbrev Bv0 : (c : Dev nD) → (b : Ref sig .tc) → Buf (Elt F) ((c : Thread nD τ).loc b) := fun c b => Bd0 m ρ c b
/-- At region 0's exit (region 1's entry): its output array at what the pipeline leaves. -/
def Bd1 (c : Dev nD) : Valuation τ sig (Elt F) :=
  Pipeline.withArrays spec0 c (Bd0 m ρ c) fun w => (dat0 (Bv0 m ρ) c).arrAt w cfg0.N
theorem Bd1_arr (c : Dev nD) (w : Fin cfg0.W) :
    Bd1 m ρ c (Proc.devRef .tc (Pipeline.arrRef spec0 w)) = (dat0 (Bv0 m ρ) c).arrAt w cfg0.N := by
  unfold Bd1; exact Pipeline.withArrays_arr spec0 launch0.win.arr_inj c _ _ w
theorem Bd1_of_ne (c : Dev nD) (b : Ref sig .tc) (hb : ∀ w, Pipeline.arrRef spec0 w ≠ b) :
    Bd1 m ρ c (Proc.devRef .tc b) = Bd0 m ρ c (Proc.devRef .tc b) := by
  unfold Bd1; exact Pipeline.withArrays_of_ne spec0 c _ _ b hb
abbrev Bv1 : (c : Dev nD) → (b : Ref sig .tc) → Buf (Elt F) ((c : Thread nD τ).loc b) := fun c b => Bd1 m ρ c b
theorem hF0 (c : Dev nD) (w : Fin cfg0.W) : (dat0 (Bv0 m ρ) c).arrAt w cfg0.N = Bv1 m ρ c (Pipeline.arrRef spec0 w) :=
  (Bd1_arr m ρ c w).symm
theorem hrest0 (c : Dev nD) : ∀ b, b ∉ Finset.univ.image (Pipeline.arrRef spec0) → Bv1 m ρ c b = Bv0 m ρ c b :=
  fun b hb => Bd1_of_ne m ρ c b fun w e => hb (Finset.mem_image.mpr ⟨w, Finset.mem_univ _, e⟩)

/-- At region 1's exit. -/
def Bd2 (c : Dev nD) : Valuation τ sig (Elt F) :=
  Pipeline.withArrays spec1 c (Bd1 m ρ c) fun w => (dat1 (Bv1 m ρ) c).arrAt w cfg1.N
theorem Bd2_arr (c : Dev nD) (w : Fin cfg1.W) :
    Bd2 m ρ c (Proc.devRef .tc (Pipeline.arrRef spec1 w)) = (dat1 (Bv1 m ρ) c).arrAt w cfg1.N := by
  unfold Bd2; exact Pipeline.withArrays_arr spec1 launch1.win.arr_inj c _ _ w
theorem Bd2_of_ne (c : Dev nD) (b : Ref sig .tc) (hb : ∀ w, Pipeline.arrRef spec1 w ≠ b) :
    Bd2 m ρ c (Proc.devRef .tc b) = Bd1 m ρ c (Proc.devRef .tc b) := by
  unfold Bd2; exact Pipeline.withArrays_of_ne spec1 c _ _ b hb
abbrev Bv2 : (c : Dev nD) → (b : Ref sig .tc) → Buf (Elt F) ((c : Thread nD τ).loc b) := fun c b => Bd2 m ρ c b
theorem hF1 (c : Dev nD) (w : Fin cfg1.W) : (dat1 (Bv1 m ρ) c).arrAt w cfg1.N = Bv2 m ρ c (Pipeline.arrRef spec1 w) :=
  (Bd2_arr m ρ c w).symm
theorem hrest1 (c : Dev nD) : ∀ b, b ∉ Finset.univ.image (Pipeline.arrRef spec1) → Bv2 m ρ c b = Bv1 m ρ c b :=
  fun b hb => Bd2_of_ne m ρ c b fun w e => hb (Finset.mem_image.mpr ⟨w, Finset.mem_univ _, e⟩)

/-- After the stacking (region 2's entry). -/
abbrev Bd3 : Dev nD → Valuation τ sig (Elt F) := fun c => StableHlo.after hostOps2 (Bd2 m ρ c)
abbrev Bv3 : (c : Dev nD) → (b : Ref sig .tc) → Buf (Elt F) ((c : Thread nD τ).loc b) := fun c b => Bd3 m ρ c b
/-- At region 2's exit: the row losses at what the pipeline leaves, every other buffer as entered. -/
def Bd4 (c : Dev nD) : Valuation τ sig (Elt F) :=
  Function.update (Bd3 m ρ c) main_v3 ((dat2 (Bv3 m ρ) c).arrAt 2 cfg2.N : Buf (Elt F) ((c : Thread nD τ).loc main_v3))
abbrev Bv4 : (c : Dev nD) → (b : Ref sig .tc) → Buf (Elt F) ((c : Thread nD τ).loc b) := fun c b => Bd4 m ρ c b
/-- After the mean (the end). -/
abbrev Bd5 : Dev nD → Valuation τ sig (Elt F) := fun c => StableHlo.after hostOps3 (Bd4 m ρ c)

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (Bv0 m ρ) c
  | ⟨1, _⟩ => fun c => dat1 (Bv1 m ρ) c
  | ⟨2, _⟩ => fun c => dat2 (Bv3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv0 m ρ) c).loose
  hwaits := Pipeline.hwaits_of_owed_zero _ _ _ _ L lv 0 fun _ _ => rfl
  pre c := iprop(StableHlo.held (c : Thread nD τ) (Pipeline.ucRefs τ sig) (Bd0 m ρ c) ∗ R c)
  post c := iprop(StableHlo.held (c : Thread nD τ) (Pipeline.ucRefs τ sig) (Bd1 m ρ c) ∗ R c)
  X c := iprop(∃ r, prngReg c r)
  Y c := iprop(∃ r, prngReg c r)
  Z c := Pipeline.unscopedRest (Ix := Unit) (Name := ℕ) (U := UR sig nD τ) (Lvl := ℕ) spec0 c (Bv0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Bv0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Bv0 m ρ c) (Bv1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv1 m ρ) c).loose
  hwaits := Pipeline.hwaits_of_owed_zero _ _ _ _ L lv 1 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec1 c (Bv1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Bv1 m ρ c) (Bv2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's entry, the arrays' part: the core's unscoped buffers at the entry contents are its three windows' arrays
    (the stacked rows held half and half by the two windows that read them) and the rest. -/
theorem entry2 (c : Dev nD) :
    (unscopedBufs c (Bv3 m ρ c) : sProp 𝕄)
      ⊢ iprop((dat2 (Bv3 m ρ) c).arrays ((dat2 (Bv3 m ρ) c).arrAt · 0) ∗ Pipeline.unscopedRest (Ix := Unit) (Name := ℕ) (U := UR sig nD τ) (Lvl := ℕ) spec2 c (Bv3 m ρ c)) := by
  rw [Pipeline.unscopedBufs_split₀ (Pipeline.pin (pcfgs (F := F)) adm) 2 winFacts₀2.arr_unscoped c (Bv3 m ρ c)]
  exact sep_mono (arrays2_iff (Bv3 m ρ) c (Bv3 m ρ c) _ (fun w => rfl)).1 .rfl

theorem Bd4_v3 (c : Dev nD) : Bd4 m ρ c (Proc.devRef .tc main_v3) = (dat2 (Bv3 m ρ) c).arrAt 2 cfg2.N := by
  unfold Bd4; exact Function.update_self _ _ _
theorem Bd4_of_ne (c : Dev nD) (b : Ref sig .tc) (hb : b ≠ main_v3) : Bd4 m ρ c (Proc.devRef .tc b) = Bd3 m ρ c (Proc.devRef .tc b) := by
  unfold Bd4
  exact Function.update_of_ne (StableHlo.devRef_ne_of_ne hb : (Proc.devRef .tc b : DevRef τ sig) ≠ Proc.devRef .tc main_v3) _ _
/-- At region 2's exit each window's array holds what the pipeline leaves: the two input windows' (one array) as entered, the output's its write-backs. -/
theorem hF2 (c : Dev nD) (w : Fin cfg2.W) : (dat2 (Bv3 m ρ) c).arrAt w cfg2.N = Bv4 m ρ c (Pipeline.arrRef spec2 w) := by
  match w with
  | ⟨0, _⟩ => exact ((dat2 (Bv3 m ρ) c).arrAt_in 0 rfl _).trans ((A_eq2 (Bv3 m ρ) c 0).trans (Bd4_of_ne m ρ c main_v2 (by decide)).symm)
  | ⟨1, _⟩ => exact ((dat2 (Bv3 m ρ) c).arrAt_in 1 rfl _).trans ((A_eq2 (Bv3 m ρ) c 1).trans (Bd4_of_ne m ρ c main_v2 (by decide)).symm)
  | ⟨2, _⟩ => exact (Bd4_v3 m ρ c).symm
theorem hrest2 (c : Dev nD) : ∀ b, b ∉ Finset.univ.image (Pipeline.arrRef spec2) → Bv4 m ρ c b = Bv3 m ρ c b :=
  fun b hb => Bd4_of_ne m ρ c b fun e => hb (Finset.mem_image.mpr ⟨2, Finset.mem_univ _, e.symm⟩)

/-- Region 2's exit, the arrays' part: the three windows' arrays at what the pipeline leaves and the rest are the core's
    unscoped buffers at the exit contents — the stacked rows as entered (no window writes them), the row losses at
    what the write-backs leave. -/
theorem exit2 (c : Dev nD) :
    iprop((dat2 (Bv3 m ρ) c).arrays ((dat2 (Bv3 m ρ) c).arrAt · cfg2.N) ∗ Pipeline.unscopedRest (Ix := Unit) (Name := ℕ) (U := UR sig nD τ) (Lvl := ℕ) spec2 c (Bv3 m ρ c))
      ⊢ (unscopedBufs c (Bv4 m ρ c) : sProp 𝕄) := by
  rw [Pipeline.unscopedBufs_split₀ (Pipeline.pin (pcfgs (F := F)) adm) 2 winFacts₀2.arr_unscoped c (Bv4 m ρ c)]
  refine sep_mono (arrays2_iff (Bv3 m ρ) c (Bv4 m ρ c) _ (hF2 m ρ c)).2 (Entails.of_eq ?_)
  unfold Pipeline.unscopedRest
  exact bigSep_congr fun b hb => by rw [hrest2 m ρ c b (Finset.mem_sdiff.mp hb).2]

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (Bv3 m ρ) c).loose
  hwaits := Pipeline.hwaits_of_owed_zero _ _ _ _ L lv 2 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec2 c (Bv3 m ρ c)
  hentry c := by
    rw [Pipeline.ownSems0_none]
    have hsplit := entry2 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m ρ 2 c).arrays ((pdats m ρ 2 c).arrAt · cfg2.N) ∗ Pipeline.unscopedRest (Ix := Unit) (Name := ℕ) (U := UR sig nD τ) (Lvl := ℕ) spec2 c (Bv3 m ρ c)) : sProp 𝕄)
        ⊢ (unscopedBufs c (Bv4 m ρ c) : sProp 𝕄) := exit2 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) adm (pdats m ρ) () defs₀ 𝒱₀ L lv) :=
  [ .region (reg0 m ρ),
    .region (reg1 m ρ),
    .host (hseg hostOps2 hostOps2_sub hostOps2_fresh (Bd2 m ρ)),
    .region (reg2 m ρ),
    .host (hseg hostOps3 hostOps3_sub hostOps3_fresh (Bd4 m ρ)) ]
theorem main_run (c : Dev nD) : main (F := F) c = Pipeline.Seg.run (rsegs m ρ) := (main_chain c).trans (by chain_rfl)

set_option backward.isDefEq.respectTransparency.types false in
/-- THE RUN: from any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd5 m ρ c b) :=
  Pipeline.θ_run_regions_kit (pcfgs (F := F)) adm (pdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (Bd5 m ρ c) ∗ R c) : sProp 𝕄)
        ⊢ iprop(Tₙ m ρ c ∗ ∃ W, owes (c : Thread nD τ) (0 : CellTallies nD τ sig Unit) W)
      iintro ⟨H, Hp, HO⟩
      isplitl [H Hp]
      · isplitl [H]; · iexact H
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd5 m ρ c) s')
      isplitl [Hh] <;> iassumption)
    (hQ := fun s h c => h c)

/-! ## The arguments end as launched -/

/-- No host operation and no region writes the first argument: region 0 reads it through its input window. -/
theorem Bd5_main_arg0 (c : Dev nD) : Bd5 m ρ c (Proc.devRef .tc main_arg0) = m ((c : Thread nD τ).loc main_arg0) :=
  calc Bd5 m ρ c (Proc.devRef .tc main_arg0)
    _ = Bd4 m ρ c (Proc.devRef .tc main_arg0) := StableHlo.after_of_writes_sub hostOps3 _ hostOps3_writes (by decide)
    _ = Bd3 m ρ c (Proc.devRef .tc main_arg0) := Bd4_of_ne m ρ c main_arg0 (by decide)
    _ = Bd2 m ρ c (Proc.devRef .tc main_arg0) := StableHlo.after_of_writes_sub hostOps2 _ hostOps2_writes (by decide)
    _ = Bd1 m ρ c (Proc.devRef .tc main_arg0) := Bd2_of_ne m ρ c main_arg0 (by decide)
    _ = Bd0 m ρ c (Proc.devRef .tc main_arg0) := (Bd1_arr m ρ c 0).trans (((dat0 (Bv0 m ρ) c).arrAt_in 0 rfl _).trans (A_eq0 (Bv0 m ρ) c 0))
    _ = m ((c : Thread nD τ).loc main_arg0) := rfl
/-- Nor the second: region 1 reads it through its input window. -/
theorem Bd5_main_arg1 (c : Dev nD) : Bd5 m ρ c (Proc.devRef .tc main_arg1) = m ((c : Thread nD τ).loc main_arg1) :=
  calc Bd5 m ρ c (Proc.devRef .tc main_arg1)
    _ = Bd4 m ρ c (Proc.devRef .tc main_arg1) := StableHlo.after_of_writes_sub hostOps3 _ hostOps3_writes (by decide)
    _ = Bd3 m ρ c (Proc.devRef .tc main_arg1) := Bd4_of_ne m ρ c main_arg1 (by decide)
    _ = Bd2 m ρ c (Proc.devRef .tc main_arg1) := StableHlo.after_of_writes_sub hostOps2 _ hostOps2_writes (by decide)
    _ = Bd1 m ρ c (Proc.devRef .tc main_arg1) := (Bd2_arr m ρ c 0).trans (((dat1 (Bv1 m ρ) c).arrAt_in 0 rfl _).trans (A_eq1 (Bv1 m ρ) c 0))
    _ = Bd0 m ρ c (Proc.devRef .tc main_arg1) := Bd1_of_ne m ρ c main_arg1 (by decide)
    _ = m ((c : Thread nD τ).loc main_arg1) := rfl

/-- THE FRAME: every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Bd5_main_arg0 m ρ c),
     (h c _ (mem_uc main_arg1 (by decide))).trans (Bd5_main_arg1 m ρ c)⟩) (run_all m ρ)

end Cert.KernelIdeal.Gen

end
-- ==== Proof.Spec.lean ====
/-
  The value both programs compute, written once on the extended reals over literal index types.

  Two arrays `x y : 4096 × 512`. Each row is divided by `max (√(Σ_k x_k²)) ε` (`ε` the f32 word both programs carry);
  the two normalised arrays are stacked into `z : 8192 × 512`; the score of row `r` against column `c` is
  `2 · Σ_d z r d · z c d`, except on the diagonal, where it is `⊥` (the entry is masked out); the label of row `r` is
  its partner `r ± 4096`; the loss of a row is `(M + log L) − s_label` with `M` the row's largest score and
  `L = Σ_c exp (s_c − M)`; the result is the sum of the 8192 row losses divided by 8192.
-/
import Idealize.ShloMosaic.PureOps.Ideal

noncomputable section

namespace Cert.Contrast

open Idealize.ShloMosaic

/-- The floor under a row's norm: the f32 word `0x2B8CBCCC` (the f32 nearest `1e-12`), as both programs carry it. -/
def eps : EReal := Ideal.ofBits .f32 0x2B8CBCCC#32
/-- The f32 word of `2`. -/
def two : EReal := Ideal.ofBits .f32 0x40000000#32
/-- The f32 word of `8192`. -/
def count : EReal := Ideal.ofBits .f32 0x46000000#32

/-- A row of `x` divided by the larger of its Euclidean norm and `eps`. -/
def nrm (x : Fin 4096 → Fin 512 → EReal) (r : Fin 4096) (j : Fin 512) : EReal :=
  Ideal.div (x r j) (max (Ideal.sqrt (∑ k : Fin 512, x r k * x r k)) eps)

/-- The two normalised arrays stacked: rows `0 … 4095` from `x`, rows `4096 … 8191` from `y`. -/
def stacked (x y : Fin 4096 → Fin 512 → EReal) (r : Fin 8192) (j : Fin 512) : EReal :=
  if h : r.val < 4096 then nrm x ⟨r.val, h⟩ j else nrm y ⟨r.val - 4096, by omega⟩ j

/-- Row `r`'s score against column `c`: twice the inner product of the two normalised rows, and `⊥` on the diagonal. -/
def score (x y : Fin 4096 → Fin 512 → EReal) (r c : Fin 8192) : EReal :=
  if r = c then ⊥ else (∑ d : Fin 512, stacked x y r d * stacked x y c d) * two

/-- Row `r`'s positive partner: the same sample in the other half. -/
def partner (r : Fin 8192) : Fin 8192 :=
  if h : r.val < 4096 then ⟨r.val + 4096, by omega⟩ else ⟨r.val - 4096, by omega⟩

/-- The largest score of row `r`. -/
def rowMax (x y : Fin 4096 → Fin 512 → EReal) (r : Fin 8192) : EReal :=
  Finset.univ.sup (score x y r)

/-- The row's normaliser `Σ_c exp (s_c − M)`. -/
def rowSum (x y : Fin 4096 → Fin 512 → EReal) (r : Fin 8192) : EReal :=
  ∑ c : Fin 8192, Ideal.exp (score x y r c - rowMax x y r)

/-- The loss of row `r`: `(M + log L) − s_partner`. -/
def rowLoss (x y : Fin 4096 → Fin 512 → EReal) (r : Fin 8192) : EReal :=
  (rowMax x y r + Ideal.log (rowSum x y r)) - score x y r (partner r)

/-- The mean of the 8192 row losses. -/
def loss (x y : Fin 4096 → Fin 512 → EReal) : EReal :=
  Ideal.div (∑ r : Fin 8192, rowLoss x y r) count

end Cert.Contrast

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.KIVal0.lean ====
/-
  Region 0 of @main read as a value. The region normalises the rows of its 4096 × 512 argument in four grid points of
  1024 rows each. Here: the body's arithmetic read at one element of a block (the element divided by the larger of its
  row's Euclidean norm and the floor), what a grid point writes back as a block of ONE function of the whole argument,
  the cover of the output by the four blocks, and so the output array after the run, index by index.
-/
import proofs.«127245_j12824772346324_2_alg».proof.Proof.KIReg0
import proofs.«127245_j12824772346324_2_alg».proof.Proof.Spec
import proofs.«127245_j12824772346324_2_alg».proof.Proof.LibKeepdimsCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-! ## The body's arithmetic at one element -/

/-- The lane sum of a 1024 × 512 block, read at row `p`: the sum over the 512 columns of that row. The accumulator the
    sum starts from is the zero word, the sum's neutral element. -/
theorem rowSum0 (v : FVec Ideal S1024x512 .f32) (h : S1024x512.Reduces [1] S1024) (hφ : FKind.Formats .f32)
    (hacc : (0x00000000#32 : BitVec 32) = 0x00000000#32) (p : Fin 1024) :
    multiReduction (F := Ideal) .add [1] S1024 v 0x00000000#32 h hφ hacc (ix1 p) = ∑ k : Fin 512, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- The body's payload at element `(p, q)` of its block: the element divided by the larger of the Euclidean norm of row
    `p` and the floor. The format change at the end is the identity on the extended reals. -/
theorem pay0_apply (x0 : Vec Ideal S1024x512 .f32) (p : Fin 1024) (q : Fin 512) :
    k0_pay1 (F := Ideal) x0 (ix2 p q)
      = Ideal.div (x0 (ix2 p q))
          (max (Ideal.sqrt (∑ k : Fin 512, x0 (ix2 p k) * x0 (ix2 p k))) Cert.Contrast.eps) := by
  unfold k0_pay1
  rw [truncf_apply, divf_apply, Cert.LibKeepdimsCol.broadcastTo_a1_ab_apply, maximumf_apply, broadcast_apply]
  show Ideal.div (x0 (ix2 p q)) (max (Ideal.sqrt (shapeCast S1024x1 _ shapeCasts_S1024_S1024x1 (ix2 p (0 : Fin 1)))) Cert.Contrast.eps) = _
  rw [Cert.LibKeepdimsCol.shapeCast_a_a1_apply, rowSum0]
  rfl

/-- The same, with the block's row `p` known to be row `r` of a 4096 × 512 array `a`: the payload at `(p, q)` is the
    normalised array at `(r, q)`. -/
theorem pay0_of_row (a : S4096x512.Idx → EReal) (x0 : Vec Ideal S1024x512 .f32) (r : Fin 4096) (p : Fin 1024)
    (hx : ∀ q : Fin 512, x0 (ix2 p q) = a (ix2 r q)) (q : Fin 512) :
    k0_pay1 (F := Ideal) x0 (ix2 p q) = Cert.Contrast.nrm (fun r j => a (ix2 r j)) r q := by
  rw [pay0_apply]
  unfold Cert.Contrast.nrm
  simp only [hx]

/-! ## From blocks to the array -/

variable (V : (c : Dev nD) → (b : Ref sig .tc) → Buf (Elt Ideal) ((c : Thread nD τ).loc b))

/-- The zero offsets of the body's one rectangle, as the constant function. -/
theorem zeroOff0 : (![0, 0] : Fin 2 → Nat) = fun _ => 0 := funext fun a => by fin_cases a <;> rfl

/-- The output as ONE function of the input array: every row divided by the larger of its norm and the floor. -/
abbrev nrmArr0 (a : S4096x512.Idx → EReal) : S4096x512.Idx → EReal :=
  fun i => Cert.Contrast.nrm (fun r j => a (ix2 r j)) (i 0) (i 1)

/-- The index maps over the four grid points: at point `t` both windows are on block `(t, 0)`. -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` is rows `1024 t … 1024 t + 1023` of the argument. -/
theorem iblk0_apply (c : Dev nD) (t : Fin cfg0.N) (y : S1024x512.Idx) (i : S4096x512.Idx)
    (hi0 : (i 0).val = t.val * 1024 + (y 0).val) (hi1 : (i 1).val = (y 1).val) :
    (iblk0 V c 0 t : Vec Ideal S1024x512 .f32) y = (V c main_arg0 : S4096x512.Idx → EReal) i := by
  obtain ⟨e0, e1, -, -⟩ := blockIdx0 t
  unfold iblk0
  rw [View.read_apply]
  show (V c main_arg0 : S4096x512.Idx → EReal) _ = _
  congr 1
  funext a
  apply Fin.ext
  match a with
  | ⟨0, _⟩ => show win0_0.index t (0 : Fin 2) * 1024 + 1 * (y 0).val = (i 0).val; rw [e0, hi0]; omega
  | ⟨1, _⟩ => show win0_0.index t (1 : Fin 2) * 512 + 1 * (y 1).val = (i 1).val; rw [e1, hi1]; omega

/-- What point `t` writes back is block `t` of the normalised argument. -/
theorem flushed0_eq (c : Dev nD) (t : Fin cfg0.N) :
    (dat0 (F := Ideal) V c).flushed 1 t
      = ((cfg0.win 1).blk t).view.read (Elt Ideal) (nrmArr0 (V c main_arg0 : S4096x512.Idx → EReal)) := by
  show (cfg0.win 1).cut (grid0.coords t) ((dat0 V c).after 1 t) = _
  rw [after0_1]
  unfold out0_1
  rw [View.canon_unit_zero zeroOff0]
  simp only [View.ld_unit_zero (S := S1024x512) zeroOff0]
  obtain ⟨-, -, e2, e3⟩ := blockIdx0 t
  refine funext fun (y : S1024x512.Idx) => ?_
  rw [View.read_apply]
  obtain ⟨p, q, rfl⟩ : ∃ (p : Fin 1024) (q : Fin 512), y = ix2 p q := ⟨y 0, y 1, eq_ix2 y⟩
  have ht : t.val < 4 := t.isLt
  have hrow : t.val * 1024 + p.val < 4096 := by omega
  have hemb : ((cfg0.win 1).blk t).view.emb (ix2 p q) = (ix2 (⟨t.val * 1024 + p.val, hrow⟩ : Fin 4096) q : S4096x512.Idx) := by
    funext a
    apply Fin.ext
    match a with
    | ⟨0, _⟩ => show win0_1.index t (0 : Fin 2) * 1024 + 1 * p.val = t.val * 1024 + p.val; rw [e2]; omega
    | ⟨1, _⟩ => show win0_1.index t (1 : Fin 2) * 512 + 1 * q.val = q.val; rw [e3]; omega
  rw [hemb]
  have hL : (cfg0.win 1).cut (grid0.coords t) (k0_pay1 (F := Ideal) (iblk0 V c 0 t)) (ix2 p q)
      = k0_pay1 (F := Ideal) (iblk0 V c 0 t) (ix2 p q) := rfl
  rw [hL]
  show _ = nrmArr0 (V c main_arg0 : S4096x512.Idx → EReal) (ix2 (⟨t.val * 1024 + p.val, hrow⟩ : Fin 4096) q)
  exact pay0_of_row _ _ _ p (fun q' => iblk0_apply V c t (ix2 p q') (ix2 _ q') rfl rfl) q

/-- An index of the output array is in point `t`'s block iff, on each axis, it is in the block's range. -/
theorem mem_blk0 (t : Fin cfg0.N) (i : S4096x512.Idx) :
    i ∈ ((cfg0.win 1).blk t).view.set ↔ ∀ a : Fin 2, win0_1.index t a * S1024x512.size a ≤ (i a).val
      ∧ (i a).val < win0_1.index t a * S1024x512.size a + S1024x512.size a := by
  show i ∈ ((View.whole main_v0).slice (win0_1.rect t)).set ↔ _
  rw [View.set_slice_whole, Rect.mem_set_unit]
  exact Iff.rfl

/-- Every index of the output array is in some point's block: row `r` is written by point `r / 1024`. -/
theorem cover0 (i : S4096x512.Idx) :
    ∃ t : Fin cfg0.N, (cfg0.win 1).flush t = true ∧ i ∈ ((cfg0.win 1).blk t).view.set := by
  have h0 : (i 0).val < 4096 := idx2_lt0 i
  have h1 : (i 1).val < 512 := idx2_lt1 i
  have hN : (i 0).val / 1024 < cfg0.N := by show _ < 4; omega
  obtain ⟨-, -, e2, e3⟩ := blockIdx0 ⟨(i 0).val / 1024, hN⟩
  have e2' : win0_1.index ⟨(i 0).val / 1024, hN⟩ (0 : Fin 2) = (i 0).val / 1024 := e2
  refine ⟨⟨(i 0).val / 1024, hN⟩, flush0_1 _, ?_⟩
  rw [mem_blk0]
  intro a
  match a with
  | ⟨0, _⟩ =>
    show win0_1.index ⟨(i 0).val / 1024, hN⟩ (0 : Fin 2) * 1024 ≤ (i 0).val
      ∧ (i 0).val < win0_1.index ⟨(i 0).val / 1024, hN⟩ (0 : Fin 2) * 1024 + 1024
    rw [e2']; omega
  | ⟨1, _⟩ =>
    show win0_1.index ⟨(i 0).val / 1024, hN⟩ (1 : Fin 2) * 512 ≤ (i 1).val
      ∧ (i 1).val < win0_1.index ⟨(i 0).val / 1024, hN⟩ (1 : Fin 2) * 512 + 512
    rw [e3]; omega

/-- The output array after the region's run: the argument with every row normalised. -/
theorem final0 (c : Dev nD) :
    (dat0 (F := Ideal) V c).arrAt 1 cfg0.N = nrmArr0 (V c main_arg0 : S4096x512.Idx → EReal) :=
  (dat0 (F := Ideal) V c).arrAt_eq_of_cover 1 (nrmArr0 (V c main_arg0 : S4096x512.Idx → EReal))
    (fun t _ => flushed0_eq V c t) cover0

/-- The same, element by element. -/
theorem final0_apply (c : Dev nD) (r : Fin 4096) (j : Fin 512) :
    ((dat0 (F := Ideal) V c).arrAt 1 cfg0.N : S4096x512.Idx → EReal) (ix2 r j)
      = Cert.Contrast.nrm (fun r j => (V c main_arg0 : S4096x512.Idx → EReal) (ix2 r j)) r j := by
  rw [final0]

end Cert.KernelIdeal.Gen

end
-- ==== Proof.KIVal1.lean ====
/-
  Region 1 of @main read as a value. The region normalises the rows of its 4096 × 512 argument (the second argument of @main) in four grid points of
  1024 rows each. Here: the body's arithmetic read at one element of a block (the element divided by the larger of its
  row's Euclidean norm and the floor), what a grid point writes back as a block of ONE function of the whole argument,
  the cover of the output by the four blocks, and so the output array after the run, index by index.
-/
import proofs.«127245_j12824772346324_2_alg».proof.Proof.KIReg1
import proofs.«127245_j12824772346324_2_alg».proof.Proof.Spec
import proofs.«127245_j12824772346324_2_alg».proof.Proof.LibKeepdimsCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-! ## The body's arithmetic at one element -/

/-- The lane sum of a 1024 × 512 block, read at row `p`: the sum over the 512 columns of that row. The accumulator the
    sum starts from is the zero word, the sum's neutral element. -/
theorem rowSum1 (v : FVec Ideal S1024x512 .f32) (h : S1024x512.Reduces [1] S1024) (hφ : FKind.Formats .f32)
    (hacc : (0x00000000#32 : BitVec 32) = 0x00000000#32) (p : Fin 1024) :
    multiReduction (F := Ideal) .add [1] S1024 v 0x00000000#32 h hφ hacc (ix1 p) = ∑ k : Fin 512, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- The body's payload at element `(p, q)` of its block: the element divided by the larger of the Euclidean norm of row
    `p` and the floor. The format change at the end is the identity on the extended reals. -/
theorem pay1_apply (x0 : Vec Ideal S1024x512 .f32) (p : Fin 1024) (q : Fin 512) :
    k1_pay1 (F := Ideal) x0 (ix2 p q)
      = Ideal.div (x0 (ix2 p q))
          (max (Ideal.sqrt (∑ k : Fin 512, x0 (ix2 p k) * x0 (ix2 p k))) Cert.Contrast.eps) := by
  unfold k1_pay1
  rw [truncf_apply, divf_apply, Cert.LibKeepdimsCol.broadcastTo_a1_ab_apply, maximumf_apply, broadcast_apply]
  show Ideal.div (x0 (ix2 p q)) (max (Ideal.sqrt (shapeCast S1024x1 _ shapeCasts_S1024_S1024x1 (ix2 p (0 : Fin 1)))) Cert.Contrast.eps) = _
  rw [Cert.LibKeepdimsCol.shapeCast_a_a1_apply, rowSum1]
  rfl

/-- The same, with the block's row `p` known to be row `r` of a 4096 × 512 array `a`: the payload at `(p, q)` is the
    normalised array at `(r, q)`. -/
theorem pay1_of_row (a : S4096x512.Idx → EReal) (x0 : Vec Ideal S1024x512 .f32) (r : Fin 4096) (p : Fin 1024)
    (hx : ∀ q : Fin 512, x0 (ix2 p q) = a (ix2 r q)) (q : Fin 512) :
    k1_pay1 (F := Ideal) x0 (ix2 p q) = Cert.Contrast.nrm (fun r j => a (ix2 r j)) r q := by
  rw [pay1_apply]
  unfold Cert.Contrast.nrm
  simp only [hx]

/-! ## From blocks to the array -/

variable (V : (c : Dev nD) → (b : Ref sig .tc) → Buf (Elt Ideal) ((c : Thread nD τ).loc b))

/-- The zero offsets of the body's one rectangle, as the constant function. -/
theorem zeroOff1 : (![0, 0] : Fin 2 → Nat) = fun _ => 0 := funext fun a => by fin_cases a <;> rfl

/-- The output as ONE function of the input array: every row divided by the larger of its norm and the floor. -/
abbrev nrmArr1 (a : S4096x512.Idx → EReal) : S4096x512.Idx → EReal :=
  fun i => Cert.Contrast.nrm (fun r j => a (ix2 r j)) (i 0) (i 1)

/-- The index maps over the four grid points: at point `t` both windows are on block `(t, 0)`. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input block at point `t` is rows `1024 t … 1024 t + 1023` of the argument. -/
theorem iblk1_apply (c : Dev nD) (t : Fin cfg1.N) (y : S1024x512.Idx) (i : S4096x512.Idx)
    (hi0 : (i 0).val = t.val * 1024 + (y 0).val) (hi1 : (i 1).val = (y 1).val) :
    (iblk1 V c 0 t : Vec Ideal S1024x512 .f32) y = (V c main_arg1 : S4096x512.Idx → EReal) i := by
  obtain ⟨e0, e1, -, -⟩ := blockIdx1 t
  unfold iblk1
  rw [View.read_apply]
  show (V c main_arg1 : S4096x512.Idx → EReal) _ = _
  congr 1
  funext a
  apply Fin.ext
  match a with
  | ⟨0, _⟩ => show win1_0.index t (0 : Fin 2) * 1024 + 1 * (y 0).val = (i 0).val; rw [e0, hi0]; omega
  | ⟨1, _⟩ => show win1_0.index t (1 : Fin 2) * 512 + 1 * (y 1).val = (i 1).val; rw [e1, hi1]; omega

/-- What point `t` writes back is block `t` of the normalised argument. -/
theorem flushed1_eq (c : Dev nD) (t : Fin cfg1.N) :
    (dat1 (F := Ideal) V c).flushed 1 t
      = ((cfg1.win 1).blk t).view.read (Elt Ideal) (nrmArr1 (V c main_arg1 : S4096x512.Idx → EReal)) := by
  show (cfg1.win 1).cut (grid1.coords t) ((dat1 V c).after 1 t) = _
  rw [after1_1]
  unfold out1_1
  rw [View.canon_unit_zero zeroOff1]
  simp only [View.ld_unit_zero (S := S1024x512) zeroOff1]
  obtain ⟨-, -, e2, e3⟩ := blockIdx1 t
  refine funext fun (y : S1024x512.Idx) => ?_
  rw [View.read_apply]
  obtain ⟨p, q, rfl⟩ : ∃ (p : Fin 1024) (q : Fin 512), y = ix2 p q := ⟨y 0, y 1, eq_ix2 y⟩
  have ht : t.val < 4 := t.isLt
  have hrow : t.val * 1024 + p.val < 4096 := by omega
  have hemb : ((cfg1.win 1).blk t).view.emb (ix2 p q) = (ix2 (⟨t.val * 1024 + p.val, hrow⟩ : Fin 4096) q : S4096x512.Idx) := by
    funext a
    apply Fin.ext
    match a with
    | ⟨0, _⟩ => show win1_1.index t (0 : Fin 2) * 1024 + 1 * p.val = t.val * 1024 + p.val; rw [e2]; omega
    | ⟨1, _⟩ => show win1_1.index t (1 : Fin 2) * 512 + 1 * q.val = q.val; rw [e3]; omega
  rw [hemb]
  have hL : (cfg1.win 1).cut (grid1.coords t) (k1_pay1 (F := Ideal) (iblk1 V c 0 t)) (ix2 p q)
      = k1_pay1 (F := Ideal) (iblk1 V c 0 t) (ix2 p q) := rfl
  rw [hL]
  show _ = nrmArr1 (V c main_arg1 : S4096x512.Idx → EReal) (ix2 (⟨t.val * 1024 + p.val, hrow⟩ : Fin 4096) q)
  exact pay1_of_row _ _ _ p (fun q' => iblk1_apply V c t (ix2 p q') (ix2 _ q') rfl rfl) q

/-- An index of the output array is in point `t`'s block iff, on each axis, it is in the block's range. -/
theorem mem_blk1 (t : Fin cfg1.N) (i : S4096x512.Idx) :
    i ∈ ((cfg1.win 1).blk t).view.set ↔ ∀ a : Fin 2, win1_1.index t a * S1024x512.size a ≤ (i a).val
      ∧ (i a).val < win1_1.index t a * S1024x512.size a + S1024x512.size a := by
  show i ∈ ((View.whole main_v1).slice (win1_1.rect t)).set ↔ _
  rw [View.set_slice_whole, Rect.mem_set_unit]
  exact Iff.rfl

/-- Every index of the output array is in some point's block: row `r` is written by point `r / 1024`. -/
theorem cover1 (i : S4096x512.Idx) :
    ∃ t : Fin cfg1.N, (cfg1.win 1).flush t = true ∧ i ∈ ((cfg1.win 1).blk t).view.set := by
  have h0 : (i 0).val < 4096 := idx2_lt0 i
  have h1 : (i 1).val < 512 := idx2_lt1 i
  have hN : (i 0).val / 1024 < cfg1.N := by show _ < 4; omega
  obtain ⟨-, -, e2, e3⟩ := blockIdx1 ⟨(i 0).val / 1024, hN⟩
  have e2' : win1_1.index ⟨(i 0).val / 1024, hN⟩ (0 : Fin 2) = (i 0).val / 1024 := e2
  refine ⟨⟨(i 0).val / 1024, hN⟩, flush1_1 _, ?_⟩
  rw [mem_blk1]
  intro a
  match a with
  | ⟨0, _⟩ =>
    show win1_1.index ⟨(i 0).val / 1024, hN⟩ (0 : Fin 2) * 1024 ≤ (i 0).val
      ∧ (i 0).val < win1_1.index ⟨(i 0).val / 1024, hN⟩ (0 : Fin 2) * 1024 + 1024
    rw [e2']; omega
  | ⟨1, _⟩ =>
    show win1_1.index ⟨(i 0).val / 1024, hN⟩ (1 : Fin 2) * 512 ≤ (i 1).val
      ∧ (i 1).val < win1_1.index ⟨(i 0).val / 1024, hN⟩ (1 : Fin 2) * 512 + 512
    rw [e3]; omega

/-- The output array after the region's run: the argument with every row normalised. -/
theorem final1 (c : Dev nD) :
    (dat1 (F := Ideal) V c).arrAt 1 cfg1.N = nrmArr1 (V c main_arg1 : S4096x512.Idx → EReal) :=
  (dat1 (F := Ideal) V c).arrAt_eq_of_cover 1 (nrmArr1 (V c main_arg1 : S4096x512.Idx → EReal))
    (fun t _ => flushed1_eq V c t) cover1

/-- The same, element by element. -/
theorem final1_apply (c : Dev nD) (r : Fin 4096) (j : Fin 512) :
    ((dat1 (F := Ideal) V c).arrAt 1 cfg1.N : S4096x512.Idx → EReal) (ix2 r j)
      = Cert.Contrast.nrm (fun r j => (V c main_arg1 : S4096x512.Idx → EReal) (ix2 r j)) r j := by
  rw [final1]

end Cert.KernelIdeal.Gen

end
-- ==== Proof.RefOps.lean ====
/-
  The operations of the reference that are not pointwise, each read at one index over literal coordinates: a
  concatenation of two arrays of 4096 rows (or two vectors of 4096 entries) at a row, a maximum-reduce along the columns
  as a supremum, an and-reduce over a one-element axis, the batched gather `take_along_axis` lowers to, a sum over a
  rank-1 index set as a sum over its coordinate; with them the facts about 32-bit words of small naturals that the row
  labels need, the two float words `1/2` and `−∞`, and the law of real arithmetic that joins the two ways of writing a
  row's loss.
-/
import proofs.«127245_j12824772346324_2_alg».proof.ReferenceIdeal
import Idealize.ShloMosaic.Lib.Pipeline.Value
import Idealize.ShloMosaic.Lib.ValueIdx
import Idealize.ShloMosaic.PureOps.Ideal.Laws
import Idealize.ShloMosaic.PureOps.Reduce

noncomputable section

namespace Cert.Contrast.Ref

open Cert.ReferenceIdeal Idealize.ShloMosaic Idealize.ShloMosaic.ValueIdx

variable {α : Type}

/-- Two arrays of 4096 rows stacked along the rows, read at row `r`: the first array's row `r` for `r < 4096`, else the
    second array's row `r − 4096`. -/
theorem concat_rows (h : Shape.Concatenates [S4096x512, S4096x512] S8192x512 0) (y4 y9 : S4096x512.Idx → α)
    (r : Fin 8192) (j : Fin 512) :
    concatenate S8192x512 0 [⟨S4096x512, y4⟩, ⟨S4096x512, y9⟩] h (ix2 r j)
      = if hr : r.val < 4096 then y4 (ix2 ⟨r.val, hr⟩ j) else y9 (ix2 ⟨r.val - 4096, by omega⟩ j) := by
  split
  · next hr =>
    refine concatenate_pair_apply_left 0 y4 y9 h (ix2 r j) rfl (ix2 ⟨r.val, hr⟩ j) fun b => ?_
    match b with
    | ⟨0, _⟩ => rfl
    | ⟨1, _⟩ => rfl
  · next hr =>
    refine concatenate_pair_apply_right 0 y4 y9 h (ix2 r j) rfl rfl (ix2 ⟨r.val - 4096, by omega⟩ j) (fun b hb => ?_) ?_
    · match b, hb with
      | ⟨0, _⟩, hb => exact absurd rfl hb
      | ⟨1, _⟩, _ => rfl
    · show r.val - 4096 + 4096 = r.val
      omega

/-- Two vectors of 4096 entries joined end to end, read at `r`: the first at `r` for `r < 4096`, else the second at
    `r − 4096`. -/
theorem concat_vec (h : Shape.Concatenates [S4096, S4096] S8192 0) (a b : S4096.Idx → α) (r : Fin 8192) :
    concatenate S8192 0 [⟨S4096, a⟩, ⟨S4096, b⟩] h (ix1 r)
      = if hr : r.val < 4096 then a (ix1 ⟨r.val, hr⟩) else b (ix1 ⟨r.val - 4096, by omega⟩) := by
  split
  · next hr =>
    refine concatenate_pair_apply_left 0 a b h (ix1 r) rfl (ix1 ⟨r.val, hr⟩) fun c => ?_
    match c with
    | ⟨0, _⟩ => rfl
  · next hr =>
    refine concatenate_pair_apply_right 0 a b h (ix1 r) rfl rfl (ix1 ⟨r.val - 4096, by omega⟩) (fun c hc => ?_) ?_
    · match c, hc with
      | ⟨0, _⟩, hc => exact absurd rfl hc
    · show r.val - 4096 + 4096 = r.val
      omega

/-- Folding the maximum from `⊥` over a finite set is the supremum over it. -/
theorem fold_max_eq_sup {ι : Type} (s : Finset ι) (f : ι → EReal) :
    s.fold (FloatOps.maximumf (F := Ideal) (φ := .f32)) ⊥ f = s.sup f := by
  classical
  refine Finset.induction_on s (by rw [Finset.fold_empty, Finset.sup_empty]) fun a s ha ih => ?_
  rw [Finset.fold_insert ha, Finset.sup_insert, ih]
  rfl

/-- Row `r` with column `k` put back. -/
theorem lift_row (h : S8192x8192.Reduces [1] S8192) (r : Fin 8192) (k : Fin (S8192x8192.size 1)) :
    h.lift (ix1 r) k = ix2 r (⟨k.val, k.isLt⟩ : Fin 8192) := by
  funext c; apply Fin.ext
  match c with
  | ⟨0, _⟩ => rfl
  | ⟨1, _⟩ => rfl

/-- A maximum-reduce along the columns from `⊥`, at row `r`: the supremum of the row's entries. -/
theorem reduce_max_row (h' : S8192x8192.ReducesTo [1] S8192) (hu : 0 < S_.numel) (y : S8192x8192.Idx → EReal)
    (init : S_.Idx → EReal) (hinit : init (Shape.Idx.first hu) = ⊥) (r : Fin 8192) :
    Host.reduce (FloatOps.maximumf (F := Ideal) (φ := .f32)) y init h' hu (ix1 r)
      = Finset.univ.sup fun c : Fin 8192 => y (ix2 r c) := by
  have h : S8192x8192.Reduces [1] S8192 := by decide
  rw [Host.reduce_eq_fold_single _ y init h' h hu, hinit]
  refine (fold_max_eq_sup _ _).trans ?_
  have hf : (y ∘ h.lift (ix1 r)) = fun c : Fin 8192 => y (ix2 r c) := funext fun c => congrArg y (lift_row h r c)
  exact congrArg (fun f => Finset.sup (Finset.univ : Finset (Fin 8192)) f) hf

/-- An and-fold from 1 over bits that are all 1 is 1. -/
theorem fold_andi_one {ι : Type} (s : Finset ι) (f : ι → BitVec 1) (hf : ∀ i, f i = 1#1) :
    s.fold (IntOp.andi (w := 1)) 1#1 f = 1#1 := by
  classical
  refine Finset.induction_on s (by rw [Finset.fold_empty]) fun a s ha ih => ?_
  rw [Finset.fold_insert ha, ih, hf a]; rfl

/-- An and-reduce from 1 over a one-element axis of bits that are all 1 is 1 everywhere. -/
theorem reduce_and_one (h' : S8192x1x1.ReducesTo [2] S8192x1) (hu : 0 < S_.numel) (y : S8192x1x1.Idx → BitVec 1)
    (init : S_.Idx → BitVec 1) (hinit : init (Shape.Idx.first hu) = 1#1) (hy : ∀ i, y i = 1#1) (j : S8192x1.Idx) :
    Host.reduce (IntOp.andi (w := 1)) y init h' hu j = 1#1 := by
  have h : S8192x1x1.Reduces [2] S8192x1 := by decide
  rw [Host.reduce_eq_fold_single _ y init h' h hu, hinit]
  exact fold_andi_one _ _ fun k => hy _

/-! ## 32-bit words of naturals below 8192: their signed reading is the natural, and comparisons among them are the naturals' -/

/-- The signed reading of the word of a natural below 8192 is that natural. -/
theorem toInt_small (p : Nat) (hp : p < 8192) : (BitVec.ofNat 32 p).toInt = (p : Int) := by
  rw [BitVec.toInt_eq_toNat_cond, BitVec.toNat_ofNat, Nat.mod_eq_of_lt (by omega), if_pos (by omega)]

/-- Such a word is not negative … -/
theorem slt_zero_small (p : Nat) (hp : p < 8192) : IntOp.cmpi .slt (BitVec.ofNat 32 p) 0#32 = 0#1 := by
  have h : (BitVec.ofNat 32 p).slt 0#32 = false := by
    unfold BitVec.slt
    rw [toInt_small p hp, toInt_small 0 (by omega)]
    exact decide_eq_false (by omega)
  show BitVec.ofBool ((BitVec.ofNat 32 p).slt 0#32) = 0#1
  rw [h]; rfl
/-- … it is at least zero … -/
theorem sge_zero_small (p : Nat) (hp : p < 8192) : IntOp.cmpi .sge (BitVec.ofNat 32 p) 0#32 = 1#1 := by
  simp [IntOp.cmpi, BitVec.sle, toInt_small p hp]
/-- … and at most 8191. -/
theorem sle_max_small (p : Nat) (hp : p < 8192) : IntOp.cmpi .sle (BitVec.ofNat 32 p) 8191#32 = 1#1 := by
  have h : (BitVec.ofNat 32 p).sle 8191#32 = true := by
    unfold BitVec.sle
    rw [toInt_small p hp, toInt_small 8191 (by omega)]
    exact decide_eq_true (by omega)
  show BitVec.ofBool ((BitVec.ofNat 32 p).sle 8191#32) = 1#1
  rw [h]; rfl
/-- Two such words are equal exactly when the naturals are. -/
theorem eq_small (a b : Nat) (ha : a < 8192) (hb : b < 8192) :
    IntOp.cmpi .eq (BitVec.ofNat 32 a) (BitVec.ofNat 32 b) = if a = b then 1#1 else 0#1 := by
  have hiff : BitVec.ofNat 32 a = BitVec.ofNat 32 b ↔ a = b := by
    constructor
    · intro h
      have := congrArg BitVec.toNat h
      rw [BitVec.toNat_ofNat, BitVec.toNat_ofNat, Nat.mod_eq_of_lt (by omega), Nat.mod_eq_of_lt (by omega)] at this
      exact this
    · intro h; rw [h]
  show BitVec.ofBool (BitVec.ofNat 32 a == BitVec.ofNat 32 b) = _
  by_cases h : a = b
  · subst h; rw [if_pos rfl, beq_self_eq_true]; rfl
  · have hb' : (BitVec.ofNat 32 a == BitVec.ofNat 32 b) = false :=
      beq_eq_false_iff_ne.2 fun h' => h (hiff.mp h')
    rw [if_neg h, hb']; rfl

/-- Read signed and then as a natural, such a word is the natural it was made from. -/
theorem toNat_small (p : Nat) (hp : p < 8192) : (BitVec.ofNat 32 p).toInt.toNat = p := by
  rw [toInt_small p hp]; exact Int.toNat_natCast p

section Gather
variable [Facts₀]

/-- The gather of `take_along_axis` at row `r`: the operand at row `r` and at the column the start index names, read
    signed and clamped into `[0, 8191]`. -/
theorem gather_at (y : S8192x8192.Idx → α) (idx : IVec S8192x1x1 32) (r : Fin 8192) :
    Host.gather gather_S8192x8192_S8192x1x1_S8192x1_n_1_0_0_1_2_11 y idx (ix2 r (0 : Fin 1))
      = y (ix2 r (⟨min (idx (ix3 r (0 : Fin 1) (0 : Fin 1))).toInt.toNat 8191, by omega⟩ : Fin 8192)) := by
  unfold Host.gather
  refine congrArg y (funext fun a => Fin.ext ?_)
  have hb0 : (0 : Fin S8192x8192.rank) ∈ gather_S8192x8192_S8192x1x1_S8192x1_n_1_0_0_1_2_11.operandBatchingDims := List.mem_singleton.mpr rfl
  have hk0 : (0 : Fin S8192x8192.rank) ∉ gather_S8192x8192_S8192x1x1_S8192x1_n_1_0_0_1_2_11.sKept := fun h => ((GatherDims.mem_sKept _ _).mp h).2 hb0
  have hm1 : (1 : Fin S8192x8192.rank) ∈ gather_S8192x8192_S8192x1x1_S8192x1_n_1_0_0_1_2_11.startIndexMap := List.mem_singleton.mpr rfl
  have hc1 : (1 : Fin S8192x8192.rank) ∈ gather_S8192x8192_S8192x1x1_S8192x1_n_1_0_0_1_2_11.collapsedSliceDims := List.mem_singleton.mpr rfl
  have hk1 : (1 : Fin S8192x8192.rank) ∉ gather_S8192x8192_S8192x1x1_S8192x1_n_1_0_0_1_2_11.sKept := fun h => ((GatherDims.mem_sKept _ _).mp h).1 hc1
  have hb1 : (1 : Fin S8192x8192.rank) ∉ gather_S8192x8192_S8192x1x1_S8192x1_n_1_0_0_1_2_11.operandBatchingDims :=
    fun h => absurd (List.mem_singleton.mp h) (by decide)
  have A0 : gather_S8192x8192_S8192x1x1_S8192x1_n_1_0_0_1_2_11.start (ix2 r 0) idx 0 + gather_S8192x8192_S8192x1x1_S8192x1_n_1_0_0_1_2_11.batchCoord (ix2 r 0) 0 + gather_S8192x8192_S8192x1x1_S8192x1_n_1_0_0_1_2_11.offCoord (ix2 r 0) 0 = r.val := by
    rw [GatherDims.start_batching _ _ _ _ hb0, GatherDims.offCoord_eq_zero _ _ _ hk0]
    unfold GatherDims.batchCoord
    rw [dif_pos hb0, Nat.zero_add, Nat.add_zero]
    rfl
  have A1 : gather_S8192x8192_S8192x1x1_S8192x1_n_1_0_0_1_2_11.start (ix2 r 0) idx 1 + gather_S8192x8192_S8192x1x1_S8192x1_n_1_0_0_1_2_11.batchCoord (ix2 r 0) 1 + gather_S8192x8192_S8192x1x1_S8192x1_n_1_0_0_1_2_11.offCoord (ix2 r 0) 1
      = min (idx (ix3 r (0 : Fin 1) (0 : Fin 1))).toInt.toNat 8191 := by
    rw [GatherDims.batchCoord_eq_zero _ _ _ hb1, GatherDims.offCoord_eq_zero _ _ _ hk1]
    unfold GatherDims.start
    rw [dif_pos hm1]
    have hsi : gather_S8192x8192_S8192x1x1_S8192x1_n_1_0_0_1_2_11.siIdx (ix2 r 0) ⟨List.idxOf (1 : Fin S8192x8192.rank) gather_S8192x8192_S8192x1x1_S8192x1_n_1_0_0_1_2_11.startIndexMap,
        List.idxOf_lt_length_iff.2 hm1⟩ = ix3 r 0 0 := by
      funext b; refine Fin.ext ?_
      match b with
      | ⟨0, _⟩ => rfl
      | ⟨1, _⟩ => rfl
      | ⟨2, _⟩ => rfl
    rw [hsi]
    rfl
  match a with
  | ⟨0, _⟩ => exact A0
  | ⟨1, _⟩ => exact A1

end Gather

/-! ## A sum over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Two float words, and the two forms of a row's loss -/

/-- The word `0x3F000000` is the real number 1/2. -/
theorem half_eq : Ideal.ofBits .f32 0x3F000000#32 = ((1 / 2 : ℝ) : EReal) := by
  simp [Ideal.ofBits, Ideal.ieee, -EReal.coe_mul]; norm_num

/-- The word `0xFF800000` is `⊥`. -/
theorem neg_inf_eq : Ideal.ofBits .f32 0xFF800000#32 = ⊥ := by simp [Ideal.ofBits, Ideal.ieee]

/-- Dividing by the word of 1/2 is multiplying by the real number 2, at every extended real. -/
theorem div_half (x : EReal) : Ideal.div x (Ideal.ofBits .f32 0x3F000000#32) = x * ((2 : ℝ) : EReal) := by
  rw [half_eq, Ideal.div_coe (by norm_num : (1 / 2 : ℝ) ≠ 0)]
  norm_num

/-- For real `M`, `t` and positive real `L`: `−((t − M) − log L) = (M + log L) − t`. -/
theorem loss_form (M L t : ℝ) (hL : 0 < L) :
    -(((t : EReal) - (M : EReal)) - Ideal.log (L : EReal)) = ((M : EReal) + Ideal.log (L : EReal)) - (t : EReal) := by
  rw [Ideal.log_coe, if_neg (not_le.2 hL), ← EReal.coe_sub, ← EReal.coe_sub, ← EReal.coe_neg, ← EReal.coe_add,
    ← EReal.coe_sub]
  congr 1
  ring

end Cert.Contrast.Ref

end
-- ==== Proof.KIHost.lean ====
/-
  The host side of the kernel's program, read at the ideal values. The two normalised arrays the first two regions leave
  are `nrm` of the two arguments, index by index; stacked along the rows they are `stacked`; and once the third region has
  left the 8192 row losses, the last stretch — a sum from zero and a division by 8192 — leaves their mean.
-/
import proofs.«127245_j12824772346324_2_alg».proof.Proof.KIRun
import proofs.«127245_j12824772346324_2_alg».proof.Proof.KIVal0
import proofs.«127245_j12824772346324_2_alg».proof.Proof.KIVal1
import proofs.«127245_j12824772346324_2_alg».proof.Proof.RefOps
import proofs.«127245_j12824772346324_2_alg».proof.Proof.Spec
import Idealize.ShloMosaic.Lib.StableHlo.Run
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The two arguments on core `c`, as functions of a row and a column. -/
abbrev argX (c : Dev nD) : Fin 4096 → Fin 512 → EReal := fun r j => (m ((c : Thread nD τ).loc main_arg0) : S4096x512.Idx → EReal) (ix2 r j)
abbrev argY (c : Dev nD) : Fin 4096 → Fin 512 → EReal := fun r j => (m ((c : Thread nD τ).loc main_arg1) : S4096x512.Idx → EReal) (ix2 r j)

/-- What region 0 leaves: the first argument's rows normalised. -/
theorem Bv2_v0 (c : Dev nD) (r : Fin 4096) (j : Fin 512) :
    (Bv2 (F := Ideal) m ρ c main_v0 : S4096x512.Idx → EReal) (ix2 r j) = Cert.Contrast.nrm (argX m c) r j := by
  have e1 : Bv2 (F := Ideal) m ρ c main_v0 = Bv1 m ρ c main_v0 := Bd2_of_ne m ρ c main_v0 (by decide)
  have e2 : Bv1 (F := Ideal) m ρ c main_v0 = (dat0 (Bv0 m ρ) c).arrAt 1 cfg0.N := Bd1_arr m ρ c 1
  rw [e1, e2]
  exact final0_apply (Bv0 m ρ) c r j

/-- What region 1 leaves: the second argument's rows normalised. -/
theorem Bv2_v1 (c : Dev nD) (r : Fin 4096) (j : Fin 512) :
    (Bv2 (F := Ideal) m ρ c main_v1 : S4096x512.Idx → EReal) (ix2 r j) = Cert.Contrast.nrm (argY m c) r j := by
  have e1 : Bv2 (F := Ideal) m ρ c main_v1 = (dat1 (Bv1 m ρ) c).arrAt 1 cfg1.N := Bd2_arr m ρ c 1
  have e3 : Bv1 (F := Ideal) m ρ c main_arg1 = m ((c : Thread nD τ).loc main_arg1) := Bd1_of_ne m ρ c main_arg1 (by decide)
  rw [e1, final1_apply (Bv1 m ρ) c r j, e3]

/-- The stacked array region 2 is entered with. -/
theorem Bv3_v2 (c : Dev nD) (r : Fin 8192) (j : Fin 512) :
    (Bv3 (F := Ideal) m ρ c main_v2 : S8192x512.Idx → EReal) (ix2 r j) = Cert.Contrast.stacked (argX m c) (argY m c) r j := by
  have e : (Bv3 (F := Ideal) m ρ c main_v2 : S8192x512.Idx → EReal)
      = concatenate S8192x512 0 [⟨S4096x512, (Bv2 (F := Ideal) m ρ c main_v0 : S4096x512.Idx → EReal)⟩, ⟨S4096x512, (Bv2 (F := Ideal) m ρ c main_v1 : S4096x512.Idx → EReal)⟩] concatenates_S4096x512_S4096x512_S8192x512_d0 := by
    show StableHlo.after hostOps2 (Bd2 m ρ c) (Proc.devRef .tc main_v2) = _
    after_results
  rw [e, Cert.Contrast.Ref.concat_rows]
  unfold Cert.Contrast.stacked
  split
  · exact Bv2_v0 m ρ c _ j
  · exact Bv2_v1 m ρ c _ j

/-- A sum from zero of 8192 entries divided by the word of 8192: the mean, when the entries are the row losses. -/
theorem tail_eq (y0 : S8192.Idx → EReal) (X Y : Fin 4096 → Fin 512 → EReal)
    (hrow : ∀ r : Fin 8192, y0 (ix1 r) = Cert.Contrast.rowLoss X Y r) :
    Host.divf (F := Ideal) (Host.reduceAdd (F := Ideal) y0 (constant (F := Ideal) S_ .f32 0x00000000#32) reducesTo_S8192_S_d0 h_S_) (constant (F := Ideal) S_ .f32 0x46000000#32)
      = fun _ => Cert.Contrast.loss X Y := by
  funext i
  have hs : (Host.reduceAdd (F := Ideal) y0 (constant (F := Ideal) S_ .f32 0x00000000#32) reducesTo_S8192_S_d0 h_S_) i
      = (constant (F := Ideal) S_ .f32 0x00000000#32) (Shape.Idx.first h_S_) + ∑ j : S8192.Idx, y0 j := by
    simp only [Host.reduceAdd, Ideal.hostReduceAdd_def]
    exact Ideal.hostReduceAdd_total reducesTo_S8192_S_d0 (fun b => b.elim0) y0 _ i
  show FloatOps.hostDivf (F := Ideal) ((Host.reduceAdd (F := Ideal) y0 (constant (F := Ideal) S_ .f32 0x00000000#32) reducesTo_S8192_S_d0 h_S_) i) (FloatOps.ofBits (F := Ideal) .f32 0x46000000#32) = _
  rw [hs]
  show Ideal.div (FloatOps.ofBits (F := Ideal) .f32 0x00000000#32 + ∑ j : S8192.Idx, y0 j) (Ideal.ofBits .f32 0x46000000#32) = _
  simp only [Ideal.ofBits_def, Ideal.ofBits_zero_f32, zero_add]
  unfold Cert.Contrast.loss Cert.Contrast.count
  refine congrArg (fun s => Ideal.div s (Ideal.ofBits .f32 0x46000000#32)) ?_
  rw [Cert.Contrast.Ref.sum_idx1]
  exact Finset.sum_congr rfl fun r _ => hrow r

/-- The last stretch read back: the result is the sum-and-divide of the row losses' array. -/
theorem Bd5_v5 (c : Dev nD) :
    (Bd5 (F := Ideal) m ρ c (Proc.devRef .tc main_v5) : S_.Idx → EReal)
      = Host.divf (F := Ideal) (Host.reduceAdd (F := Ideal) (Bv4 (F := Ideal) m ρ c main_v3 : S8192.Idx → EReal) (constant (F := Ideal) S_ .f32 0x00000000#32) reducesTo_S8192_S_d0 h_S_) (constant (F := Ideal) S_ .f32 0x46000000#32) := by
  show StableHlo.after hostOps3 (Bd4 m ρ c) (Proc.devRef .tc main_v5) = _
  after_results

/-- The result: once the row losses are in place, the last stretch leaves their mean. -/
theorem out_eq (c : Dev nD) (X Y : Fin 4096 → Fin 512 → EReal)
    (hrow : ∀ r : Fin 8192, (Bv4 (F := Ideal) m ρ c main_v3 : S8192.Idx → EReal) (ix1 r) = Cert.Contrast.rowLoss X Y r) :
    (Bd5 (F := Ideal) m ρ c (Proc.devRef .tc main_v5) : S_.Idx → EReal) = fun _ => Cert.Contrast.loss X Y :=
  (Bd5_v5 m ρ c).trans (tail_eq _ X Y hrow)

end Cert.KernelIdeal.Gen

end
-- ==== Proof.KIBlocks2.lean ====
/-
  Region 2's blocks in their arrays. At grid point `t` (of 32) the query window's block is rows 256·t … 256·t + 255 of the
  stacked array, the key window's block is the stacked array whole, and the output window's block is entries
  256·t … 256·t + 255 of the row losses; the body's grid coordinate is `t` itself.
-/
import proofs.«127245_j12824772346324_2_alg».proof.Proof.KIReg2
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

variable (V : (c : Dev nD) → (b : Ref sig .tc) → Buf (Elt F) ((c : Thread nD τ).loc b))

/-- The printed index maps, decided once over the 32 grid points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = t.val
    ∧ ((grid2.coords t) (0 : Fin 1)).val = t.val :=
  (by decide +kernel : ∀ t : Fin grid2.N, _)

/-- The query block at point `t`, at (p, d), is the stacked array at (256·t + p, d). -/
theorem iblk2_0_apply (c : Dev nD) (t : Fin cfg2.N) (p : Fin 256) (d : Fin 512) (r : Fin 8192) (hr : r.val = 256 * t.val + p.val) :
    iblk2 V c 0 t (ix2 p d) = V c main_v2 (ix2 r d) := by
  show V c main_v2 (((cfg2.win 0).blk t).view.emb (ix2 p d)) = V c main_v2 (ix2 r d)
  refine congrArg _ ?_
  funext a; apply Fin.ext
  obtain ⟨e0, e1, -⟩ := idx_facts2 t
  match a with
  | ⟨0, _⟩ => show win2_0.index t (0 : Fin 2) * 256 + 1 * p.val = r.val; omega
  | ⟨1, _⟩ => show win2_0.index t (1 : Fin 2) * 512 + 1 * d.val = d.val; omega

/-- The key block at any point is the stacked array itself. -/
theorem iblk2_1_apply (c : Dev nD) (t : Fin cfg2.N) (j : Fin 8192) (d : Fin 512) :
    iblk2 V c 1 t (ix2 j d) = V c main_v2 (ix2 j d) := by
  show V c main_v2 (((cfg2.win 1).blk t).view.emb (ix2 j d)) = V c main_v2 (ix2 j d)
  refine congrArg _ ?_
  funext a; apply Fin.ext
  obtain ⟨-, -, e2, e3, -⟩ := idx_facts2 t
  match a with
  | ⟨0, _⟩ => show win2_1.index t (0 : Fin 2) * 8192 + 1 * j.val = j.val; omega
  | ⟨1, _⟩ => show win2_1.index t (1 : Fin 2) * 512 + 1 * d.val = d.val; omega

/-- An entry of the output block at point `t` sits in the row losses at 256·t plus its place in the block. -/
theorem emb2_2 (t : Fin cfg2.N) (p : Fin 256) :
    ((((cfg2.win 2).blk t).view.emb (ix1 p)) 0).val = 256 * t.val + p.val := by
  obtain ⟨-, -, -, -, e4, -⟩ := idx_facts2 t
  show win2_2.index t (0 : Fin 1) * 256 + 1 * p.val = 256 * t.val + p.val
  omega

/-- An entry of the row losses is in point `t`'s block iff it lies in the block's range. -/
theorem mem_blk2 (t : Fin cfg2.N) (i : S8192.Idx) :
    i ∈ ((cfg2.win 2).blk t).view.set ↔ ∀ a : Fin 1, win2_2.index t a * S256.size a ≤ (i a).val ∧ (i a).val < win2_2.index t a * S256.size a + S256.size a := by
  show i ∈ ((View.whole main_v3).slice (win2_2.rect t)).set ↔ _
  rw [View.set_slice_whole, Rect.mem_set_unit]
  exact Iff.rfl

/-- Every entry of the row losses is in the block of the point its row block names. -/
theorem cover2 (i : S8192.Idx) : ∃ t : Fin cfg2.N, (cfg2.win 2).flush t = true ∧ i ∈ ((cfg2.win 2).blk t).view.set := by
  have hi : (i 0).val < 8192 := (i 0).isLt
  have hN : cfg2.N = 32 := N_2
  have ht : (i 0).val / 256 < cfg2.N := by rw [hN]; omega
  obtain ⟨-, -, -, -, e4, -⟩ := idx_facts2 ⟨(i 0).val / 256, ht⟩
  refine ⟨⟨(i 0).val / 256, ht⟩, flush2_2 _, ?_⟩
  rw [mem_blk2]
  intro a
  match a with
  | ⟨0, _⟩ =>
    show win2_2.index ⟨(i 0).val / 256, ht⟩ (0 : Fin 1) * 256 ≤ (i 0).val ∧ (i 0).val < win2_2.index ⟨(i 0).val / 256, ht⟩ (0 : Fin 1) * 256 + 256
    rw [e4]
    show (i 0).val / 256 * 256 ≤ (i 0).val ∧ (i 0).val < (i 0).val / 256 * 256 + 256
    omega

end Cert.KernelIdeal.Gen

end
-- ==== Proof.LibMaskedOnlineSoftmax.lean ====
/-
  Masked online softmax normalizer, on the extended reals.

  Scores come in tiles: tile c = 0, 1, …, n - 1 is a family s c k, k : κ, of extended reals, each of them minus
  infinity (a masked entry) or a real. A running maximum m and a running sum l start at minus infinity and zero; tile c
  replaces them by

      m' = max m (sup_k s c k),      l' = l * exp (m - m') + ∑_k exp (s c k - m'),

  with exp (-∞) = 0. After all the tiles, m is the supremum M of all the scores and l = ∑_{c,k} exp (s c k - M): the
  rescaling factors exp (m - m') telescope. The proof of that needs no more than "no score is plus infinity": while
  every score seen is masked, m = -∞ and l = 0, and from the first real score on m is a real and the identity
  exp (x - m) * exp (m - m') = exp (x - m') is the one of the real exponential (a masked x contributing 0 on both
  sides). As soon as one score is a real, M is a real and the sum is a positive real.

  The file also holds a few small facts used with it: the two ways of writing a logarithmic loss from M, log L and a
  target score; division by one half as multiplication by two; picking one entry of a family by a sum of
  conditionals, also when the sum is accumulated tile by tile; and the supremum of a finite family as a fold of max.
-/
import Idealize.ShloMosaic.PureOps.Ideal

noncomputable section

namespace Cert.MaskedOnline

open Idealize.ShloMosaic

variable {κ : Type} [Fintype κ]

/-! ### The recursion -/

/-- One tile's update of the pair (running maximum, running sum). -/
def step (s : κ → EReal) (p : EReal × EReal) : EReal × EReal :=
  (max p.1 (Finset.univ.sup s),
    p.2 * Ideal.exp (p.1 - max p.1 (Finset.univ.sup s))
      + ∑ k, Ideal.exp (s k - max p.1 (Finset.univ.sup s)))

/-- The pair after tiles 0, 1, …, n - 1, from (-∞, 0). -/
def run : (n : ℕ) → (Fin n → κ → EReal) → EReal × EReal
  | 0, _ => (⊥, 0)
  | n + 1, s => step (s (Fin.last n)) (run n fun c => s c.castSucc)

theorem step_fst (s : κ → EReal) (p : EReal × EReal) : (step s p).1 = max p.1 (Finset.univ.sup s) := rfl

theorem step_snd (s : κ → EReal) (p : EReal × EReal) :
    (step s p).2 = p.2 * Ideal.exp (p.1 - (step s p).1) + ∑ k, Ideal.exp (s k - (step s p).1) := rfl

theorem run_zero (s : Fin 0 → κ → EReal) : run 0 s = (⊥, 0) := rfl

theorem run_succ (n : ℕ) (s : Fin (n + 1) → κ → EReal) :
    run (n + 1) s = step (s (Fin.last n)) (run n fun c => s c.castSucc) := rfl

/-- Eight tiles, written out. -/
theorem run_eight (s : Fin 8 → κ → EReal) :
    run 8 s = step (s 7) (step (s 6) (step (s 5) (step (s 4) (step (s 3) (step (s 2) (step (s 1)
      (step (s 0) (⊥, 0)))))))) := rfl

/-! ### Coercions of reals into the extended reals -/

/-- The coercion of a finite sum of reals is the sum of the coercions. -/
theorem coe_sum {α : Type} (t : Finset α) (g : α → ℝ) :
    ((∑ i ∈ t, g i : ℝ) : EReal) = ∑ i ∈ t, ((g i : ℝ) : EReal) := by
  classical
  induction t using Finset.induction_on with
  | empty => simp
  | insert a t ha ih => rw [Finset.sum_insert ha, Finset.sum_insert ha, EReal.coe_add, ih]

/-- The real number exp (x - c) for x minus infinity (then 0) or a real. -/
def wt (x : EReal) (c : ℝ) : ℝ := if x = ⊥ then 0 else Real.exp (x.toReal - c)

theorem wt_bot (c : ℝ) : wt ⊥ c = 0 := if_pos rfl

theorem wt_coe (a c : ℝ) : wt (a : EReal) c = Real.exp (a - c) := by
  rw [wt, if_neg (EReal.coe_ne_bot a), EReal.toReal_coe]

theorem wt_nonneg (x : EReal) (c : ℝ) : 0 ≤ wt x c := by
  unfold wt
  split_ifs
  · exact le_rfl
  · exact (Real.exp_pos _).le

/-- Changing the shift from c to c' multiplies by exp (c - c'). -/
theorem wt_rescale (x : EReal) (c c' : ℝ) : wt x c * Real.exp (c - c') = wt x c' := by
  unfold wt
  split_ifs
  · exact zero_mul _
  · rw [← Real.exp_add]
    congr 1
    ring

/-- exp (x - c) on the extended reals, for x not plus infinity and c a real, is the coercion of a real. -/
theorem exp_sub_coe (x : EReal) (hx : x ≠ ⊤) (c : ℝ) : Ideal.exp (x - (c : EReal)) = ((wt x c : ℝ) : EReal) := by
  induction x using EReal.rec with
  | bot => rw [EReal.bot_sub, Ideal.exp_bot, wt_bot, EReal.coe_zero]
  | coe a => rw [← EReal.coe_sub, Ideal.exp_coe, wt_coe]
  | top => exact absurd rfl hx

/-- A finite sum of such exponentials is the coercion of the real sum. -/
theorem sum_exp_sub_coe {ι : Type} [Fintype ι] (f : ι → EReal) (hf : ∀ i, f i ≠ ⊤) (c : ℝ) :
    ∑ i, Ideal.exp (f i - (c : EReal)) = ((∑ i, wt (f i) c : ℝ) : EReal) := by
  rw [coe_sum]
  exact Finset.sum_congr rfl fun i _ => exp_sub_coe (f i) (hf i) c

/-! ### Suprema of finite families of extended reals -/

/-- The supremum of a finite family as a fold of max from minus infinity. -/
theorem sup_eq_fold_max {ι : Type} (t : Finset ι) (f : ι → EReal) : t.sup f = t.fold max ⊥ f := rfl

/-- A finite supremum of extended reals none of which is plus infinity is not plus infinity. -/
theorem sup_ne_top {ι : Type} [Fintype ι] (f : ι → EReal) (hf : ∀ i, f i ≠ ⊤) : Finset.univ.sup f ≠ ⊤ := by
  rw [← lt_top_iff_ne_top, Finset.sup_lt_iff bot_lt_top]
  exact fun i _ => lt_top_iff_ne_top.2 (hf i)

/-- If moreover one member is a real, the supremum is a real. -/
theorem sup_coe {ι : Type} [Fintype ι] (f : ι → EReal) (hf : ∀ i, f i ≠ ⊤) (i : ι) (a : ℝ)
    (hi : f i = (a : EReal)) : ∃ t : ℝ, Finset.univ.sup f = (t : EReal) := by
  have h1 : Finset.univ.sup f ≠ ⊤ := sup_ne_top f hf
  have h2 : Finset.univ.sup f ≠ ⊥ := by
    have h : (a : EReal) ≤ Finset.univ.sup f := hi ▸ Finset.le_sup (Finset.mem_univ i)
    exact (lt_of_lt_of_le (EReal.bot_lt_coe a) h).ne'
  exact ⟨_, (EReal.coe_toReal h1 h2).symm⟩

/-! ### Splitting off the last tile -/

theorem sup_tiles_succ (n : ℕ) (f : Fin (n + 1) → κ → EReal) :
    Finset.univ.sup (fun ck : Fin (n + 1) × κ => f ck.1 ck.2)
      = max (Finset.univ.sup fun ck : Fin n × κ => f ck.1.castSucc ck.2) (Finset.univ.sup (f (Fin.last n))) := by
  apply le_antisymm
  · refine Finset.sup_le fun ck _ => ?_
    obtain ⟨c, k⟩ := ck
    induction c using Fin.lastCases with
    | last => exact le_max_of_le_right (Finset.le_sup (f := f (Fin.last n)) (Finset.mem_univ k))
    | cast c =>
      exact le_max_of_le_left
        (Finset.le_sup (f := fun ck : Fin n × κ => f ck.1.castSucc ck.2) (Finset.mem_univ (c, k)))
  · refine max_le (Finset.sup_le fun ck _ => ?_) (Finset.sup_le fun k _ => ?_)
    · exact Finset.le_sup (f := fun ck : Fin (n + 1) × κ => f ck.1 ck.2) (Finset.mem_univ (ck.1.castSucc, ck.2))
    · exact Finset.le_sup (f := fun ck : Fin (n + 1) × κ => f ck.1 ck.2) (Finset.mem_univ (Fin.last n, k))

theorem sum_tiles_succ {M : Type} [AddCommMonoid M] (n : ℕ) (f : Fin (n + 1) → κ → M) :
    ∑ ck : Fin (n + 1) × κ, f ck.1 ck.2
      = (∑ ck : Fin n × κ, f ck.1.castSucc ck.2) + ∑ k, f (Fin.last n) k := by
  rw [Fintype.sum_prod_type, Fintype.sum_prod_type, Fin.sum_univ_castSucc]

/-! ### The telescoping step -/

/-- Moving the shift of a sum of exponentials from m up to m': if every f i is at most m, m ≤ m' and m' is not plus
    infinity, then (∑ exp (f i - m)) * exp (m - m') = ∑ exp (f i - m'). For m minus infinity both sides are 0. -/
theorem sum_exp_rescale {ι : Type} [Fintype ι] (f : ι → EReal) {m m' : EReal} (hfm : ∀ i, f i ≤ m)
    (hmm' : m ≤ m') (hm' : m' ≠ ⊤) :
    (∑ i, Ideal.exp (f i - m)) * Ideal.exp (m - m') = ∑ i, Ideal.exp (f i - m') := by
  induction m using EReal.rec with
  | bot =>
    have hf : ∀ i, f i = ⊥ := fun i => le_bot_iff.1 (hfm i)
    simp only [hf, EReal.bot_sub, Ideal.exp_bot, Finset.sum_const_zero, zero_mul]
  | top => exact absurd (top_le_iff.1 hmm') hm'
  | coe r =>
    induction m' using EReal.rec with
    | bot => exact absurd (le_bot_iff.1 hmm') (EReal.coe_ne_bot r)
    | top => exact absurd rfl hm'
    | coe r' =>
      have hf : ∀ i, f i ≠ ⊤ := fun i => ((hfm i).trans_lt (EReal.coe_lt_top r)).ne
      rw [sum_exp_sub_coe f hf r, sum_exp_sub_coe f hf r', ← EReal.coe_sub, Ideal.exp_coe, ← EReal.coe_mul,
        Finset.sum_mul]
      exact congrArg _ (Finset.sum_congr rfl fun i _ => wt_rescale _ _ _)

/-! ### What the recursion computes -/

/-- The running maximum is the supremum of all the scores seen. -/
theorem run_fst (n : ℕ) (s : Fin n → κ → EReal) :
    (run n s).1 = Finset.univ.sup fun ck : Fin n × κ => s ck.1 ck.2 := by
  induction n with
  | zero => rw [Finset.univ_eq_empty, Finset.sup_empty]; rfl
  | succ n ih => rw [sup_tiles_succ, ← ih fun c => s c.castSucc]; rfl

/-- If no score is plus infinity, the running maximum is not plus infinity. -/
theorem run_fst_ne_top (n : ℕ) (s : Fin n → κ → EReal) (hs : ∀ c k, s c k ≠ ⊤) : (run n s).1 ≠ ⊤ := by
  rw [run_fst]
  exact sup_ne_top _ fun ck => hs ck.1 ck.2

/-- If no score is plus infinity, the running sum is the sum of the exponentials of all the scores seen, shifted
    by the running maximum. -/
theorem run_snd (n : ℕ) (s : Fin n → κ → EReal) (hs : ∀ c k, s c k ≠ ⊤) :
    (run n s).2 = ∑ ck : Fin n × κ, Ideal.exp (s ck.1 ck.2 - (run n s).1) := by
  induction n with
  | zero => rw [Finset.univ_eq_empty, Finset.sum_empty]; rfl
  | succ n ih =>
    have ih' := ih (fun c => s c.castSucc) fun c k => hs c.castSucc k
    have hfm : ∀ ck : Fin n × κ, s ck.1.castSucc ck.2 ≤ (run n fun c => s c.castSucc).1 := by
      intro ck
      rw [run_fst]
      exact Finset.le_sup (f := fun ck : Fin n × κ => s ck.1.castSucc ck.2) (Finset.mem_univ ck)
    have hmm' : (run n fun c => s c.castSucc).1 ≤ (run (n + 1) s).1 := le_max_left _ _
    have hm' : (run (n + 1) s).1 ≠ ⊤ := run_fst_ne_top (n + 1) s hs
    have hstep : (run (n + 1) s).2
        = (run n fun c => s c.castSucc).2 * Ideal.exp ((run n fun c => s c.castSucc).1 - (run (n + 1) s).1)
          + ∑ k, Ideal.exp (s (Fin.last n) k - (run (n + 1) s).1) := rfl
    rw [hstep, sum_tiles_succ n fun c k => Ideal.exp (s c k - (run (n + 1) s).1), ih',
      sum_exp_rescale (fun ck : Fin n × κ => s ck.1.castSucc ck.2) hfm hmm' hm']

/-- If no score is plus infinity and one score is a real, the running maximum is a real. -/
theorem run_fst_coe (n : ℕ) (s : Fin n → κ → EReal) (hs : ∀ c k, s c k ≠ ⊤) (c₀ : Fin n) (k₀ : κ) (a : ℝ)
    (h₀ : s c₀ k₀ = (a : EReal)) : ∃ M : ℝ, (run n s).1 = (M : EReal) := by
  rw [run_fst]
  exact sup_coe (fun ck : Fin n × κ => s ck.1 ck.2) (fun ck => hs ck.1 ck.2) (c₀, k₀) a h₀

/-- If no score is plus infinity and one score is a real, the running sum is a positive real. -/
theorem run_snd_coe_pos (n : ℕ) (s : Fin n → κ → EReal) (hs : ∀ c k, s c k ≠ ⊤) (c₀ : Fin n) (k₀ : κ) (a : ℝ)
    (h₀ : s c₀ k₀ = (a : EReal)) : ∃ L : ℝ, 0 < L ∧ (run n s).2 = (L : EReal) := by
  obtain ⟨M, hM⟩ := run_fst_coe n s hs c₀ k₀ a h₀
  refine ⟨∑ ck : Fin n × κ, wt (s ck.1 ck.2) M, ?_, ?_⟩
  · refine Finset.sum_pos' (fun ck _ => wt_nonneg _ _) ⟨(c₀, k₀), Finset.mem_univ _, ?_⟩
    show 0 < wt (s c₀ k₀) M
    rw [h₀, wt_coe]
    exact Real.exp_pos _
  · rw [run_snd n s hs, hM]
    exact sum_exp_sub_coe (fun ck : Fin n × κ => s ck.1 ck.2) (fun ck => hs ck.1 ck.2) M

/-! ### The same, under the hypotheses "every score is minus infinity or a real, every tile has a real score" -/

/-- An extended real that is minus infinity or a real is not plus infinity. -/
theorem ne_top_of_bot_or_coe {x : EReal} (h : x = ⊥ ∨ ∃ a : ℝ, x = (a : EReal)) : x ≠ ⊤ := by
  rcases h with h | ⟨a, h⟩
  · rw [h]; exact bot_ne_top
  · rw [h]; exact EReal.coe_ne_top a

/-- (1) The running maximum after all tiles is the supremum of all scores. -/
theorem run_spec_max (n : ℕ) (s : Fin n → κ → EReal) :
    (run n s).1 = Finset.univ.sup (fun ck : Fin n × κ => s ck.1 ck.2) := run_fst n s

/-- (1) … and it is a real. -/
theorem run_spec_max_real (n : ℕ) (hn : 0 < n) (s : Fin n → κ → EReal)
    (hs : ∀ c k, s c k = ⊥ ∨ ∃ a : ℝ, s c k = (a : EReal))
    (hne : ∀ c, ∃ k, ∃ a : ℝ, s c k = (a : EReal)) : ∃ M : ℝ, (run n s).1 = (M : EReal) := by
  obtain ⟨k₀, a, h₀⟩ := hne ⟨0, hn⟩
  exact run_fst_coe n s (fun c k => ne_top_of_bot_or_coe (hs c k)) ⟨0, hn⟩ k₀ a h₀

/-- (2) The running sum after all tiles is the sum of the exponentials of all scores shifted by the maximum. -/
theorem run_spec_sum (n : ℕ) (s : Fin n → κ → EReal)
    (hs : ∀ c k, s c k = ⊥ ∨ ∃ a : ℝ, s c k = (a : EReal)) :
    (run n s).2 = ∑ ck : Fin n × κ, Ideal.exp (s ck.1 ck.2 - (run n s).1) :=
  run_snd n s fun c k => ne_top_of_bot_or_coe (hs c k)

/-- (3) The running sum after all tiles is a positive real. -/
theorem run_spec_sum_pos (n : ℕ) (hn : 0 < n) (s : Fin n → κ → EReal)
    (hs : ∀ c k, s c k = ⊥ ∨ ∃ a : ℝ, s c k = (a : EReal))
    (hne : ∀ c, ∃ k, ∃ a : ℝ, s c k = (a : EReal)) : ∃ L : ℝ, 0 < L ∧ (run n s).2 = (L : EReal) := by
  obtain ⟨k₀, a, h₀⟩ := hne ⟨0, hn⟩
  exact run_snd_coe_pos n s (fun c k => ne_top_of_bot_or_coe (hs c k)) ⟨0, hn⟩ k₀ a h₀

/-- (1), (2) and (3) together. -/
theorem run_spec (n : ℕ) (hn : 0 < n) (s : Fin n → κ → EReal)
    (hs : ∀ c k, s c k = ⊥ ∨ ∃ a : ℝ, s c k = (a : EReal))
    (hne : ∀ c, ∃ k, ∃ a : ℝ, s c k = (a : EReal)) :
    ((run n s).1 = Finset.univ.sup (fun ck : Fin n × κ => s ck.1 ck.2) ∧ ∃ M : ℝ, (run n s).1 = (M : EReal))
      ∧ (run n s).2 = ∑ ck : Fin n × κ, Ideal.exp (s ck.1 ck.2 - (run n s).1)
      ∧ ∃ L : ℝ, 0 < L ∧ (run n s).2 = (L : EReal) :=
  ⟨⟨run_spec_max n s, run_spec_max_real n hn s hs hne⟩, run_spec_sum n s hs, run_spec_sum_pos n hn s hs hne⟩

/-! ### Two spellings of the loss -/

/-- (M + log L) - t = -((t - M) - log L), for reals M, L, t with L positive. -/
theorem loss_forms (M L t : ℝ) (hL : 0 < L) :
    ((M : EReal) + Ideal.log (L : EReal)) - (t : EReal)
      = -(((t : EReal) - (M : EReal)) - Ideal.log (L : EReal)) := by
  rw [Ideal.log_coe, if_neg (not_le.2 hL), ← EReal.coe_add, ← EReal.coe_sub, ← EReal.coe_sub, ← EReal.coe_sub,
    ← EReal.coe_neg]
  congr 1
  ring

/-! ### Division by one half -/

/-- The single-precision word 0x3F000000 denotes one half. -/
theorem ofBits_half : Ideal.ofBits .f32 0x3F000000#32 = ((1 / 2 : ℝ) : EReal) := by
  simp [Ideal.ofBits, Ideal.ieee, -EReal.coe_mul]; norm_num

/-- The single-precision word 0x40000000 denotes two. -/
theorem ofBits_two : Ideal.ofBits .f32 0x40000000#32 = ((2 : ℝ) : EReal) := by
  simp [Ideal.ofBits, Ideal.ieee, -EReal.coe_mul]; norm_num

/-- Dividing by one half is multiplying by two, at every extended real. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

/-! ### Picking one entry by a sum of conditionals -/

/-- A sum of conditionals that keep one index is the term at that index. -/
theorem pick_sum {ι : Type} [Fintype ι] [DecidableEq ι] (f : ι → EReal) (j : ι) :
    (∑ i, if i = j then f i else 0) = f j := by
  rw [Finset.sum_ite_eq' Finset.univ j f, if_pos (Finset.mem_univ j)]

/-- An accumulator that starts at 0 and adds one term per tile, tiles 0, 1, …, n - 1 in that order. -/
def accum : (n : ℕ) → (Fin n → EReal) → EReal
  | 0, _ => 0
  | n + 1, T => accum n (fun c => T c.castSucc) + T (Fin.last n)

theorem accum_zero (T : Fin 0 → EReal) : accum 0 T = 0 := rfl

theorem accum_succ (n : ℕ) (T : Fin (n + 1) → EReal) :
    accum (n + 1) T = accum n (fun c => T c.castSucc) + T (Fin.last n) := rfl

/-- Eight tiles, written out. -/
theorem accum_eight (T : Fin 8 → EReal) :
    accum 8 T = 0 + T 0 + T 1 + T 2 + T 3 + T 4 + T 5 + T 6 + T 7 := rfl

/-- The accumulator ends at the sum of the terms. -/
theorem accum_eq_sum (n : ℕ) (T : Fin n → EReal) : accum n T = ∑ c, T c := by
  induction n with
  | zero => rw [Finset.univ_eq_empty, Finset.sum_empty]; rfl
  | succ n ih => rw [Fin.sum_univ_castSucc, ← ih fun c => T c.castSucc]; rfl

/-- Tile by tile: if the condition p c k holds exactly at the target (c, k) = tgt, the accumulator of the tiles'
    sums of conditionals ends at the target's score. -/
theorem pick_tiles (n : ℕ) (s : Fin n → κ → EReal) (p : Fin n → κ → Prop) [∀ c k, Decidable (p c k)]
    (tgt : Fin n × κ) (hp : ∀ c k, p c k ↔ (c, k) = tgt) :
    accum n (fun c => ∑ k, if p c k then s c k else 0) = s tgt.1 tgt.2 := by
  classical
  rw [accum_eq_sum, ← Fintype.sum_prod_type' fun c k => if p c k then s c k else 0]
  refine (Finset.sum_congr rfl fun ck _ => ?_).trans (pick_sum (fun ck : Fin n × κ => s ck.1 ck.2) tgt)
  exact if_congr (hp ck.1 ck.2) rfl rfl

/-- The same with the condition spelled (c, k) = tgt. -/
theorem pick_tiles_eq [DecidableEq κ] (n : ℕ) (s : Fin n → κ → EReal) (tgt : Fin n × κ) :
    accum n (fun c => ∑ k, if (c, k) = tgt then s c k else 0) = s tgt.1 tgt.2 :=
  pick_tiles n s (fun c k => (c, k) = tgt) tgt fun _ _ => Iff.rfl

/-! ### Scores read from one flat family through a bijection -/

/-- When tile c, entry k is g (e (c, k)) for a bijection e onto ι, the running maximum ends at the supremum of g. -/
theorem run_fst_of_equiv {ι : Type} [Fintype ι] (n : ℕ) (e : Fin n × κ ≃ ι) (g : ι → EReal) :
    (run n fun c k => g (e (c, k))).1 = Finset.univ.sup g := by
  rw [run_fst]
  apply le_antisymm
  · exact Finset.sup_le fun ck _ => Finset.le_sup (f := g) (Finset.mem_univ (e (ck.1, ck.2)))
  · refine Finset.sup_le fun i _ => ?_
    have h := Finset.le_sup (f := fun ck : Fin n × κ => g (e (ck.1, ck.2))) (Finset.mem_univ (e.symm i))
    rwa [show g (e ((e.symm i).1, (e.symm i).2)) = g i from congrArg g (e.apply_symm_apply i)] at h

/-- … and, if no g i is plus infinity, the running sum ends at ∑ i, exp (g i - sup g). -/
theorem run_snd_of_equiv {ι : Type} [Fintype ι] (n : ℕ) (e : Fin n × κ ≃ ι) (g : ι → EReal) (hg : ∀ i, g i ≠ ⊤) :
    (run n fun c k => g (e (c, k))).2 = ∑ i, Ideal.exp (g i - Finset.univ.sup g) := by
  rw [run_snd n _ fun c k => hg (e (c, k)), run_fst_of_equiv]
  exact Equiv.sum_comp e fun i => Ideal.exp (g i - Finset.univ.sup g)

end Cert.MaskedOnline

end
-- ==== Proof.KIBody2.lean ====
/-
  The arithmetic of region 2's body, read at a row.

  For a block of 256 query rows the body walks the 8192 key rows in eight slabs of 1024. For each slab it forms the
  score block s = (q · kᵀ) · 2 with the diagonal entry (row number = column number) replaced by the masked value,
  adds to t the entry of s in the row's partner column (if that column lies in the slab), and updates the running
  maximum m and the running normaliser l by

      m' = max m (max_k s k),      l' = l · exp (m − m') + Σ_k exp (s k − m'),

  from m = −∞, l = 0, t = 0; the row's loss is (m + log l) − t.

  First the eight slabs are written as eight uses of ONE step with the slab's column offset a parameter, and the body
  is shown to be that chain; then each piece of the step is read at a row on the extended reals, where the chain
  becomes the pair recursion of the masked online normaliser and an accumulator of the partner's score.
-/
import proofs.«127245_j12824772346324_2_alg».proof.Proof.KIReg2
import proofs.«127245_j12824772346324_2_alg».proof.Proof.LibMaskedOnlineSoftmax
import proofs.«127245_j12824772346324_2_alg».proof.Proof.LibKeepdimsCol
import proofs.«127245_j12824772346324_2_alg».proof.Proof.Spec
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.ValueIdx
open scoped BigOperators

/-! ## The step, as vector operations -/

section Clean
variable {F : FTy → Type} [FloatOps F] [Named F]

/-- The column numbers of a slab: its offset plus the lane number. -/
def colV (off : BitVec 32) : IVec S256x1024 32 :=
  addi (broadcast S256x1024 off) (iota .tc S256x1024 32 [1] iota_S256x1024_d1_w32)

/-- The unmasked score block: the query block times the slab's transpose, times two. -/
def rawV (v1 : FVec F S256x512 .bf16) (kc : Vec F S1024x512 .bf16) : FVec F S256x1024 .f32 :=
  mulf (matmul dot_S256x512_S1024x512_S256x1024_1_1_0_0_n_n none v1
      (shapeCast S1024x512 kc shapeCasts_S1024x512_S1024x512) (constant S256x1024 .f32 0x00000000#32))
    (broadcast S256x1024 (Scalar.ofBits .f32 0x40000000#32))

/-- The diagonal masked out of a score block: where the row number is the column number, the masked value. -/
def maskV (off : BitVec 32) (v5 : IVec S256x1 32) (raw : FVec F S256x1024 .f32) : FVec F S256x1024 .f32 :=
  select (cmpi .eq (broadcastTo S256x1024 v5 broadcasts_S256x1_S256x1024) (colV off))
    (broadcast S256x1024 (Named.named κ "neg_big" 0xF149F2CA#32 : F .f32)) raw

/-- The masked score block of a slab. -/
def scoreV (off : BitVec 32) (v1 : FVec F S256x512 .bf16) (v5 : IVec S256x1 32) (kc : Vec F S1024x512 .bf16) :
    FVec F S256x1024 .f32 :=
  maskV off v5 (rawV v1 kc)

/-- The partner's score accumulated: t plus the row sums of the block kept only in the partner column. -/
def tgtV (off : BitVec 32) (v12 : IVec S256x1 32) (s : FVec F S256x1024 .f32) (t : FVec F S256x1 .f32) :
    FVec F S256x1 .f32 :=
  addf t (shapeCast S256x1
    (multiReduction .add [1] S256
      (select (cmpi .eq (colV off) (broadcastTo S256x1024 v12 broadcasts_S256x1_S256x1024)) s
        (broadcast S256x1024 (Scalar.ofBits .f32 0x00000000#32 : F .f32)))
      0x00000000#32 reduces_S256x1024_S256 (.inl rfl) rfl)
    shapeCasts_S256_S256x1)

/-- The running maximum after a slab. -/
def maxV (s : FVec F S256x1024 .f32) (m : FVec F S256x1 .f32) : FVec F S256x1 .f32 :=
  maximumf m (shapeCast S256x1
    (multiReduction .maximumf [1] S256 s 0xFF800000#32 reduces_S256x1024_S256 (.inl rfl) rfl)
    shapeCasts_S256_S256x1)

/-- The running normaliser after a slab: rescaled from the old maximum m to the new one m', plus the slab's terms. -/
def sumV (s : FVec F S256x1024 .f32) (m m' l : FVec F S256x1 .f32) : FVec F S256x1 .f32 :=
  addf (mulf l (exp (subf m m')))
    (shapeCast S256x1
      (multiReduction .add [1] S256
        (exp (subf s (broadcastTo S256x1024 m' broadcasts_S256x1_S256x1024)))
        0x00000000#32 reduces_S256x1024_S256 (.inl rfl) rfl)
      shapeCasts_S256_S256x1)

/-- The state carried from slab to slab: running maximum, running normaliser, partner's score. -/
structure St2 (F : FTy → Type) where
  m : FVec F S256x1 .f32
  l : FVec F S256x1 .f32
  t : FVec F S256x1 .f32

/-- The state before the first slab: −∞, 0, 0. -/
def st0V : St2 F where
  m := broadcast S256x1 (Scalar.ofBits .f32 0xFF800000#32 : F .f32)
  l := broadcast S256x1 (Scalar.ofBits .f32 0x00000000#32 : F .f32)
  t := broadcast S256x1 (Scalar.ofBits .f32 0x00000000#32 : F .f32)

/-- One slab's update of the state. -/
def stepV (off : BitVec 32) (v1 : FVec F S256x512 .bf16) (v5 v12 : IVec S256x1 32) (kc : Vec F S1024x512 .bf16)
    (st : St2 F) : St2 F where
  m := maxV (scoreV off v1 v5 kc) st.m
  l := sumV (scoreV off v1 v5 kc) st.m (maxV (scoreV off v1 v5 kc) st.m) st.l
  t := tgtV off v12 (scoreV off v1 v5 kc) st.t

/-- The row losses from the final state: (m + log l) − t, as a vector of length 256. -/
def lossV (st : St2 F) : FVec F S256 .f32 :=
  shapeCast S256 (subf (addf st.m (log st.l)) st.t) shapeCasts_S256x1_S256

/-- The state after the eight slabs. -/
def chainV (i : grid2.Coords) (x0 : Vec F S256x512 .bf16) (x1 : Vec F S8192x512 .bf16) : St2 F :=
  stepV 7168#32 (k2_pay1 (View.ld x0 rq2)) (k2_pay2 i) (k2_pay3 i) (View.ld x1 rk2_7)
  (stepV 6144#32 (k2_pay1 (View.ld x0 rq2)) (k2_pay2 i) (k2_pay3 i) (View.ld x1 rk2_6)
  (stepV 5120#32 (k2_pay1 (View.ld x0 rq2)) (k2_pay2 i) (k2_pay3 i) (View.ld x1 rk2_5)
  (stepV 4096#32 (k2_pay1 (View.ld x0 rq2)) (k2_pay2 i) (k2_pay3 i) (View.ld x1 rk2_4)
  (stepV 3072#32 (k2_pay1 (View.ld x0 rq2)) (k2_pay2 i) (k2_pay3 i) (View.ld x1 rk2_3)
  (stepV 2048#32 (k2_pay1 (View.ld x0 rq2)) (k2_pay2 i) (k2_pay3 i) (View.ld x1 rk2_2)
  (stepV 1024#32 (k2_pay1 (View.ld x0 rq2)) (k2_pay2 i) (k2_pay3 i) (View.ld x1 rk2_1)
  (stepV 0#32 (k2_pay1 (View.ld x0 rq2)) (k2_pay2 i) (k2_pay3 i) (View.ld x1 rk2_0) st0V)))))))

set_option maxRecDepth 65536 in
/-- The body's row losses are the losses of the state after the eight steps: the payloads, unfolded, are this chain. -/
theorem loss2_eq_clean (i : grid2.Coords) (x0 : Vec F S256x512 .bf16) (x1 : Vec F S8192x512 .bf16) :
    loss2 i x0 x1 = lossV (chainV i x0 x1) := by
  unfold loss2 chainV lossV stepV st0V sumV maxV tgtV scoreV maskV rawV colV
  unfold k2_pay38 k2_pay37 k2_pay36 k2_pay35 k2_pay34 k2_pay33 k2_pay32 k2_pay31 k2_pay30 k2_pay29 k2_pay28 k2_pay27
    k2_pay26 k2_pay25 k2_pay24 k2_pay23 k2_pay22 k2_pay21 k2_pay20 k2_pay19 k2_pay18 k2_pay17 k2_pay16 k2_pay15
    k2_pay14 k2_pay13 k2_pay12 k2_pay11 k2_pay10 k2_pay9 k2_pay8 k2_pay7 k2_pay6 k2_pay5 k2_pay4
  rfl

end Clean

end Cert.KernelIdeal.Gen

end
-- ==== Proof.KIRow2.lean ====
/-
  Region 2's step read at a row, on the extended reals.

  Each piece of the step of KIBody2 — the masked score block, the partner's score accumulated, the running maximum,
  the running normaliser — is read at row p of the block, over explicit coordinates: a lane sum is a sum over the
  1024 columns of the slab, a lane maximum their supremum, the matrix product a sum over the 512 features.
-/
import proofs.«127245_j12824772346324_2_alg».proof.Proof.KIBody2

set_option maxRecDepth 16384

noncomputable section

namespace Cert.KernelIdeal.Gen

open Idealize.ShloMosaic Idealize.ShloMosaic.ValueIdx
open scoped BigOperators

/-! ## Words -/

/-- The f32 word of −∞ is ⊥. -/
theorem ofBits_neg_inf : Ideal.ofBits .f32 0xFF800000#32 = ⊥ := by simp [Ideal.ofBits, Ideal.ieee]

/-- The masked value is ⊥ on the extended reals, by the table of named constants. -/
theorem neg_big_eq : Named.named (F := Ideal) κ "neg_big" (φ := .f32) 0xF149F2CA#32 = (⊥ : EReal) :=
  IdealRules.named_const.ideal_named_scalar _ _ _ _ rfl

/-- A select on an equality test of two words is the `if` on their equality. -/
theorem select_cmpi_eq {α : Type} (x y : BitVec 32) (A B : α) :
    Scalar.select (IntOp.cmpi .eq x y) A B = if x = y then A else B := by
  by_cases h : x = y
  · subst h
    rw [if_pos rfl]
    show Scalar.select (BitVec.ofBool (x == x)) A B = A
    rw [beq_self_eq_true]
    exact select_one A B
  · have hb : (x == y) = false := beq_eq_false_iff_ne.mpr h
    rw [if_neg h]
    show Scalar.select (BitVec.ofBool (x == y)) A B = B
    rw [hb]
    exact select_zero A B

/-! ## Indices -/

/-- The source index of a row reduction: row p with column k put back. -/
theorem lift_row (p : Fin 256) (k : Fin 1024) :
    reduces_S256x1024_S256.lift (ix1 p) k = ix2 p k := by
  funext c
  refine Fin.ext ?_
  match c with
  | ⟨0, _⟩ => rfl
  | ⟨1, _⟩ => rfl

/-- A slab's column numbers at (p, k): the offset plus k. -/
theorem colV_apply (off : BitVec 32) (p : Fin 256) (k : Fin 1024) :
    colV off (ix2 p k) = off + BitVec.ofNat 32 k.val := by
  show IntOp.addi off (iota .tc S256x1024 32 [1] iota_S256x1024_d1_w32 (ix2 p k)) = _
  rw [iota_single_apply]
  rfl

/-! ## The reductions of a 256 × 1024 block kept as a column, at a row -/

/-- A lane sum kept as a column, at row p: the sum over the columns. -/
theorem rowSum_apply (src : FVec Ideal S256x1024 .f32) (p : Fin 256) :
    shapeCast S256x1 (multiReduction (F := Ideal) .add [1] S256 src 0x00000000#32 reduces_S256x1024_S256 (.inl rfl) rfl)
        shapeCasts_S256_S256x1 (ix2 p (0 : Fin 1))
      = ∑ k : Fin 1024, src (ix2 p k) := by
  refine (Cert.LibKeepdimsCol.shapeCast_a_a1_apply _ shapeCasts_S256_S256x1 p 0).trans ?_
  refine (Ideal.multiReduction_add_single src 0x00000000#32 reduces_S256x1024_S256 (.inl rfl) rfl (ix1 p)).trans ?_
  exact Finset.sum_congr rfl fun k _ => congrArg src (lift_row p k)

/-- A lane maximum kept as a column, at row p: the supremum over the columns. -/
theorem rowMax_apply (src : FVec Ideal S256x1024 .f32) (p : Fin 256) :
    shapeCast S256x1 (multiReduction (F := Ideal) .maximumf [1] S256 src 0xFF800000#32 reduces_S256x1024_S256 (.inl rfl) rfl)
        shapeCasts_S256_S256x1 (ix2 p (0 : Fin 1))
      = Finset.univ.sup fun k : Fin 1024 => src (ix2 p k) := by
  refine (Cert.LibKeepdimsCol.shapeCast_a_a1_apply _ shapeCasts_S256_S256x1 p 0).trans ?_
  refine (Ideal.multiReduction_maximumf_single src 0xFF800000#32 reduces_S256x1024_S256 (.inl rfl) rfl (ix1 p)).trans ?_
  rw [Cert.MaskedOnline.sup_eq_fold_max]
  have hf : (src ∘ reduces_S256x1024_S256.lift (ix1 p)) = fun k : Fin 1024 => src (ix2 p k) :=
    funext fun k => congrArg src (lift_row p k)
  have hb : (FloatOps.ofBits (F := Ideal) .f32 0xFF800000#32 : EReal) = ⊥ := ofBits_neg_inf
  rw [hf, hb]
  rfl

/-! ## The score block at an entry -/

theorem lhs_dot_0 (j : S256x1024.Idx) (q : dot_S256x512_S1024x512_S256x1024_1_1_0_0_n_n.contr.Idx) :
    (dot_S256x512_S1024x512_S256x1024_1_1_0_0_n_n.lhsIdx j q 0).val = (j 0).val := by
  unfold DotDims.lhsIdx
  rw [dif_neg (show ¬(0 : Fin S256x512.rank) ∈ dot_S256x512_S1024x512_S256x1024_1_1_0_0_n_n.lhsBatch by decide),
    dif_pos (show (0 : Fin S256x512.rank) ∈ dot_S256x512_S1024x512_S256x1024_1_1_0_0_n_n.lhsNonContracting by decide)]
  rfl
theorem lhs_dot_1 (j : S256x1024.Idx) (q : dot_S256x512_S1024x512_S256x1024_1_1_0_0_n_n.contr.Idx) :
    (dot_S256x512_S1024x512_S256x1024_1_1_0_0_n_n.lhsIdx j q 1).val = (q ⟨0, by decide⟩).val :=
  dot_S256x512_S1024x512_S256x1024_1_1_0_0_n_n.lhsIdx_val_of_single rfl j q
theorem rhs_dot_0 (j : S256x1024.Idx) (q : dot_S256x512_S1024x512_S256x1024_1_1_0_0_n_n.contr.Idx) :
    (dot_S256x512_S1024x512_S256x1024_1_1_0_0_n_n.rhsIdx j q 0).val = (j 1).val := by
  unfold DotDims.rhsIdx
  rw [dif_neg (show ¬(0 : Fin S1024x512.rank) ∈ dot_S256x512_S1024x512_S256x1024_1_1_0_0_n_n.rhsBatch by decide),
    dif_pos (show (0 : Fin S1024x512.rank) ∈ dot_S256x512_S1024x512_S256x1024_1_1_0_0_n_n.rhsNonContracting by decide)]
  rfl
theorem rhs_dot_1 (j : S256x1024.Idx) (q : dot_S256x512_S1024x512_S256x1024_1_1_0_0_n_n.contr.Idx) :
    (dot_S256x512_S1024x512_S256x1024_1_1_0_0_n_n.rhsIdx j q 1).val = (q ⟨0, by decide⟩).val :=
  dot_S256x512_S1024x512_S256x1024_1_1_0_0_n_n.rhsIdx_val_of_single rfl j q

/-- The unmasked score of row p against the slab's row k: twice the inner product over the 512 features. -/
theorem rawV_apply (v1 : FVec Ideal S256x512 .bf16) (kc : FVec Ideal S1024x512 .bf16) (p : Fin 256) (k : Fin 1024) :
    rawV (F := Ideal) v1 kc (ix2 p k) = (∑ d : Fin 512, v1 (ix2 p d) * kc (ix2 k d)) * Cert.Contrast.two := by
  unfold rawV
  rw [shapeCast_self]
  show FloatOps.matmul dot_S256x512_S1024x512_S256x1024_1_1_0_0_n_n none v1 kc (constant S256x1024 .f32 0x00000000#32) (ix2 p k)
      * Ideal.ofBits .f32 0x40000000#32 = _
  rw [Ideal.matmul_constant_zero_apply, ← Equiv.sum_comp (contrEquiv1 dot_S256x512_S1024x512_S256x1024_1_1_0_0_n_n 512 rfl rfl).symm]
  unfold Cert.Contrast.two
  refine congrArg (· * Ideal.ofBits .f32 0x40000000#32) (Finset.sum_congr rfl fun d _ => ?_)
  have hk := contrEquiv1_symm_val dot_S256x512_S1024x512_S256x1024_1_1_0_0_n_n 512 rfl rfl d
  have el : dot_S256x512_S1024x512_S256x1024_1_1_0_0_n_n.lhsIdx (ix2 p k) ((contrEquiv1 dot_S256x512_S1024x512_S256x1024_1_1_0_0_n_n 512 rfl rfl).symm d) = ix2 p d :=
    funext fun a => Fin.ext (by
      match a with
      | ⟨0, _⟩ => exact lhs_dot_0 _ _
      | ⟨1, _⟩ => exact (lhs_dot_1 _ _).trans hk)
  have er : dot_S256x512_S1024x512_S256x1024_1_1_0_0_n_n.rhsIdx (ix2 p k) ((contrEquiv1 dot_S256x512_S1024x512_S256x1024_1_1_0_0_n_n 512 rfl rfl).symm d) = ix2 k d :=
    funext fun a => Fin.ext (by
      match a with
      | ⟨0, _⟩ => exact rhs_dot_0 _ _
      | ⟨1, _⟩ => exact (rhs_dot_1 _ _).trans hk)
  rw [el, er]

/-- The masked score at (p, k): ⊥ where the row's number is the column's, the unmasked score elsewhere. -/
theorem scoreV_apply (off : BitVec 32) (v1 : FVec Ideal S256x512 .bf16) (v5 : IVec S256x1 32)
    (kc : FVec Ideal S1024x512 .bf16) (p : Fin 256) (k : Fin 1024) :
    scoreV (F := Ideal) off v1 v5 kc (ix2 p k)
      = if v5 (ix2 p (0 : Fin 1)) = off + BitVec.ofNat 32 k.val then ⊥
        else (∑ d : Fin 512, v1 (ix2 p d) * kc (ix2 k d)) * Cert.Contrast.two := by
  unfold scoreV maskV
  show Scalar.select (IntOp.cmpi .eq (broadcastTo S256x1024 v5 broadcasts_S256x1_S256x1024 (ix2 p k)) (colV off (ix2 p k)))
      (Named.named (F := Ideal) κ "neg_big" (φ := .f32) 0xF149F2CA#32) (rawV (F := Ideal) v1 kc (ix2 p k)) = _
  rw [select_cmpi_eq, Cert.LibKeepdimsCol.broadcastTo_a1_ab_apply, colV_apply, rawV_apply, neg_big_eq]

/-! ## The three updates at a row -/

/-- The partner's score accumulated, at row p: t plus the slab's entries kept only in the partner column. -/
theorem tgtV_apply (off : BitVec 32) (v12 : IVec S256x1 32) (s : FVec Ideal S256x1024 .f32) (t : FVec Ideal S256x1 .f32)
    (p : Fin 256) :
    tgtV (F := Ideal) off v12 s t (ix2 p (0 : Fin 1))
      = t (ix2 p (0 : Fin 1))
        + ∑ k : Fin 1024, (if off + BitVec.ofNat 32 k.val = v12 (ix2 p (0 : Fin 1)) then s (ix2 p k) else 0) := by
  unfold tgtV
  refine congrArg (t (ix2 p (0 : Fin 1)) + ·) ((rowSum_apply _ p).trans (Finset.sum_congr rfl fun k _ => ?_))
  show Scalar.select (IntOp.cmpi .eq (colV off (ix2 p k)) (broadcastTo S256x1024 v12 broadcasts_S256x1_S256x1024 (ix2 p k)))
      (s (ix2 p k)) (Ideal.ofBits .f32 0x00000000#32) = _
  rw [select_cmpi_eq, colV_apply, Cert.LibKeepdimsCol.broadcastTo_a1_ab_apply, Ideal.ofBits_zero_f32]

/-- The running maximum after a slab, at row p. -/
theorem maxV_apply (s : FVec Ideal S256x1024 .f32) (m : FVec Ideal S256x1 .f32) (p : Fin 256) :
    maxV (F := Ideal) s m (ix2 p (0 : Fin 1))
      = max (m (ix2 p (0 : Fin 1))) (Finset.univ.sup fun k : Fin 1024 => s (ix2 p k)) := by
  unfold maxV
  exact congrArg (max (m (ix2 p (0 : Fin 1)))) (rowMax_apply s p)

/-- The running normaliser after a slab, at row p. -/
theorem sumV_apply (s : FVec Ideal S256x1024 .f32) (m m' l : FVec Ideal S256x1 .f32) (p : Fin 256) :
    sumV (F := Ideal) s m m' l (ix2 p (0 : Fin 1))
      = l (ix2 p (0 : Fin 1)) * Ideal.exp (m (ix2 p (0 : Fin 1)) - m' (ix2 p (0 : Fin 1)))
        + ∑ k : Fin 1024, Ideal.exp (s (ix2 p k) - m' (ix2 p (0 : Fin 1))) := by
  unfold sumV
  refine congrArg (l (ix2 p (0 : Fin 1)) * Ideal.exp (m (ix2 p (0 : Fin 1)) - m' (ix2 p (0 : Fin 1))) + ·)
    ((rowSum_apply _ p).trans (Finset.sum_congr rfl fun k _ => ?_))
  show Ideal.exp (s (ix2 p k) - broadcastTo S256x1024 m' broadcasts_S256x1_S256x1024 (ix2 p k)) = _
  rw [Cert.LibKeepdimsCol.broadcastTo_a1_ab_apply]

end Cert.KernelIdeal.Gen

end
-- ==== Proof.KILoss2.lean ====
/-
  Region 2's row losses, read at a row.

  The row numbers and the partner columns are 32-bit words in the body; below 8192 they are the natural numbers they
  spell. With that, and with a slab's load read as the key array at the slab's rows, the eight steps of the body read
  at row p are the pair recursion of the masked online normaliser over the row's eight tiles of scores, and an
  accumulator of the partner's score.
-/
import proofs.«127245_j12824772346324_2_alg».proof.Proof.KIRow2

set_option maxRecDepth 16384

noncomputable section

namespace Cert.KernelIdeal.Gen

open Idealize.ShloMosaic Idealize.ShloMosaic.ValueIdx
open scoped BigOperators

/-! ## Words below 2³² as natural numbers -/

/-- Two natural numbers below 2³² spell the same word only if they are equal. -/
theorem ofNat_inj32 {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · rintro rfl; rfl

/-- Below 2³¹ the signed order of words is the order of the numbers. -/
theorem slt_ofNat {a b : ℕ} (ha : a < 2 ^ 31) (hb : b < 2 ^ 31) :
    (BitVec.ofNat 32 a).slt (BitVec.ofNat 32 b) = decide (a < b) := by
  have ea : (BitVec.ofNat 32 a).toInt = (a : ℤ) := by
    rw [BitVec.toInt_eq_toNat_of_lt (by rw [BitVec.toNat_ofNat, Nat.mod_eq_of_lt (by omega)]; omega),
      BitVec.toNat_ofNat, Nat.mod_eq_of_lt (by omega)]
  have eb : (BitVec.ofNat 32 b).toInt = (b : ℤ) := by
    rw [BitVec.toInt_eq_toNat_of_lt (by rw [BitVec.toNat_ofNat, Nat.mod_eq_of_lt (by omega)]; omega),
      BitVec.toNat_ofNat, Nat.mod_eq_of_lt (by omega)]
  rw [BitVec.slt_eq_decide, ea, eb]
  exact decide_eq_decide.mpr Int.ofNat_lt

/-- The number of a row of the whole array: 256 times the block's number, plus the row's number in the block. -/
def rowNo (i : grid2.Coords) (p : Fin 256) : ℕ := 256 * (i 0).val + p.val

theorem rowNo_lt (i : grid2.Coords) (p : Fin 256) : rowNo i p < 8192 := by
  have h : (i 0).val < 32 := (i 0).isLt
  have := p.isLt
  unfold rowNo; omega

/-- The row's partner column: the same sample in the other half. -/
def tgtCol (i : grid2.Coords) (p : Fin 256) : ℕ := if rowNo i p < 4096 then rowNo i p + 4096 else rowNo i p - 4096

theorem tgtCol_lt (i : grid2.Coords) (p : Fin 256) : tgtCol i p < 8192 := by
  have := rowNo_lt i p
  unfold tgtCol; split <;> omega

/-- The body's row numbers, at row p. -/
theorem pay2_apply (i : grid2.Coords) (p : Fin 256) :
    k2_pay2 i (ix2 p (0 : Fin 1)) = BitVec.ofNat 32 (rowNo i p) := by
  unfold k2_pay2
  show IntOp.addi (IntOp.muli (BitVec.ofNat 32 (i 0).val) (BitVec.ofNat 32 256))
      (iota .tc S256x1 32 [0] iota_S256x1_d0_w32 (ix2 p (0 : Fin 1))) = _
  rw [iota_single_apply]
  show BitVec.ofNat 32 (i 0).val * BitVec.ofNat 32 256 + BitVec.ofNat 32 p.val = _
  rw [← BitVec.ofNat_mul, ← BitVec.ofNat_add, Nat.mul_comm]
  rfl

/-- The body's partner columns, at row p. -/
theorem pay3_apply (i : grid2.Coords) (p : Fin 256) :
    k2_pay3 i (ix2 p (0 : Fin 1)) = BitVec.ofNat 32 (tgtCol i p) := by
  have hr := rowNo_lt i p
  unfold k2_pay3
  show Scalar.select (IntOp.cmpi .slt (k2_pay2 i (ix2 p (0 : Fin 1))) (BitVec.ofNat 32 4096))
      (k2_pay2 i (ix2 p (0 : Fin 1)) + BitVec.ofNat 32 4096) (k2_pay2 i (ix2 p (0 : Fin 1)) - BitVec.ofNat 32 4096) = _
  rw [pay2_apply]
  show Scalar.select (BitVec.ofBool ((BitVec.ofNat 32 (rowNo i p)).slt (BitVec.ofNat 32 4096))) _ _ = _
  rw [slt_ofNat (by omega) (by omega)]
  unfold tgtCol
  by_cases h : rowNo i p < 4096
  · rw [if_pos h, decide_eq_true h, ← BitVec.ofNat_add]
    exact select_one _ _
  · rw [if_neg h, decide_eq_false h, BitVec.ofNat_sub_ofNat_of_le _ _ (by omega) (by omega)]
    exact select_zero _ _

/-! ## The loads -/

/-- The query block loaded whole and cast to its own shape is the block. -/
theorem q_eq (x0 : Vec Ideal S256x512 .bf16) : k2_pay1 (F := Ideal) (View.ld x0 rq2) = x0 := by
  unfold k2_pay1
  rw [shapeCast_self]
  have hz : (![0, 0] : Fin S256x512.rank → Nat) = fun _ => 0 :=
    funext fun a => by match a with | ⟨0, _⟩ => rfl | ⟨1, _⟩ => rfl
  exact View.ld_unit_zero hz _ x0

/-- A slab of 1024 rows loaded from row n on, at (k, d): the key array at (n + k, d). -/
theorem slab_apply (x1 : Vec Ideal S8192x512 .bf16) (n : ℕ) (hn : n + 1024 ≤ 8192)
    (inb : ∀ a, (![n, 0] : Fin 2 → Nat) a + S1024x512.size a ≤ S8192x512.size a) (k : Fin 1024) (d : Fin 512) :
    View.ld x1 (Rect.unit (s := S8192x512) ![n, 0] S1024x512.size inb) (ix2 k d)
      = x1 (ix2 (⟨n + k.val, by have := k.isLt; omega⟩ : Fin 8192) d) := by
  refine congrArg x1 (funext fun a => Fin.ext ?_)
  match a with
  | ⟨0, _⟩ => show n + 1 * k.val = n + k.val; omega
  | ⟨1, _⟩ => show 0 + 1 * d.val = d.val; omega

/-! ## A row's scores, tile by tile -/

/-- The scores of row `rowNo i p` against the 1024 key rows from row n on: ⊥ on the diagonal, elsewhere twice the
    inner product of the query row and the key row. -/
def tileS (i : grid2.Coords) (x0 : Vec Ideal S256x512 .bf16) (x1 : Vec Ideal S8192x512 .bf16) (p : Fin 256)
    (n : ℕ) (hn : n + 1024 ≤ 8192) : Fin 1024 → EReal :=
  fun k => if rowNo i p = n + k.val then ⊥
    else (∑ d : Fin 512, x0 (ix2 p d) * x1 (ix2 (⟨n + k.val, by have := k.isLt; omega⟩ : Fin 8192) d)) * Cert.Contrast.two

/-- The tile's contribution to the partner's score: its entry in the partner column, if that column is in the tile. -/
def tileT (i : grid2.Coords) (x0 : Vec Ideal S256x512 .bf16) (x1 : Vec Ideal S8192x512 .bf16) (p : Fin 256)
    (n : ℕ) (hn : n + 1024 ≤ 8192) : EReal :=
  ∑ k : Fin 1024, if n + k.val = tgtCol i p then tileS i x0 x1 p n hn k else 0

/-- Row p's scores as eight tiles of 1024: tile c, entry k is the score against key row 1024 c + k. -/
def rowScores (i : grid2.Coords) (x0 : Vec Ideal S256x512 .bf16) (x1 : Vec Ideal S8192x512 .bf16) (p : Fin 256) :
    Fin 8 → Fin 1024 → EReal :=
  fun c => tileS i x0 x1 p (1024 * c.val) (by have := c.isLt; omega)

theorem rowScores_apply (i : grid2.Coords) (x0 : Vec Ideal S256x512 .bf16) (x1 : Vec Ideal S8192x512 .bf16) (p : Fin 256)
    (c : Fin 8) (k : Fin 1024) :
    rowScores i x0 x1 p c k
      = if 256 * (i 0).val + p.val = 1024 * c.val + k.val then ⊥
        else (∑ d : Fin 512, x0 (ix2 p d)
          * x1 (ix2 (⟨1024 * c.val + k.val, by have := c.isLt; have := k.isLt; omega⟩ : Fin 8192) d)) * Cert.Contrast.two := rfl

/-- The partner column is the specification's partner of the row. -/
theorem tgtCol_eq_partner (i : grid2.Coords) (p : Fin 256) :
    tgtCol i p = (Cert.Contrast.partner ⟨rowNo i p, rowNo_lt i p⟩).val := by
  unfold tgtCol Cert.Contrast.partner
  by_cases h : rowNo i p < 4096
  · rw [if_pos h, dif_pos h]
  · rw [if_neg h, dif_neg h]

/-! ## One step at a row -/

/-- The masked score block of the slab from row n on, in row p, is the tile. -/
theorem score_row (i : grid2.Coords) (x0 : Vec Ideal S256x512 .bf16) (x1 : Vec Ideal S8192x512 .bf16) (p : Fin 256)
    (off : BitVec 32) (n : ℕ) (hn : n + 1024 ≤ 8192) (hoff : off = BitVec.ofNat 32 n)
    (kc : FVec Ideal S1024x512 .bf16)
    (hkc : ∀ (k : Fin 1024) (d : Fin 512), kc (ix2 k d) = x1 (ix2 (⟨n + k.val, by have := k.isLt; omega⟩ : Fin 8192) d))
    (k : Fin 1024) :
    scoreV (F := Ideal) off x0 (k2_pay2 i) kc (ix2 p k) = tileS i x0 x1 p n hn k := by
  have hr := rowNo_lt i p
  have hk := k.isLt
  rw [scoreV_apply, pay2_apply, hoff, ← BitVec.ofNat_add]
  unfold tileS
  rw [if_congr (ofNat_inj32 (by omega) (by omega)) rfl rfl]
  simp only [hkc]

/-- The state at row p: its three entries there. -/
structure RowAt (st : St2 Ideal) (p : Fin 256) (pr : EReal × EReal) (a : EReal) : Prop where
  hm : st.m (ix2 p (0 : Fin 1)) = pr.1
  hl : st.l (ix2 p (0 : Fin 1)) = pr.2
  ht : st.t (ix2 p (0 : Fin 1)) = a

/-- Before the first slab: (⊥, 0) and 0. -/
theorem rowAt_st0 (p : Fin 256) : RowAt (st0V (F := Ideal)) p (⊥, 0) 0 :=
  ⟨ofBits_neg_inf, Ideal.ofBits_zero_f32, Ideal.ofBits_zero_f32⟩

/-- One slab: the pair moves by the masked online normaliser's step on the tile, and the partner's score gains the
    tile's contribution. -/
theorem rowAt_step (i : grid2.Coords) (x0 : Vec Ideal S256x512 .bf16) (x1 : Vec Ideal S8192x512 .bf16) {p : Fin 256}
    {st : St2 Ideal} {pr : EReal × EReal} {a : EReal} (h : RowAt st p pr a)
    (off : BitVec 32) (n : ℕ) (hn : n + 1024 ≤ 8192) (hoff : off = BitVec.ofNat 32 n)
    (kc : FVec Ideal S1024x512 .bf16)
    (hkc : ∀ (k : Fin 1024) (d : Fin 512), kc (ix2 k d) = x1 (ix2 (⟨n + k.val, by have := k.isLt; omega⟩ : Fin 8192) d)) :
    RowAt (stepV off x0 (k2_pay2 i) (k2_pay3 i) kc st) p (Cert.MaskedOnline.step (tileS i x0 x1 p n hn) pr)
      (a + tileT i x0 x1 p n hn) := by
  subst hoff
  have hs : ∀ k : Fin 1024,
      scoreV (F := Ideal) (BitVec.ofNat 32 n) x0 (k2_pay2 i) kc (ix2 p k) = tileS i x0 x1 p n hn k :=
    score_row i x0 x1 p (BitVec.ofNat 32 n) n hn rfl kc hkc
  have ht := tgtCol_lt i p
  refine ⟨?_, ?_, ?_⟩
  · show maxV (scoreV (F := Ideal) (BitVec.ofNat 32 n) x0 (k2_pay2 i) kc) st.m (ix2 p (0 : Fin 1))
        = max pr.1 (Finset.univ.sup (tileS i x0 x1 p n hn))
    rw [maxV_apply, h.hm]
    simp only [hs]
  · show sumV (scoreV (F := Ideal) (BitVec.ofNat 32 n) x0 (k2_pay2 i) kc) st.m
          (maxV (scoreV (F := Ideal) (BitVec.ofNat 32 n) x0 (k2_pay2 i) kc) st.m) st.l
          (ix2 p (0 : Fin 1))
        = pr.2 * Ideal.exp (pr.1 - max pr.1 (Finset.univ.sup (tileS i x0 x1 p n hn)))
          + ∑ k, Ideal.exp (tileS i x0 x1 p n hn k - max pr.1 (Finset.univ.sup (tileS i x0 x1 p n hn)))
    rw [sumV_apply, maxV_apply, h.hm, h.hl]
    simp only [hs]
  · show tgtV (F := Ideal) (BitVec.ofNat 32 n) (k2_pay3 i) (scoreV (F := Ideal) (BitVec.ofNat 32 n) x0 (k2_pay2 i) kc) st.t
          (ix2 p (0 : Fin 1))
        = a + tileT i x0 x1 p n hn
    rw [tgtV_apply, h.ht, pay3_apply]
    unfold tileT
    refine congrArg (a + ·) (Finset.sum_congr rfl fun k _ => ?_)
    have hk := k.isLt
    rw [← BitVec.ofNat_add, if_congr (ofNat_inj32 (by omega) (by omega)) rfl rfl, hs k]

/-! ## The eight steps, and the loss -/

/-- The state after the eight slabs, at row p. -/
theorem chain_row (i : grid2.Coords) (x0 : Vec Ideal S256x512 .bf16) (x1 : Vec Ideal S8192x512 .bf16) (p : Fin 256) :
    RowAt (chainV (F := Ideal) i x0 x1) p
      (Cert.MaskedOnline.step (tileS i x0 x1 p 7168 (by omega))
      (Cert.MaskedOnline.step (tileS i x0 x1 p 6144 (by omega))
      (Cert.MaskedOnline.step (tileS i x0 x1 p 5120 (by omega))
      (Cert.MaskedOnline.step (tileS i x0 x1 p 4096 (by omega))
      (Cert.MaskedOnline.step (tileS i x0 x1 p 3072 (by omega))
      (Cert.MaskedOnline.step (tileS i x0 x1 p 2048 (by omega))
      (Cert.MaskedOnline.step (tileS i x0 x1 p 1024 (by omega))
      (Cert.MaskedOnline.step (tileS i x0 x1 p 0 (by omega)) (⊥, 0)))))))))
      (0 + tileT i x0 x1 p 0 (by omega) + tileT i x0 x1 p 1024 (by omega) + tileT i x0 x1 p 2048 (by omega)
        + tileT i x0 x1 p 3072 (by omega) + tileT i x0 x1 p 4096 (by omega) + tileT i x0 x1 p 5120 (by omega)
        + tileT i x0 x1 p 6144 (by omega) + tileT i x0 x1 p 7168 (by omega)) := by
  unfold chainV
  rw [q_eq]
  have h0 := rowAt_step i x0 x1 (rowAt_st0 p) 0#32 0 (by omega) rfl (View.ld x1 rk2_0)
    (fun k d => slab_apply x1 0 (by omega) inb_S8192x512_S1024x512_0_0 k d)
  have h1 := rowAt_step i x0 x1 h0 1024#32 1024 (by omega) rfl (View.ld x1 rk2_1)
    (fun k d => slab_apply x1 1024 (by omega) inb_S8192x512_S1024x512_1024_0 k d)
  have h2 := rowAt_step i x0 x1 h1 2048#32 2048 (by omega) rfl (View.ld x1 rk2_2)
    (fun k d => slab_apply x1 2048 (by omega) inb_S8192x512_S1024x512_2048_0 k d)
  have h3 := rowAt_step i x0 x1 h2 3072#32 3072 (by omega) rfl (View.ld x1 rk2_3)
    (fun k d => slab_apply x1 3072 (by omega) inb_S8192x512_S1024x512_3072_0 k d)
  have h4 := rowAt_step i x0 x1 h3 4096#32 4096 (by omega) rfl (View.ld x1 rk2_4)
    (fun k d => slab_apply x1 4096 (by omega) inb_S8192x512_S1024x512_4096_0 k d)
  have h5 := rowAt_step i x0 x1 h4 5120#32 5120 (by omega) rfl (View.ld x1 rk2_5)
    (fun k d => slab_apply x1 5120 (by omega) inb_S8192x512_S1024x512_5120_0 k d)
  have h6 := rowAt_step i x0 x1 h5 6144#32 6144 (by omega) rfl (View.ld x1 rk2_6)
    (fun k d => slab_apply x1 6144 (by omega) inb_S8192x512_S1024x512_6144_0 k d)
  exact rowAt_step i x0 x1 h6 7168#32 7168 (by omega) rfl (View.ld x1 rk2_7)
    (fun k d => slab_apply x1 7168 (by omega) inb_S8192x512_S1024x512_7168_0 k d)

/-- The losses of a state, at row p: (m + log l) − t there. -/
theorem lossV_apply (st : St2 Ideal) (p : Fin 256) :
    lossV st (ix1 p)
      = (st.m (ix2 p (0 : Fin 1)) + Ideal.log (st.l (ix2 p (0 : Fin 1)))) - st.t (ix2 p (0 : Fin 1)) := by
  unfold lossV
  refine (shapeCast_apply _ shapeCasts_S256x1_S256 (ix1 p) (ix2 p (0 : Fin 1)) ?_).trans rfl
  rw [Shape.rowMajor_val_two, Shape.rowMajor_val_one]
  show p.val * 1 + 0 = p.val
  omega

/-- THE BODY AT A ROW. The loss the body computes for row p of block i is (M + log L) − T, with (M, L) the masked
    online normaliser's pair after the row's eight tiles of scores and T the accumulated partner's score. -/
theorem loss2_apply (i : grid2.Coords) (x0 : Vec Ideal S256x512 .bf16) (x1 : Vec Ideal S8192x512 .bf16) (p : Fin 256) :
    loss2 (F := Ideal) i x0 x1 (ix1 p)
      = ((Cert.MaskedOnline.run 8 (rowScores i x0 x1 p)).1 + Ideal.log (Cert.MaskedOnline.run 8 (rowScores i x0 x1 p)).2)
          - Cert.MaskedOnline.accum 8 (fun c => ∑ k : Fin 1024,
              if 1024 * c.val + k.val = tgtCol i p then rowScores i x0 x1 p c k else 0) := by
  have h := chain_row i x0 x1 p
  rw [loss2_eq_clean, lossV_apply, h.hm, h.hl, h.ht, Cert.MaskedOnline.run_eight, Cert.MaskedOnline.accum_eight]
  rfl

end Cert.KernelIdeal.Gen

end
-- ==== Proof.SpecFinite.lean ====
/-
  Finiteness of the specification. For two arrays whose entries are all real numbers: the norm floor is a positive
  real, so every row is divided by a positive real and every normalised entry is a real number; an inner product of two
  normalised rows is a finite sum of real products, so every off-diagonal score is a real number; a row of scores holds
  8191 real numbers and one `⊥` (its diagonal entry), so its largest score is a real number; and the row's normaliser
  `Σ_c exp (s_c − M)` is a sum of nonnegative reals (the diagonal term is `exp ⊥ = 0`) of which the partner's term is
  positive, so it is a positive real number.
-/
import proofs.«127245_j12824772346324_2_alg».proof.Proof.Spec

noncomputable section

namespace Cert.Contrast

open Idealize.ShloMosaic

/-! ## The float words of the specification, as real numbers -/

/-- The word of `2` is the real number 2. -/
theorem two_eq : two = ((2 : ℝ) : EReal) := by
  simp [two, Ideal.ofBits, Ideal.ieee, -EReal.coe_mul]; norm_num

/-- The word of `8192` is the real number 8192. -/
theorem count_eq : count = ((8192 : ℝ) : EReal) := by
  simp [count, Ideal.ofBits, Ideal.ieee, -EReal.coe_mul]; norm_num

/-- The norm floor is a positive real number. -/
theorem eps_pos : ∃ e : ℝ, 0 < e ∧ eps = (e : EReal) := by
  simp [eps, Ideal.ofBits, Ideal.ieee, -EReal.coe_mul]

/-- A finite sum of real numbers, summed in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-! ## Normalised entries, inner products and scores -/

section
variable (x y : Fin 4096 → Fin 512 → EReal)
  (hx : ∀ r j, ∃ a : ℝ, x r j = (a : EReal)) (hy : ∀ r j, ∃ a : ℝ, y r j = (a : EReal))
include hx

/-- A row of real numbers divided by the larger of its norm and the floor is a row of real numbers. -/
theorem nrm_real (r : Fin 4096) (j : Fin 512) : ∃ a : ℝ, nrm x r j = (a : EReal) := by
  choose f hf using hx
  obtain ⟨e, he, hE⟩ := eps_pos
  have hs : (∑ k : Fin 512, x r k * x r k) = ((∑ k : Fin 512, f r k * f r k : ℝ) : EReal) := by
    rw [← coe_sum]; exact Finset.sum_congr rfl fun k _ => by rw [hf r k, EReal.coe_mul]
  have hnn : 0 ≤ ∑ k : Fin 512, f r k * f r k := Finset.sum_nonneg fun k _ => mul_self_nonneg _
  have hmax : max (Ideal.sqrt (∑ k : Fin 512, x r k * x r k)) eps
      = ((max (Real.sqrt (∑ k : Fin 512, f r k * f r k)) e : ℝ) : EReal) := by
    rw [hs, Ideal.sqrt_coe, if_neg (not_lt.2 hnn), hE]
    exact (EReal.coe_strictMono.monotone.map_max).symm
  have hpos : 0 < max (Real.sqrt (∑ k : Fin 512, f r k * f r k)) e := lt_max_of_lt_right he
  refine ⟨f r j * (1 / max (Real.sqrt (∑ k : Fin 512, f r k * f r k)) e), ?_⟩
  unfold nrm
  rw [hmax, Ideal.div_coe hpos.ne', hf r j, EReal.coe_mul]

include hy

/-- Every entry of the stacked array is a real number. -/
theorem stacked_real (r : Fin 8192) (j : Fin 512) : ∃ a : ℝ, stacked x y r j = (a : EReal) := by
  unfold stacked
  split
  · exact nrm_real x hx _ j
  · exact nrm_real y hy _ j

/-- The inner product of two rows of the stacked array is a real number. -/
theorem dot_real (r c : Fin 8192) :
    ∃ a : ℝ, (∑ d : Fin 512, stacked x y r d * stacked x y c d) = (a : EReal) := by
  choose g hg using stacked_real x y hx hy
  refine ⟨∑ d : Fin 512, g r d * g c d, ?_⟩
  rw [← coe_sum]
  exact Finset.sum_congr rfl fun d _ => by rw [hg r d, hg c d, EReal.coe_mul]

/-- Off the diagonal a score is a real number. -/
theorem score_real (r c : Fin 8192) (h : r ≠ c) : ∃ a : ℝ, score x y r c = (a : EReal) := by
  obtain ⟨a, ha⟩ := dot_real x y hx hy r c
  exact ⟨a * 2, by rw [score, if_neg h, ha, two_eq, EReal.coe_mul]⟩

omit hx hy in
/-- On the diagonal a score is `⊥`. -/
theorem score_self (r : Fin 8192) : score x y r r = ⊥ := by rw [score, if_pos rfl]

omit hx hy in
/-- A row's partner is another row. -/
theorem partner_ne (r : Fin 8192) : partner r ≠ r := by
  intro h
  obtain ⟨v, hv⟩ := r
  by_cases h4 : v < 4096
  · rw [partner, dif_pos h4, Fin.mk.injEq] at h
    omega
  · rw [partner, dif_neg h4, Fin.mk.injEq] at h
    omega

omit hx hy in
/-- Every score of a row is at most the row's largest. -/
theorem score_le_rowMax (r c : Fin 8192) : score x y r c ≤ rowMax x y r :=
  Finset.le_sup (f := score x y r) (Finset.mem_univ c)

/-! ## A row's largest score and its normaliser -/

/-- A row's largest score is a real number: no score is `⊤`, and the partner's is not `⊥`. -/
theorem rowMax_real (r : Fin 8192) : ∃ M : ℝ, rowMax x y r = (M : EReal) := by
  have hne_top : rowMax x y r ≠ ⊤ := by
    refine ne_of_lt ((Finset.sup_lt_iff (bot_lt_top : (⊥ : EReal) < ⊤)).2 fun c _ => ?_)
    by_cases h : r = c
    · subst h; rw [score_self]; exact bot_lt_top
    · obtain ⟨a, ha⟩ := score_real x y hx hy r c h
      rw [ha]; exact EReal.coe_lt_top a
  have hne_bot : rowMax x y r ≠ ⊥ := by
    obtain ⟨a, ha⟩ := score_real x y hx hy r (partner r) (partner_ne r).symm
    have hle : (a : EReal) ≤ rowMax x y r := by rw [← ha]; exact score_le_rowMax x y r (partner r)
    exact ne_of_gt (lt_of_lt_of_le (EReal.bot_lt_coe a) hle)
  exact ⟨(rowMax x y r).toReal, (EReal.coe_toReal hne_top hne_bot).symm⟩

/-- A row's normaliser is a positive real number: its terms are nonnegative reals (the diagonal term is
    `exp ⊥ = 0`), and the partner's term is positive. -/
theorem rowSum_pos (r : Fin 8192) : ∃ L : ℝ, 0 < L ∧ rowSum x y r = (L : EReal) := by
  obtain ⟨M, hM⟩ := rowMax_real x y hx hy r
  have hterm : ∀ c : Fin 8192, ∃ t : ℝ, 0 ≤ t ∧ (c ≠ r → 0 < t)
      ∧ Ideal.exp (score x y r c - rowMax x y r) = (t : EReal) := by
    intro c
    by_cases h : r = c
    · subst h
      exact ⟨0, le_rfl, fun h => absurd rfl h, by rw [score_self, EReal.bot_sub, Ideal.exp_bot, EReal.coe_zero]⟩
    · obtain ⟨a, ha⟩ := score_real x y hx hy r c h
      exact ⟨Real.exp (a - M), (Real.exp_pos _).le, fun _ => Real.exp_pos _,
        by rw [ha, hM, ← EReal.coe_sub, Ideal.exp_coe]⟩
  choose t ht0 htpos ht using hterm
  refine ⟨∑ c, t c, ?_, ?_⟩
  · exact Finset.sum_pos' (fun c _ => ht0 c) ⟨partner r, Finset.mem_univ _, htpos _ (partner_ne r)⟩
  · unfold rowSum
    rw [← coe_sum]
    exact Finset.sum_congr rfl fun c _ => ht c

end

end Cert.Contrast

end
-- ==== Proof.RowMath.lean ====
/-
  One row of scores taken eight tiles at a time is the row's loss. The 8192 columns are the pairs (tile, place in the
  tile), column = 1024 · tile + place. Running the tile-by-tile maximum and normaliser over the row's scores gives the
  row's maximum and its normaliser; picking, tile by tile, the one score whose column is the row's partner gives that
  score; so `(m + log l) − t` at the end is the row's loss. No score is `⊤` (each is `⊥`, on the diagonal, or a real).
-/
import proofs.«127245_j12824772346324_2_alg».proof.Proof.Spec
import proofs.«127245_j12824772346324_2_alg».proof.Proof.SpecFinite
import proofs.«127245_j12824772346324_2_alg».proof.Proof.LibMaskedOnlineSoftmax

noncomputable section

namespace Cert.Contrast

open Idealize.ShloMosaic Cert.MaskedOnline

/-- Column `1024 · c + k` from tile `c` and place `k`. -/
def tileCol : Fin 8 × Fin 1024 ≃ Fin 8192 where
  toFun ck := ⟨1024 * ck.1.val + ck.2.val, by have := ck.1.isLt; have := ck.2.isLt; omega⟩
  invFun j := (⟨j.val / 1024, by have := j.isLt; omega⟩, ⟨j.val % 1024, Nat.mod_lt _ (by decide)⟩)
  left_inv := by
    rintro ⟨⟨c, hc⟩, ⟨k, hk⟩⟩
    refine Prod.ext (Fin.ext ?_) (Fin.ext ?_)
    · show (1024 * c + k) / 1024 = c; omega
    · show (1024 * c + k) % 1024 = k; omega
  right_inv := by
    rintro ⟨j, hj⟩
    refine Fin.ext ?_
    show 1024 * (j / 1024) + j % 1024 = j; omega

theorem tileCol_val (c : Fin 8) (k : Fin 1024) : (tileCol (c, k)).val = 1024 * c.val + k.val := rfl

/-- No score is `⊤`. -/
theorem score_ne_top (x y : Fin 4096 → Fin 512 → EReal) (hx : ∀ r j, ∃ a : ℝ, x r j = (a : EReal))
    (hy : ∀ r j, ∃ a : ℝ, y r j = (a : EReal)) (r c : Fin 8192) : score x y r c ≠ ⊤ := by
  by_cases h : r = c
  · subst h; rw [score_self]; exact bot_ne_top
  · obtain ⟨a, ha⟩ := score_real x y hx hy r c h
    rw [ha]; exact EReal.coe_ne_top a

/-- The row's loss from its scores taken tile by tile: `S c k` the score against column `1024 · c + k`, `p c k` true exactly
    at the partner's column. -/
theorem rowLoss_of_tiles (x y : Fin 4096 → Fin 512 → EReal) (hx : ∀ r j, ∃ a : ℝ, x r j = (a : EReal))
    (hy : ∀ r j, ∃ a : ℝ, y r j = (a : EReal)) (r : Fin 8192)
    (S : Fin 8 → Fin 1024 → EReal) (hS : ∀ c k, S c k = score x y r (tileCol (c, k)))
    (p : Fin 8 → Fin 1024 → Prop) [∀ c k, Decidable (p c k)]
    (hp : ∀ c k, p c k ↔ 1024 * c.val + k.val = (partner r).val) :
    ((run 8 S).1 + Ideal.log (run 8 S).2) - accum 8 (fun c => ∑ k : Fin 1024, if p c k then S c k else 0)
      = rowLoss x y r := by
  have hSf : S = fun c k => score x y r (tileCol (c, k)) := funext fun c => funext fun k => hS c k
  subst hSf
  have h1 : (run 8 fun c k => score x y r (tileCol (c, k))).1 = rowMax x y r :=
    run_fst_of_equiv 8 tileCol (score x y r)
  have h2 : (run 8 fun c k => score x y r (tileCol (c, k))).2 = rowSum x y r :=
    run_snd_of_equiv 8 tileCol (score x y r) (score_ne_top x y hx hy r)
  have h3 : accum 8 (fun c => ∑ k : Fin 1024, if p c k then score x y r (tileCol (c, k)) else 0)
      = score x y r (partner r) := by
    have hp' : ∀ c k, p c k ↔ (c, k) = tileCol.symm (partner r) := fun c k => by
      rw [hp c k, ← tileCol_val c k, Equiv.eq_symm_apply]
      exact ⟨fun h => Fin.ext h, fun h => congrArg Fin.val h⟩
    rw [pick_tiles 8 (fun c k => score x y r (tileCol (c, k))) p (tileCol.symm (partner r)) hp']
    show score x y r (tileCol ((tileCol.symm (partner r)).1, (tileCol.symm (partner r)).2)) = _
    rw [Prod.mk.eta, Equiv.apply_symm_apply]
  rw [h1, h2, h3]
  rfl

end Cert.Contrast

end
-- ==== Proof.KIValue.lean ====
/-
  The kernel's result at the ideal values. At grid point `t` the third region's body leaves, at place `p` of its block, the
  loss of row `256·t + p` (the row's scores taken eight tiles at a time are the row's scores); the 32 blocks tile the
  array of row losses; the last stretch of host operations leaves their mean.
-/
import proofs.«127245_j12824772346324_2_alg».proof.Proof.KIHost
import proofs.«127245_j12824772346324_2_alg».proof.Proof.KIBlocks2
import proofs.«127245_j12824772346324_2_alg».proof.Proof.KILoss2
import proofs.«127245_j12824772346324_2_alg».proof.Proof.RowMath

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz1 : (![0] : Fin 1 → Nat) = fun _ => 0 := funext fun a => by fin_cases a; rfl

/-- At grid point `t`, place `p` of the block: the loss of row `256·t + p`. -/
theorem row2 (c : Dev nD) (hx : ∀ r j, ∃ a : ℝ, argX m c r j = (a : EReal)) (hy : ∀ r j, ∃ a : ℝ, argY m c r j = (a : EReal))
    (t : Fin cfg2.N) (p : Fin 256) (r : Fin 8192) (hr : r.val = 256 * t.val + p.val) :
    loss2 (F := Ideal) (grid2.coords t) (iblk2 (Bv3 m ρ) c 0 t) (iblk2 (Bv3 m ρ) c 1 t) (ix1 p)
      = Cert.Contrast.rowLoss (argX m c) (argY m c) r := by
  have hi : ((grid2.coords t) (0 : Fin 1)).val = t.val := (idx_facts2 t).2.2.2.2.2
  have hrow : rowNo (grid2.coords t) p = r.val := by unfold rowNo; rw [hi]; exact hr.symm
  rw [loss2_apply]
  refine Cert.Contrast.rowLoss_of_tiles (argX m c) (argY m c) hx hy r _ (fun c' k => ?_)
    (fun c' k => 1024 * c'.val + k.val = tgtCol (grid2.coords t) p) (fun c' k => ?_)
  · -- the tile's score is the row's score against column 1024·c' + k
    have hx1 : ∀ (j : Fin 8192), j.val = 1024 * c'.val + k.val → ∀ d : Fin 512,
        iblk2 (Bv3 m ρ) c 1 t (ix2 j d) = Cert.Contrast.stacked (argX m c) (argY m c) (Cert.Contrast.tileCol (c', k)) d := fun j hjv d => by
      rw [iblk2_1_apply (Bv3 m ρ) c t j d, Bv3_v2 m ρ c j d]
      exact congrArg (fun j' => Cert.Contrast.stacked (argX m c) (argY m c) j' d) (Fin.ext (hjv.trans (Cert.Contrast.tileCol_val c' k).symm))
    have hcond : (256 * ((grid2.coords t) (0 : Fin 1)).val + p.val = 1024 * c'.val + k.val) ↔ r = Cert.Contrast.tileCol (c', k) := by
      rw [hi, Fin.ext_iff, Cert.Contrast.tileCol_val]; omega
    rw [rowScores_apply]
    unfold Cert.Contrast.score
    refine if_congr hcond rfl (congrArg (· * Cert.Contrast.two) (Finset.sum_congr rfl fun d _ => ?_))
    exact congrArg₂ (· * ·) ((iblk2_0_apply (Bv3 m ρ) c t p d r hr).trans (Bv3_v2 m ρ c r d)) (hx1 _ rfl d)
  · -- the target column is the partner's
    rw [tgtCol_eq_partner, show (⟨rowNo (grid2.coords t) p, rowNo_lt _ p⟩ : Fin 8192) = r from Fin.ext hrow]

/-- The array of row losses after the third region. -/
theorem final2 (c : Dev nD) (hx : ∀ r j, ∃ a : ℝ, argX m c r j = (a : EReal)) (hy : ∀ r j, ∃ a : ℝ, argY m c r j = (a : EReal))
    (r : Fin 8192) :
    (Bv4 (F := Ideal) m ρ c main_v3 : S8192.Idx → EReal) (ix1 r) = Cert.Contrast.rowLoss (argX m c) (argY m c) r := by
  have e : Bv4 (F := Ideal) m ρ c main_v3 = (dat2 (Bv3 m ρ) c).arrAt 2 cfg2.N := Bd4_v3 m ρ c
  rw [e]
  refine (dat2 (F := Ideal) (Bv3 m ρ) c).arrAt_forall_of_cover 2
    (fun i v => v = Cert.Contrast.rowLoss (argX m c) (argY m c) ⟨(i 0).val, (i 0).isLt⟩) (fun t _ y => ?_) cover2 (ix1 r)
  have hy0 : y = ix1 (y 0) := eq_ix1 y
  have hfl : (dat2 (F := Ideal) (Bv3 m ρ) c).flushed 2 t = loss2 (F := Ideal) (grid2.coords t) (iblk2 (Bv3 m ρ) c 0 t) (iblk2 (Bv3 m ρ) c 1 t) := by
    show (cfg2.win 2).cut (grid2.coords t) ((dat2 (F := Ideal) (Bv3 m ρ) c).after 2 t) = _
    rw [after2_2]
    unfold out2_2
    rw [View.canon_unit_zero hz1]
    rfl
  show (dat2 (F := Ideal) (Bv3 m ρ) c).flushed 2 t y = _
  rw [hfl, hy0]
  refine row2 m ρ c hx hy t (y 0) _ ?_
  exact emb2_2 t (y 0)

/-- THE KERNEL'S RESULT: the mean of the 8192 row losses of the two arguments. -/
theorem value (c : Dev nD) (hx : ∀ r j, ∃ a : ℝ, argX m c r j = (a : EReal)) (hy : ∀ r j, ∃ a : ℝ, argY m c r j = (a : EReal)) :
    (Bd5 (F := Ideal) m ρ c (Proc.devRef .tc main_v5) : S_.Idx → EReal) = fun _ => Cert.Contrast.loss (argX m c) (argY m c) :=
  out_eq m ρ c _ _ (final2 m ρ c hx hy)

end Cert.KernelIdeal.Gen

end
-- ==== Proof.LibTypedRef.lean ====
/-
  A typed reference carries contents to its buffer's own type and back along the equation between the two types; there and
  back is the identity. (The operations of an outlined function are stated at the types of its values and moved to the
  buffers' types this way, so a value read back through several of them is wrapped once per operation; this removes
  every matched pair.) For any signature, buffer type and element values.
-/
import Idealize.ShloMosaic.Lib.StableHlo

namespace Cert.LibTypedRef

open Idealize.ShloMosaic Idealize.ShloMosaic.StableHlo

variable {sig : RefSig} {Val : EltTy → Type} {T : BufTy}

/-- Contents carried to a typed reference's buffer and back are unchanged. -/
theorem ofBuf_toBuf (x : TRef sig T) (v : T.Contents Val) : x.ofBuf (x.toBuf v) = v := by
  obtain ⟨r, h, hd, hu⟩ := x
  subst h
  rfl

end Cert.LibTypedRef
-- ==== Proof.RefValueA.lean ====
/-
  The reference's first half, read index by index: each array divided row-wise by the larger of its Euclidean norm and
  the floor is `nrm`; the two normalised arrays stacked along the rows are `stacked`; the product of the stacked array
  with its transpose is, at row `r` and column `c`, the inner product of rows `r` and `c`; divided by 1/2 — that is,
  multiplied by 2, at every extended real — and with `−∞` selected where the two iotas agree (on the diagonal), it is
  `score`.
-/
import proofs.«127245_j12824772346324_2_alg».proof.Proof.RefReadP
import proofs.«127245_j12824772346324_2_alg».proof.Proof.SpecFinite
import proofs.«127245_j12824772346324_2_alg».proof.Proof.RefOps

noncomputable section

namespace Cert.Contrast.Ref

open Cert.ReferenceIdeal Cert.ReferenceIdeal.ReadP Idealize.ShloMosaic Idealize.ShloMosaic.ValueIdx

/-- An argument array of the reference. -/
abbrev Arr : Type := (⟨S4096x512, .f32⟩ : BufTy).Contents (Elt Ideal)

/-- An argument array as a function of its two coordinates. -/
abbrev arr (x : Arr) : Fin 4096 → Fin 512 → EReal := fun r j => x (ix2 r j)

/-! ## Normalising the rows -/

/-- The first array divided by its floored row norms, at row `r` and column `j`. -/
theorem nrm0 (x0 : Arr) (r : Fin 4096) (j : Fin 512) :
    val_main_v4 (F := Ideal) x0 (ix2 r j) = nrm (arr x0) r j := by
  have e1 : idx_main_call0_v2 (idx_main_v3 (ix2 r j)) = ix1 r :=
    funext fun a => Fin.ext (by match a with | ⟨0, _⟩ => rfl)
  have e2 : ∀ k : Fin 512, idx_main_call0_v1 (ix1 r) k = ix2 r k := fun k =>
    funext fun a => Fin.ext (by match a with | ⟨0, _⟩ => rfl | ⟨1, _⟩ => rfl)
  rw [val_main_v4_apply, val_main_v3_apply, val_main_v2_apply, val_main_v0_apply, val_main_call0_v2_apply, e1,
    val_main_call0_v1_apply, val_main_v1_apply, val_main_cst_apply, val_main_call0_cst_apply]
  simp only [e2, val_main_call0_v0_apply, Ideal.hostDivf_def, Ideal.maximumf_def, Ideal.hostUnary_sqrt_def,
    Ideal.mulf_def, Ideal.ofBits_def, Ideal.ofBits_zero_f32, zero_add]
  rfl

/-- The second array divided by its floored row norms, at row `r` and column `j`. -/
theorem nrm1 (x1 : Arr) (r : Fin 4096) (j : Fin 512) :
    val_main_v9 (F := Ideal) x1 (ix2 r j) = nrm (arr x1) r j := by
  have e1 : idx_main_call1_v2 (idx_main_v8 (ix2 r j)) = ix1 r :=
    funext fun a => Fin.ext (by match a with | ⟨0, _⟩ => rfl)
  have e2 : ∀ k : Fin 512, idx_main_call1_v1 (ix1 r) k = ix2 r k := fun k =>
    funext fun a => Fin.ext (by match a with | ⟨0, _⟩ => rfl | ⟨1, _⟩ => rfl)
  rw [val_main_v9_apply, val_main_v8_apply, val_main_v7_apply, val_main_v5_apply, val_main_call1_v2_apply, e1,
    val_main_call1_v1_apply, val_main_v6_apply, val_main_cst_0_apply, val_main_call1_cst_apply]
  simp only [e2, val_main_call1_v0_apply, Ideal.hostDivf_def, Ideal.maximumf_def, Ideal.hostUnary_sqrt_def,
    Ideal.mulf_def, Ideal.ofBits_def, Ideal.ofBits_zero_f32, zero_add]
  rfl

/-! ## Stacking, and the inner products -/

/-- The concatenation of the two normalised arrays is the stacked array. -/
theorem stacked_eq (x0 x1 : Arr) (r : Fin 8192) (j : Fin 512) :
    val_main_v10 (F := Ideal) x0 x1 (ix2 r j) = stacked (arr x0) (arr x1) r j := by
  unfold val_main_v10
  rw [concat_rows]
  unfold stacked
  by_cases hr : r.val < 4096
  · rw [dif_pos hr, dif_pos hr]; exact nrm0 x0 _ j
  · rw [dif_neg hr, dif_neg hr]; exact nrm1 x1 _ j

/-- The product of the stacked array with its transpose, at row `r` and column `c`: the inner product of rows `r` and
    `c`. -/
theorem dot_eq (x0 x1 : Arr) (r c : Fin 8192) :
    val_main_v12 (F := Ideal) x0 x1 (ix2 r c)
      = ∑ k : Fin 512, stacked (arr x0) (arr x1) r k * stacked (arr x0) (arr x1) c k := by
  rw [val_main_v12_apply]
  refine Finset.sum_congr rfl fun k _ => ?_
  have el : lidx_main_v12 (ix2 r c) k = ix2 r k :=
    funext fun a => Fin.ext (by match a with | ⟨0, _⟩ => rfl | ⟨1, _⟩ => rfl)
  have er : idx_main_v11 (ridx_main_v12 (ix2 r c) k) = ix2 c k :=
    funext fun a => Fin.ext (by match a with | ⟨0, _⟩ => rfl | ⟨1, _⟩ => rfl)
  rw [val_main_v11_apply, el, er, stacked_eq, stacked_eq]

/-! ## The mask, and the scores -/

/-- The comparison of the row iota with the column iota is 1 exactly on the diagonal. -/
theorem eye_eq (r c : Fin 8192) : val_main_v19 (F := Ideal) (ix2 r c) = if r = c then 1#1 else 0#1 := by
  rw [val_main_v19_apply, val_main_v18_apply, val_main_v15_apply, val_main_v17_apply, val_main_c_apply,
    val_main_v16_apply]
  show IntOp.cmpi .eq (BitVec.ofNat 32 r.val + 0#32) (BitVec.ofNat 32 c.val) = _
  rw [BitVec.add_zero, eq_small r.val c.val r.isLt c.isLt]
  by_cases h : r = c
  · rw [if_pos h, if_pos (congrArg Fin.val h)]
  · rw [if_neg h, if_neg fun h' => h (Fin.ext h')]

/-- The masked, scaled similarity at row `r` and column `c` is the score. -/
theorem score_eq (x0 x1 : Arr) (r c : Fin 8192) :
    val_main_v20 (F := Ideal) x0 x1 (ix2 r c) = score (arr x0) (arr x1) r c := by
  rw [val_main_v20_apply, eye_eq, val_main_call2_v1_apply, val_main_call2_v0_apply, val_main_cst_2_apply,
    val_main_v14_apply, val_main_v13_apply, val_main_cst_1_apply, dot_eq]
  simp only [Ideal.ofBits_def, Ideal.hostDivf_def]
  rw [neg_inf_eq, div_half]
  unfold score
  by_cases h : r = c
  · rw [if_pos h, if_pos h]; exact select_one _ _
  · rw [if_neg h, if_neg h, two_eq]; exact select_zero _ _

end Cert.Contrast.Ref

end
-- ==== Proof.RefValueB.lean ====
/-
  The reference's `log_softmax` along the rows, read index by index: the maximum-reduce of a row of scores from `−∞`
  (and the further maximum with `−∞`) is the row's largest score `rowMax`; the scores minus it, exponentiated and
  summed along the row from 0, are the row's normaliser `rowSum`; and the result at row `r` and column `c` is
  `(s_c − M) − log L`.
-/
import proofs.«127245_j12824772346324_2_alg».proof.Proof.RefValueA

noncomputable section

namespace Cert.Contrast.Ref

open Cert.ReferenceIdeal Cert.ReferenceIdeal.Gen Cert.ReferenceIdeal.ReadP Idealize.ShloMosaic Idealize.ShloMosaic.ValueIdx

/-- The row maximum of the masked similarities is the row's largest score. -/
theorem rowMax_eq (x0 x1 : Arr) (r : Fin 8192) :
    val_main_call3_v2 (F := Ideal) x0 x1 (ix1 r) = rowMax (arr x0) (arr x1) r := by
  have hred : val_main_call3_v0 (F := Ideal) x0 x1 (ix1 r)
      = Finset.univ.sup fun c : Fin 8192 => val_main_v20 (F := Ideal) x0 x1 (ix2 r c) :=
    reduce_max_row reducesTo_S8192x8192_S8192_d1 h_S_ (val_main_v20 (F := Ideal) x0 x1)
      (val_main_call3_cst (F := Ideal)) ((val_main_call3_cst_apply _).trans neg_inf_eq) r
  rw [val_main_call3_v2_apply, val_main_call3_v1_apply, val_main_call3_cst_0_apply, hred]
  simp only [Ideal.maximumf_def, Ideal.ofBits_def, neg_inf_eq, score_eq]
  rw [max_eq_right bot_le]
  rfl

/-- A score minus its row's largest. -/
theorem shifted_eq (x0 x1 : Arr) (r c : Fin 8192) :
    val_main_call3_v5 (F := Ideal) x0 x1 (ix2 r c)
      = score (arr x0) (arr x1) r c - rowMax (arr x0) (arr x1) r := by
  have e : idx_main_call3_v3 (idx_main_call3_v4 (ix2 r c)) = ix1 r :=
    funext fun a => Fin.ext (by match a with | ⟨0, _⟩ => rfl)
  rw [val_main_call3_v5_apply, val_main_call3_v4_apply, val_main_call3_v3_apply, e, rowMax_eq, score_eq]
  rfl

/-- The sum along a row of the exponentials of the shifted scores is the row's normaliser. -/
theorem rowSum_eq (x0 x1 : Arr) (r : Fin 8192) :
    val_main_call3_v7 (F := Ideal) x0 x1 (ix1 r) = rowSum (arr x0) (arr x1) r := by
  rw [val_main_call3_v7_apply, val_main_call3_cst_1_apply]
  simp only [Ideal.ofBits_def, Ideal.ofBits_zero_f32, zero_add]
  unfold rowSum
  refine Finset.sum_congr rfl fun k _ => ?_
  have e : idx_main_call3_v7 (ix1 r) k = ix2 r k :=
    funext fun a => Fin.ext (by match a with | ⟨0, _⟩ => rfl | ⟨1, _⟩ => rfl)
  rw [val_main_call3_v6_apply, e, shifted_eq]
  rfl

/-- The logarithm of the softmax at row `r` and column `c`: `(s_c − M) − log L`. -/
theorem logp_eq (x0 x1 : Arr) (r c : Fin 8192) :
    val_main_v25 (F := Ideal) x0 x1 (ix2 r c)
      = (score (arr x0) (arr x1) r c - rowMax (arr x0) (arr x1) r) - Ideal.log (rowSum (arr x0) (arr x1) r) := by
  have e : idx_main_call3_v8 (idx_main_call3_v10 (ix2 r c)) = ix1 r :=
    funext fun a => Fin.ext (by match a with | ⟨0, _⟩ => rfl)
  rw [val_main_v25_apply, shifted_eq, val_main_call3_v10_apply, val_main_call3_v9_apply, val_main_call3_v8_apply, e,
    rowSum_eq]
  rfl

end Cert.Contrast.Ref

end
-- ==== Proof.RefValueC.lean ====
/-
  The reference's labels and its `take_along_axis`, read index by index. The label of row `r` — the concatenation of
  `arange + 4096` and `arange` — is the word of the partner row's number, a natural below 8192: it is not negative, so
  the index is not wrapped; it lies in `[0, 8191]`, so the range mask is 1 at every row and the gathered value, not the
  fill, is selected; and read signed and clamped it is the partner's number, so the gather reads row `r` at its
  partner's column.
-/
import proofs.«127245_j12824772346324_2_alg».proof.Proof.RefReadP
import proofs.«127245_j12824772346324_2_alg».proof.Proof.Spec
import proofs.«127245_j12824772346324_2_alg».proof.Proof.RefOps

noncomputable section

namespace Cert.Contrast.Ref

open Cert.ReferenceIdeal Cert.ReferenceIdeal.Gen Cert.ReferenceIdeal.ReadP Idealize.ShloMosaic Idealize.ShloMosaic.ValueIdx

/-- The label of row `r` is the word of its partner's number. -/
theorem label_eq (r : Fin 8192) : val_main_v24 (F := Ideal) (ix1 r) = BitVec.ofNat 32 (partner r).val := by
  unfold val_main_v24
  rw [concat_vec]
  by_cases hr : r.val < 4096
  · rw [dif_pos hr, val_main_v23_apply, val_main_v21_apply, val_main_v22_apply, val_main_c_3_apply, partner, dif_pos hr]
    exact (BitVec.ofNat_add r.val 4096).symm
  · rw [dif_neg hr, val_main_v21_apply, partner, dif_neg hr]

/-- The label as a column. -/
theorem label_col (r : Fin 8192) :
    val_main_v26 (F := Ideal) (ix2 r (0 : Fin 1)) = BitVec.ofNat 32 (partner r).val := by
  have e : idx_main_v26 (ix2 r (0 : Fin 1)) = ix1 r :=
    funext fun a => Fin.ext (by match a with | ⟨0, _⟩ => rfl)
  rw [val_main_v26_apply, e, label_eq]

/-- The start index of the gather at row `r`: the label is not negative, so it is not wrapped. -/
theorem start_eq (r : Fin 8192) :
    val_main_call4_v5 (F := Ideal) (ix3 r (0 : Fin 1) (0 : Fin 1)) = BitVec.ofNat 32 (partner r).val := by
  have e : idx_main_call4_v5 (ix3 r (0 : Fin 1) (0 : Fin 1)) = ix2 r (0 : Fin 1) := by
    funext a; apply Fin.ext
    match a with
    | ⟨0, _⟩ => show ((r.val * 1 + 0) * 1 + 0) / 1 = r.val; omega
    | ⟨1, _⟩ => rfl
  rw [val_main_call4_v5_apply, e, val_main_call4_v4_apply, val_main_call4_v1_apply, label_col,
    val_main_call4_v0_apply, val_main_call4_c_apply, slt_zero_small _ (partner r).isLt]
  exact select_zero _ _

/-- The start index lies in `[0, 8191]` at every row. -/
theorem inrange (i : S8192x1x1.Idx) : val_main_call4_v11 (F := Ideal) i = 1#1 := by
  obtain ⟨r, a, b, rfl⟩ : ∃ (r : Fin 8192) (a b : Fin 1), i = ix3 r a b := ⟨i 0, i 1, i 2, eq_ix3 i⟩
  obtain rfl : a = 0 := Subsingleton.elim _ _
  obtain rfl : b = 0 := Subsingleton.elim _ _
  rw [val_main_call4_v11_apply, val_main_call4_v7_apply, val_main_call4_v10_apply, start_eq,
    val_main_call4_v6_apply, val_main_call4_c_2_apply, val_main_call4_v9_apply, val_main_call4_v8_apply,
    val_main_call4_c_1_apply, sge_zero_small _ (partner r).isLt, sle_max_small _ (partner r).isLt]
  rfl

/-- So the range mask is 1 at every row. -/
theorem allin (j : S8192x1.Idx) : val_main_call4_v12 (F := Ideal) j = 1#1 :=
  reduce_and_one reducesTo_S8192x1x1_S8192x1_d2 h_S_ (val_main_call4_v11 (F := Ideal))
    (val_main_call4_c_3 (F := Ideal)) (val_main_call4_c_3_apply _) inrange j

/-- The gather at row `r`, when the start index read signed is the number of column `p`: the operand at `(r, p)`. -/
theorem gather_col {α : Type} (y : S8192x8192.Idx → α) (idx : IVec S8192x1x1 32) (r p : Fin 8192)
    (hp : (idx (ix3 r (0 : Fin 1) (0 : Fin 1))).toInt.toNat = p.val) :
    Host.gather gather_S8192x8192_S8192x1x1_S8192x1_n_1_0_0_1_2_11 y idx (ix2 r (0 : Fin 1)) = y (ix2 r p) := by
  refine (gather_at y idx r).trans (congrArg (fun q : Fin 8192 => y (ix2 r q)) (Fin.ext ?_))
  show min (idx (ix3 r (0 : Fin 1) (0 : Fin 1))).toInt.toNat 8191 = p.val
  rw [hp]
  have := p.isLt
  omega

/-- `take_along_axis` at the labels: row `r` of the operand at its partner's column. -/
theorem take_eq (x0 x1 : (⟨S4096x512, .f32⟩ : BufTy).Contents (Elt Ideal)) (r : Fin 8192) :
    val_main_v27 (F := Ideal) x0 x1 (ix2 r (0 : Fin 1)) = val_main_v25 (F := Ideal) x0 x1 (ix2 r (partner r)) := by
  rw [val_main_v27_apply, allin]
  refine (select_one _ _).trans ?_
  unfold val_main_call4_v13
  exact gather_col _ _ r (partner r) (by rw [start_eq]; exact toNat_small _ (partner r).isLt)

end Cert.Contrast.Ref

end
-- ==== Proof.RefValue.lean ====
/-
  The reference's result is the specification's `loss` of its two argument arrays, for arrays whose entries are all
  real numbers. The negated `take_along_axis` of the `log_softmax` at row `r` is `−((s_p − M) − log L)`, with `s_p` the
  score against the partner, `M` the row's largest score and `L` its normaliser; for real entries `s_p` and `M` are
  real and `L` is a positive real, so this is `(M + log L) − s_p`, the row's loss; and the sum of the 8192 rows from 0,
  divided by the word of 8192, is the mean.
-/
import proofs.«127245_j12824772346324_2_alg».proof.Proof.RefValueB
import proofs.«127245_j12824772346324_2_alg».proof.Proof.RefValueC

noncomputable section

namespace Cert.Contrast.Ref

open Cert.ReferenceIdeal Cert.ReferenceIdeal.Gen Cert.ReferenceIdeal.ReadP Idealize.ShloMosaic Idealize.ShloMosaic.ValueIdx

/-- The negated log-probability of row `r`'s label. -/
theorem nll_eq (x0 x1 : Arr) (r : Fin 8192) :
    val_main_v29 (F := Ideal) x0 x1 (ix1 r)
      = -((score (arr x0) (arr x1) r (partner r) - rowMax (arr x0) (arr x1) r)
          - Ideal.log (rowSum (arr x0) (arr x1) r)) := by
  have e : idx_main_v28 (ix1 r) = ix2 r (0 : Fin 1) := by
    funext a; apply Fin.ext
    match a with
    | ⟨0, _⟩ => show r.val / 1 = r.val; exact Nat.div_one _
    | ⟨1, _⟩ => rfl
  rw [val_main_v29_apply, val_main_v28_apply, e, take_eq, logp_eq]
  rfl

/-- For real entries it is the row's loss. -/
theorem nll_eq_rowLoss (x0 x1 : Arr) (h0 : ∀ i, ∃ a : ℝ, x0 i = (a : EReal)) (h1 : ∀ i, ∃ a : ℝ, x1 i = (a : EReal))
    (r : Fin 8192) : val_main_v29 (F := Ideal) x0 x1 (ix1 r) = rowLoss (arr x0) (arr x1) r := by
  have hx : ∀ r j, ∃ a : ℝ, arr x0 r j = (a : EReal) := fun r j => h0 (ix2 r j)
  have hy : ∀ r j, ∃ a : ℝ, arr x1 r j = (a : EReal) := fun r j => h1 (ix2 r j)
  obtain ⟨M, hM⟩ := rowMax_real (arr x0) (arr x1) hx hy r
  obtain ⟨L, hL, hLe⟩ := rowSum_pos (arr x0) (arr x1) hx hy r
  obtain ⟨t, ht⟩ := score_real (arr x0) (arr x1) hx hy r (partner r) (partner_ne r).symm
  rw [nll_eq]
  unfold rowLoss
  rw [hM, hLe, ht]
  exact loss_form M L t hL

/-- THE REFERENCE'S RESULT: the mean of the 8192 row losses. -/
theorem result_eq (x0 x1 : (⟨S4096x512, .f32⟩ : BufTy).Contents (Elt Ideal))
    (h0 : ∀ i, ∃ a : ℝ, x0 i = (a : EReal)) (h1 : ∀ i, ∃ a : ℝ, x1 i = (a : EReal)) :
    val_main_v31 (F := Ideal) x0 x1
      = fun _ => loss (fun r j => x0 (ix2 r j)) (fun r j => x1 (ix2 r j)) := by
  funext i
  rw [val_main_v31_apply, val_main_v30_apply, val_main_cst_4_apply, val_main_cst_5_apply]
  simp only [Ideal.ofBits_def, Ideal.ofBits_zero_f32, zero_add, Ideal.hostDivf_def]
  unfold loss count
  refine congrArg (fun s => Ideal.div s (Ideal.ofBits .f32 0x46000000#32)) ?_
  rw [sum_idx1]
  exact Finset.sum_congr rfl fun r _ => nll_eq_rowLoss x0 x1 h0 h1 r

end Cert.Contrast.Ref

end
-- ==== Proof.PreFinite.lean ====
/-
  Finiteness from the precondition.  The predicate `finite_inputs` is
  `all (|z1| < +inf) && all (|z2| < +inf)` over two arrays of extended reals.
  An extended real x has |x| = max x (-x) < ⊤ exactly when x is neither ⊤ nor ⊥,
  that is, when x is (the image of) a real number.  So the predicate being all ones
  says that every entry of both arrays is a real number.
-/
import proofs.«127245_j12824772346324_2_alg».proof.Defs
import proofs.«127245_j12824772346324_2_alg».proof.Proof.Gen.Pre_finite_inputs
import Idealize.ShloMosaic.Lib.ReduceAll
import Idealize.ShloMosaic.Lib.ValueIdx
import Idealize.ShloMosaic.Lib.IdealHost

noncomputable section

namespace Cert.Contrast.Pre

open Idealize.ShloMosaic Idealize.SL.Sem

/-- The rank-0 shape has exactly one index. -/
instance subsingleton_scalar_idx : Subsingleton Cert.Pre_finite_inputs.S_.Idx :=
  ⟨fun a b => funext fun d => d.elim0⟩

/-- An extended real whose absolute value `max x (-x)` is strictly below `⊤` is a real number:
    at `⊤` the maximum is `⊤`, at `⊥` it is `-⊥ = ⊤`, and neither is below `⊤`. -/
theorem real_of_abs_lt_top (x : EReal) (h : max x (-x) < ⊤) : ∃ a : ℝ, x = (a : EReal) := by
  induction x using EReal.rec with
  | bot => simp at h
  | coe a => exact ⟨a, rfl⟩
  | top => simp at h

/-- The comparison `|x| < +inf` printed for one element, read back: if the one-bit answer is one,
    the element is a real number. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ a : ℝ, x = (a : EReal) := by
  refine real_of_abs_lt_top x ?_
  have e : Ideal.ofBits .f32 0x7F800000#32 = ⊤ := by simp [Ideal.ofBits, Ideal.ieee]
  change BitVec.ofBool (decide (max x (-x) < Ideal.ofBits .f32 0x7F800000#32)) = 1#1 at h
  rw [e] at h
  by_contra hn
  rw [decide_eq_false hn] at h
  exact absurd h (by decide)

/-- Every entry of both argument arrays is a real number when the printed predicate is all ones. -/
theorem finite_of_pre [hPre : Cert.Pre_finite_inputs.Facts]
    (x0 x1 : FVec Ideal Cert.Pre_finite_inputs.S4096x512 .f32)
    (h : Cert.Pre_finite_inputs.fn (F := Ideal) x0 x1 = fun _ => 1#1) :
    (∀ i, ∃ a : ℝ, x0 i = (a : EReal)) ∧ (∀ i, ∃ a : ℝ, x1 i = (a : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_cmp (x0 i) e
  · have e := Host.reduce_andi_all _ _ _ _ _ hb i
    exact real_of_cmp (x1 i) e

/-- The same for the kernel's memory: under the kernel's precondition, on every device both argument
    arrays hold real numbers only. -/
theorem finite_of_pre_kernel [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg1) i = (a : EReal)) :=
  finite_of_pre _ _ (h c)

/-- The same statement with the index ranging over the array shape `[4096, 512]` written out, so that an
    index built from explicit coordinates can be supplied directly. -/
theorem finite_of_pre_kernel_idx [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S4096x512.Idx, ∃ a : ℝ,
        m ((c.tc : Thread Cert.KernelIdeal.nD Cert.KernelIdeal.τ).loc Cert.KernelIdeal.main_arg0) i = (a : EReal))
    ∧ (∀ i : Cert.Pre_finite_inputs.S4096x512.Idx, ∃ a : ℝ,
        m ((c.tc : Thread Cert.KernelIdeal.nD Cert.KernelIdeal.τ).loc Cert.KernelIdeal.main_arg1) i = (a : EReal)) :=
  finite_of_pre _ _ (h c)

end Cert.Contrast.Pre

end
-- ==== Proof.lean ====
/-
  An NT-Xent contrastive loss, computed two ways, is one number on the extended reals.

  Both programs take two arrays `x y : 4096 × 512` of finite entries. Each row is divided by the larger of its Euclidean
  norm and a floor `ε`; the two normalised arrays are stacked into `z : 8192 × 512`; row `r`'s score against column `c` is
  `2 · Σ_d z r d · z c d`, with `−∞` on the diagonal; row `r`'s loss is `(M + log L) − s_partner` with `M` the row's largest
  score, `L = Σ_c exp (s_c − M)` and the partner the same sample in the other half; the result is the mean of the 8192
  losses (`Cert.Contrast.loss`).

  The reference forms the 8192 × 8192 scores whole, divides by 1/2 where the kernel multiplies by 2, and takes
  `−((s_partner − M) − log L)`: equal to the above since `x / (1/2) = x · 2` on every extended real and, `M`, `L > 0` and the
  partner's score being real numbers, the two forms of a row's loss agree. The kernel normalises each argument in four
  blocks of 1024 rows, stacks the results, and for each block of 256 rows takes the columns in eight tiles of 1024,
  keeping a running maximum `m`, a running normaliser `l ← l · exp (m − m') + Σ exp (s − m')` and the partner's score:
  after the eight tiles `m` is the row's maximum and `l` its normaliser, a masked entry contributing `exp (−∞) = 0`. The
  kernel's finite stand-in for `−∞` on the diagonal is read as `−∞`, which is the one rewrite the idealized kernel records,
  eight times (once per tile).

  The frames: each program runs to the end, nothing faulting, with its arguments unchanged — the kernel's three regions
  each through its pipeline's launch, the third holding the one array its two input windows read half and half.
-/
import proofs.«127245_j12824772346324_2_alg».proof.Defs
import proofs.«127245_j12824772346324_2_alg».proof.Proof.Gen.Kernel
import proofs.«127245_j12824772346324_2_alg».proof.Proof.Gen.KernelIdeal
import proofs.«127245_j12824772346324_2_alg».proof.Proof.Gen.ReferenceIdeal
import proofs.«127245_j12824772346324_2_alg».proof.Proof.Gen.Pre_finite_inputs
import proofs.«127245_j12824772346324_2_alg».proof.Proof.KRun
import proofs.«127245_j12824772346324_2_alg».proof.Proof.KIRun
import proofs.«127245_j12824772346324_2_alg».proof.Proof.KIValue
import proofs.«127245_j12824772346324_2_alg».proof.Proof.RefRunP
import proofs.«127245_j12824772346324_2_alg».proof.Proof.RefReadEqP
import proofs.«127245_j12824772346324_2_alg».proof.Proof.RefValue
import proofs.«127245_j12824772346324_2_alg».proof.Proof.PreFinite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the reference: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel's mask fill, a large negative number standing for `−∞`, is `−∞` at the ideal values by the certificate's table. -/
theorem neg_big : IdealRules.named_const.Statement Cert.KernelIdeal.κ "neg_big" .f32 0xF149F2CA#32 ⊥ :=
  IdealRules.named_const.statement Cert.KernelIdeal.κ "neg_big" .f32 0xF149F2CA#32 ⊥ rfl
/-- The idealized kernel differs from the kernel by that reading only, once per tile. -/
theorem preserves : Cert.preserves_Kernel_KernelIdeal :=
  ⟨neg_big, neg_big, neg_big, neg_big, neg_big, neg_big, neg_big, neg_big⟩

/-- From memories agreeing on the two arguments, both programs end with the mean of the row losses of those arguments. -/
theorem algebraic : Cert.algebraic_KernelIdeal_ReferenceIdeal := by
  intro m ρ m' ρ' hpre hagree
  have hfin := fun c => Cert.Contrast.Pre.finite_of_pre_kernel_idx m hpre c
  refine ⟨fun c => fun _ => Cert.Contrast.loss (Cert.KernelIdeal.Gen.argX m c) (Cert.KernelIdeal.Gen.argY m c), ?_, ?_⟩
  · refine (θ_run Cert.KernelIdeal.defs _ _).mono (fun r h c => ⟨?_, ?_, ?_⟩) (Cert.KernelIdeal.Gen.run_all (F := Ideal) m ρ)
    · exact (h c _ (Cert.KernelIdeal.Gen.mem_uc Cert.KernelIdeal.main_v5 (by decide))).trans
        (Cert.KernelIdeal.Gen.value m ρ c (fun r j => (hfin c).1 (ValueIdx.ix2 r j)) (fun r j => (hfin c).2 (ValueIdx.ix2 r j)))
    · exact (h c _ (Cert.KernelIdeal.Gen.mem_uc Cert.KernelIdeal.main_arg0 (by decide))).trans (Cert.KernelIdeal.Gen.Bd5_main_arg0 m ρ c)
    · exact (h c _ (Cert.KernelIdeal.Gen.mem_uc Cert.KernelIdeal.main_arg1 (by decide))).trans (Cert.KernelIdeal.Gen.Bd5_main_arg1 m ρ c)
  · refine (θ_run Cert.ReferenceIdeal.defs _ _).mono (fun r h c => ⟨?_, (h c).2⟩) (Cert.ReferenceIdeal.ValueP.run (F := Ideal) m' ρ')
    rw [(h c).1, Cert.ReferenceIdeal.ReadP.val_main_v31_eq, (hagree c).1, (hagree c).2,
      Cert.Contrast.Ref.result_eq _ _ (hfin c).1 (hfin c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
